-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64x128 : Shape := ⟨2, ![64, 128]⟩
abbrev S128 : Shape := ⟨1, ![128]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S64x1 .f32) (main_arg13 : FVec F S1 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64x1 .f32 := Host.absf main_arg12
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S64x128 .f32) (main_arg9 : FVec F S128 .f32) (main_arg10 : FVec F S64x64 .f32) (main_arg11 : FVec F S64x128 .f32) (main_arg12 : FVec F S64x1 .f32) (main_arg13 : FVec F S1 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg12 main_arg13 main_v48 main_v49 main_v50

def fn_part1 {F : FTy → Type} [FloatOps F] (main_arg5 : FVec F S64x64 .f32) (main_arg6 : FVec F S64x128 .f32) (main_arg7 : FVec F S64x64 .f32) (main_arg8 : FVec F S64x128 .f32) (main_arg9 : FVec F S128 .f32) (main_arg10 : FVec F S64x64 .f32) (main_arg11 : FVec F S64x128 .f32) (main_arg12 : FVec F S64x1 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x64 .f32) (main_arg3 : FVec F S64x128 .f32) (main_arg4 : FVec F S128 .f32) (main_arg5 : FVec F S64x64 .f32) (main_arg6 : FVec F S64x128 .f32) (main_arg7 : FVec F S64x64 .f32) (main_arg8 : FVec F S64x128 .f32) (main_arg9 : FVec F S128 .f32) (main_arg10 : FVec F S64x64 .f32) (main_arg11 : FVec F S64x128 .f32) (main_arg12 : FVec F S64x1 .f32) (main_arg13 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64x128 : Shape := ⟨2, ![64, 128]⟩
abbrev S128 : Shape := ⟨1, ![128]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S64x384 : Shape := ⟨2, ![64, 384]⟩
abbrev S1x128 : Shape := ⟨2, ![1, 128]⟩
abbrev S2000x64 : Shape := ⟨2, ![2000, 64]⟩
abbrev S2000x384 : Shape := ⟨2, ![2000, 384]⟩
abbrev S2000x128 : Shape := ⟨2, ![2000, 128]⟩
abbrev S_ : Shape := ⟨0, ![]⟩
abbrev S1600000x1 : Shape := ⟨2, ![1600000, 1]⟩
abbrev S1600000x64 : Shape := ⟨2, ![1600000, 64]⟩
abbrev S4000x64 : Shape := ⟨2, ![4000, 64]⟩
abbrev S100000 : Shape := ⟨1, ![100000]⟩
abbrev S100000x1 : Shape := ⟨2, ![100000, 1]⟩
abbrev S1x1 : Shape := ⟨2, ![1, 1]⟩
abbrev S2000x1 : Shape := ⟨2, ![2000, 1]⟩

abbrev nBuf : Space → Nat
  | .hbm => 138
  | .vmem => 46
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64x128, .f32⟩
  | 4 => ⟨S128, .f32⟩
  | 5 => ⟨S64x64, .f32⟩
  | 6 => ⟨S64x128, .f32⟩
  | 7 => ⟨S64x64, .f32⟩
  | 8 => ⟨S64x128, .f32⟩
  | 9 => ⟨S128, .f32⟩
  | 10 => ⟨S64x64, .f32⟩
  | 11 => ⟨S64x128, .f32⟩
  | 12 => ⟨S64x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S64x384, .f32⟩
  | 19 => ⟨S1x128, .f32⟩
  | 20 => ⟨S100000x64, .f32⟩
  | 21 => ⟨S100000x64, .f32⟩
  | 22 => ⟨S100000x64, .f32⟩
  | 23 => ⟨S100000x64, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x64, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S_, .f32⟩
  | 57 => ⟨S1600000, .f32⟩
  | 58 => ⟨S_, .f32⟩
  | 59 => ⟨S100000, .f32⟩
  | 60 => ⟨S1600000x1, .i32⟩
  | 61 => ⟨S100000, .f32⟩
  | 62 => ⟨S_, .f32⟩
  | 63 => ⟨S100000, .f32⟩
  | 64 => ⟨S100000, .f32⟩
  | 65 => ⟨S100000x1, .f32⟩
  | 66 => ⟨S100000x64, .f32⟩
  | 67 => ⟨S100000x64, .f32⟩
  | 68 => ⟨S100000x64, .f32⟩
  | 69 => ⟨S_, .f32⟩
  | 70 => ⟨S_, .f32⟩
  | 71 => ⟨S100000x64, .f32⟩
  | 72 => ⟨S100000x64, .i1⟩
  | 73 => ⟨S_, .f32⟩
  | 74 => ⟨S100000x64, .f32⟩
  | 75 => ⟨S100000x64, .f32⟩
  | 76 => ⟨S100000x64, .f32⟩
  | 77 => ⟨S64x384, .f32⟩
  | 78 => ⟨S1x128, .f32⟩
  | 79 => ⟨S100000x64, .f32⟩
  | 80 => ⟨S100000x64, .f32⟩
  | 81 => ⟨S100000x64, .f32⟩
  | 82 => ⟨S100000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S_, .f32⟩
  | 116 => ⟨S1600000, .f32⟩
  | 117 => ⟨S_, .f32⟩
  | 118 => ⟨S100000, .f32⟩
  | 119 => ⟨S1600000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x64, .f32⟩
  | 126 => ⟨S100000x64, .f32⟩
  | 127 => ⟨S100000x64, .f32⟩
  | _ => ⟨S100000x64, .f32⟩

abbrev hbmTy0_1 (i : Nat) : BufTy := match i % 128 with
  | 0 => ⟨S_, .f32⟩
  | 1 => ⟨S_, .f32⟩
  | 2 => ⟨S100000x64, .f32⟩
  | 3 => ⟨S100000x64, .i1⟩
  | 4 => ⟨S_, .f32⟩
  | 5 => ⟨S100000x64, .f32⟩
  | 6 => ⟨S100000x64, .f32⟩
  | 7 => ⟨S100000x64, .f32⟩
  | 8 => ⟨S1x1, .f32⟩
  | 9 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x384, .f32⟩
  | .local _ .vmem, ⟨3, _⟩ => ⟨S1x128, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S2000x64, .f32⟩
  | .local _ .vmem, ⟨21, _⟩ => ⟨S2000x64, .f32⟩
  | .local _ .vmem, ⟨22, _⟩ => ⟨S64x384, .f32⟩
  | .local _ .vmem, ⟨23, _⟩ => ⟨S1x128, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x64, .f32⟩
  | .local _ .vmem, ⟨38, _⟩ => ⟨S4000x64, .f32⟩
  | .local _ .vmem, ⟨39, _⟩ => ⟨S4000x64, .f32⟩
  | .local _ .vmem, ⟨40, _⟩ => ⟨S2000x64, .f32⟩
  | .local _ .vmem, ⟨41, _⟩ => ⟨S2000x64, .f32⟩
  | .local _ .vmem, ⟨42, _⟩ => ⟨S64x1, .f32⟩
  | .local _ .vmem, ⟨43, _⟩ => ⟨S1x1, .f32⟩
  | .local _ .vmem, ⟨44, _⟩ => ⟨S2000x1, .f32⟩
  | .local _ .vmem, ⟨45, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev main_v6_3 : Ref sig .tc := ⟨.hbm, 23, rfl⟩
abbrev main_c : Ref sig .tc := ⟨.hbm, 24, rfl⟩
abbrev main_v7 : Ref sig .tc := ⟨.hbm, 25, rfl⟩
abbrev main_v8 : Ref sig .tc := ⟨.hbm, 26, rfl⟩
abbrev main_c_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45_0 : Ref sig .tc := ⟨.hbm, 79, rfl⟩
abbrev main_v45_1 : Ref sig .tc := ⟨.hbm, 80, rfl⟩
abbrev main_v45_2 : Ref sig .tc := ⟨.hbm, 81, rfl⟩
abbrev main_v45_3 : Ref sig .tc := ⟨.hbm, 82, rfl⟩
abbrev main_c_9 : Ref sig .tc := ⟨.hbm, 83, rfl⟩
abbrev main_v46 : Ref sig .tc := ⟨.hbm, 84, rfl⟩
abbrev main_v47 : Ref sig .tc := ⟨.hbm, 85, rfl⟩
abbrev main_c_10 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_c_11 : Ref sig .tc := ⟨.hbm, 92, rfl⟩
abbrev main_v53 : Ref sig .tc := ⟨.hbm, 93, rfl⟩
abbrev main_v54 : Ref sig .tc := ⟨.hbm, 94, rfl⟩
abbrev main_c_12 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_c_13 : Ref sig .tc := ⟨.hbm, 101, rfl⟩
abbrev main_v60 : Ref sig .tc := ⟨.hbm, 102, rfl⟩
abbrev main_v61 : Ref sig .tc := ⟨.hbm, 103, rfl⟩
abbrev main_c_14 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_15 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_16 : Ref sig .tc := ⟨.hbm, 115, rfl⟩
abbrev main_v71 : Ref sig .tc := ⟨.hbm, 116, rfl⟩
abbrev main_cst_17 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_18 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_19 : Ref sig .tc := ⟨.hbm, 128, rfl⟩
abbrev main_call1_cst : Ref sig .tc := ⟨.hbm, 129, rfl⟩
abbrev main_call1_v0 : Ref sig .tc := ⟨.hbm, 130, rfl⟩
abbrev main_call1_v1 : Ref sig .tc := ⟨.hbm, 131, rfl⟩
abbrev main_call1_v2 : Ref sig .tc := ⟨.hbm, 132, rfl⟩
abbrev main_call1_v3 : Ref sig .tc := ⟨.hbm, 133, rfl⟩
abbrev main_call1_v4 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg3_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem3_1 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![400], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S64x64_S64x128_S64x64_S64x128_S64x384_d1 : Shape.Concatenates [S64x64, S64x128, S64x64, S64x128] S64x384 1
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x384_S64x384_0_0 : ∀ a, (![0, 0] : Fin 2 → Nat) a + S64x384.size a ≤ S64x384.size a
  h_S64x384 : 0 < S64x384.numel
  shapeCasts_S64x384_S64x384 : S64x384.ShapeCasts S64x384
  slices_S2000x384_o0_0_S2000x64 : S2000x384.Slices ![0, 0] S2000x64
  slices_S2000x384_o0_64_S2000x128 : S2000x384.Slices ![0, 64] S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2000x128_o0_0_S2000x64 : S2000x128.Slices ![0, 0] S2000x64
  slices_S2000x128_o0_64_S2000x64 : S2000x128.Slices ![0, 64] S2000x64
  slices_S2000x384_o0_192_S2000x64 : S2000x384.Slices ![0, 192] S2000x64
  slices_S2000x384_o0_256_S2000x128 : S2000x384.Slices ![0, 256] S2000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S2000x64_S2000x64 : S2000x64.ShapeCasts S2000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S2000x64_S64x384_S2000x384_1_0_0_1_n_n_wf : DotDims.WF S2000x64 S64x384 S2000x384 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x384.size a ≤ S64x384.size a
  hwx0_1 : ∀ i : grid0.Coords, EltTy.bits .f32 = 32 ∨ (Rect.block (s := S64x384) S64x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S1600000x64.size a
  hwx1_0 : ∀ i : grid1.Coords, EltTy.bits .f32 = 32 ∨ (Rect.block (s := S1600000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S1600000x64.size a
  hwx1_1 : ∀ i : grid1.Coords, EltTy.bits .f32 = 32 ∨ (Rect.block (s := S1600000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S1600000x64.size a
  hwx1_2 : ∀ i : grid1.Coords, EltTy.bits .f32 = 32 ∨ (Rect.block (s := S1600000x64) S4000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S1600000x64.size a
  hwx1_3 : ∀ i : grid1.Coords, EltTy.bits .f32 = 32 ∨ (Rect.block (s := S1600000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x384.size a ≤ S64x384.size a
  hwx2_1 : ∀ i : grid2.Coords, EltTy.bits .f32 = 32 ∨ (Rect.block (s := S64x384) S64x384.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S1600000x64.size a
  hwx3_0 : ∀ i : grid3.Coords, EltTy.bits .f32 = 32 ∨ (Rect.block (s := S1600000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S1600000x64.size a
  hwx3_1 : ∀ i : grid3.Coords, EltTy.bits .f32 = 32 ∨ (Rect.block (s := S1600000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S1600000x64.size a
  hwx3_2 : ∀ i : grid3.Coords, EltTy.bits .f32 = 32 ∨ (Rect.block (s := S1600000x64) S4000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S1600000x64.size a
  hwx3_3 : ∀ i : grid3.Coords, EltTy.bits .f32 = 32 ∨ (Rect.block (s := S1600000x64) S4000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S100000x1.size a
  hwx4_3 : ∀ i : grid4.Coords, EltTy.bits .f32 = 32 ∨ (Rect.block (s := S100000x1) S2000x1.size (cc4_transform_3 i) (hinb4_3 i)).WholeWords (EltTy.packing .f32)

variable [Facts₀]

def dot_S2000x64_S64x384_S2000x384_1_0_0_1_n_n : DotDims S2000x64 S64x384 S2000x384 where
  lhsContracting := [1]
  rhsContracting := [0]
  lhsNonContracting := [0]
  rhsNonContracting := [1]
  lhsBatch := []
  rhsBatch := []
  wf := dot_S2000x64_S64x384_S2000x384_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S2000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S2000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S2000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_3) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S64x384.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45_0) S2000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v45_1) S2000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v45_2) S2000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v45_3) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S4000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v81) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S2000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64x128 : Shape := ⟨2, ![64, 128]⟩
abbrev S128 : Shape := ⟨1, ![128]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S1x128 : Shape := ⟨2, ![1, 128]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x1 : Shape := ⟨2, ![1, 1]⟩

abbrev nBuf : Space → Nat
  | .hbm => 168
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64x128, .f32⟩
  | 4 => ⟨S128, .f32⟩
  | 5 => ⟨S64x64, .f32⟩
  | 6 => ⟨S64x128, .f32⟩
  | 7 => ⟨S64x64, .f32⟩
  | 8 => ⟨S64x128, .f32⟩
  | 9 => ⟨S128, .f32⟩
  | 10 => ⟨S64x64, .f32⟩
  | 11 => ⟨S64x128, .f32⟩
  | 12 => ⟨S64x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S100000x128, .f32⟩
  | 19 => ⟨S100000x64, .f32⟩
  | 20 => ⟨S100000x64, .f32⟩
  | 21 => ⟨S100000x64, .f32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S100000x128, .f32⟩
  | 28 => ⟨S1x128, .f32⟩
  | 29 => ⟨S100000x128, .f32⟩
  | 30 => ⟨S100000x128, .f32⟩
  | 31 => ⟨S100000x64, .f32⟩
  | 32 => ⟨S100000x64, .f32⟩
  | 33 => ⟨S100000x64, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x64, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S1600000x64, .f32⟩
  | 63 => ⟨S_, .f32⟩
  | 64 => ⟨S1600000x64, .f32⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x64, .f32⟩
  | 81 => ⟨S100000x64, .f32⟩
  | 82 => ⟨S100000x64, .f32⟩
  | 83 => ⟨S_, .f32⟩
  | 84 => ⟨S_, .f32⟩
  | 85 => ⟨S100000x64, .f32⟩
  | 86 => ⟨S100000x64, .i1⟩
  | 87 => ⟨S_, .f32⟩
  | 88 => ⟨S100000x64, .f32⟩
  | 89 => ⟨S100000x64, .f32⟩
  | 90 => ⟨S100000x64, .f32⟩
  | 91 => ⟨S100000x128, .f32⟩
  | 92 => ⟨S100000x64, .f32⟩
  | 93 => ⟨S100000x64, .f32⟩
  | 94 => ⟨S100000x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S100000x128, .f32⟩
  | 101 => ⟨S1x128, .f32⟩
  | 102 => ⟨S100000x128, .f32⟩
  | 103 => ⟨S100000x128, .f32⟩
  | 104 => ⟨S100000x64, .f32⟩
  | 105 => ⟨S100000x64, .f32⟩
  | 106 => ⟨S100000x64, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x64, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x64, .f32⟩
  | 125 => ⟨S1600000x64, .f32⟩
  | 126 => ⟨S_, .i32⟩
  | 127 => ⟨S1600000, .i32⟩
  | _ => ⟨S100000x64, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x64, .f32⟩
  | 7 => ⟨S1600000x64, .f32⟩
  | 8 => ⟨S_, .f32⟩
  | 9 => ⟨S1600000x64, .f32⟩
  | 10 => ⟨S1600000x64, .f32⟩
  | 11 => ⟨S_, .f32⟩
  | 12 => ⟨S100000x64, .f32⟩
  | 13 => ⟨S1600000x1, .i32⟩
  | 14 => ⟨S100000x64, .f32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000x1, .f32⟩
  | 25 => ⟨S100000x64, .f32⟩
  | 26 => ⟨S100000x64, .f32⟩
  | 27 => ⟨S100000x64, .f32⟩
  | 28 => ⟨S_, .f32⟩
  | 29 => ⟨S_, .f32⟩
  | 30 => ⟨S100000x64, .f32⟩
  | 31 => ⟨S100000x64, .i1⟩
  | 32 => ⟨S_, .f32⟩
  | 33 => ⟨S100000x64, .f32⟩
  | 34 => ⟨S100000x64, .f32⟩
  | 35 => ⟨S100000x64, .f32⟩
  | 36 => ⟨S100000x1, .f32⟩
  | 37 => ⟨S1x1, .f32⟩
  | 38 => ⟨S100000x1, .f32⟩
  | 39 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call0_cst : Ref sig .tc := ⟨.hbm, 24, rfl⟩
abbrev main_call0_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_1 : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_3 : Ref sig .tc := ⟨.hbm, 53, rfl⟩
abbrev main_v33 : Ref sig .tc := ⟨.hbm, 54, rfl⟩
abbrev main_v34 : Ref sig .tc := ⟨.hbm, 55, rfl⟩
abbrev main_c_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call1_cst : Ref sig .tc := ⟨.hbm, 63, rfl⟩
abbrev main_call1_v0 : Ref sig .tc := ⟨.hbm, 64, rfl⟩
abbrev main_v41 : Ref sig .tc := ⟨.hbm, 65, rfl⟩
abbrev main_cst : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_call3_cst : Ref sig .tc := ⟨.hbm, 97, rfl⟩
abbrev main_call3_v0 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_9 : Ref sig .tc := ⟨.hbm, 107, rfl⟩
abbrev main_v70 : Ref sig .tc := ⟨.hbm, 108, rfl⟩
abbrev main_v71 : Ref sig .tc := ⟨.hbm, 109, rfl⟩
abbrev main_c_10 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_11 : Ref sig .tc := ⟨.hbm, 116, rfl⟩
abbrev main_v77 : Ref sig .tc := ⟨.hbm, 117, rfl⟩
abbrev main_v78 : Ref sig .tc := ⟨.hbm, 118, rfl⟩
abbrev main_c_12 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_13 : Ref sig .tc := ⟨.hbm, 126, rfl⟩
abbrev main_v85 : Ref sig .tc := ⟨.hbm, 127, rfl⟩
abbrev main_v86 : Ref sig .tc := ⟨.hbm, 128, rfl⟩
abbrev main_c_14 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_call4_cst : Ref sig .tc := ⟨.hbm, 136, rfl⟩
abbrev main_call4_v0 : Ref sig .tc := ⟨.hbm, 137, rfl⟩
abbrev main_v93 : Ref sig .tc := ⟨.hbm, 138, rfl⟩
abbrev main_cst_15 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_16 : Ref sig .tc := ⟨.hbm, 143, rfl⟩
abbrev main_v97 : Ref sig .tc := ⟨.hbm, 144, rfl⟩
abbrev main_cst_17 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_18 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_19 : Ref sig .tc := ⟨.hbm, 156, rfl⟩
abbrev main_call5_cst : Ref sig .tc := ⟨.hbm, 157, rfl⟩
abbrev main_call5_v0 : Ref sig .tc := ⟨.hbm, 158, rfl⟩
abbrev main_call5_v1 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S100000x128_S100000x64_0_0 : S100000x128.Slices ![0, 0] S100000x64
  slices_S100000x128_S100000x64_0_64 : S100000x128.Slices ![0, 64] S100000x64
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x64_S64x128_S100000x128_1_0_0_1_n_n_wf : DotDims.WF S100000x64 S64x128 S100000x128 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x1_S100000x1_1_0_0_1_n_n_wf : DotDims.WF S100000x64 S64x1 S100000x1 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.K.Data0.lean ====
import proofs.«143908_j58153857188396_1_alg».proof.Proof.Gen.Kernel.Launch
import proofs.«143908_j58153857188396_1_alg».proof.Proof.Gen.Kernel.Skeleton
import proofs.«143908_j58153857188396_1_alg».proof.Proof.Gen.Kernel.Points
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 0 (the dense FiLM projection): the windows' blocks, what the body leaves, the proof data -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each staging buffer whole -/

abbrev r0_0 : Rect S2000x64 := Rect.unit (s := S2000x64) ![0, 0] S2000x64.size inb_S2000x64_S2000x64_0_0
abbrev r0_1 : Rect S64x384 := Rect.unit (s := S64x384) ![0, 0] S64x384.size inb_S64x384_S64x384_0_0
abbrev r0_2 : Rect S1x128 := Rect.unit (s := S1x128) ![0, 0] S1x128.size inb_S1x128_S1x128_0_0

/-! ## What the body leaves in each output window's buffer

Each output buffer is stored once, whole; the stored value is a payload of the three input blocks
(`x0` the node features, `x1` the stacked weights, `x2` the FiLM bias). -/

/-- Window 3 (the message projection `h`): columns 0..63 of the product. -/
def out0_3 (x0 : Vec F S2000x64 .f32) (x1 : Vec F S64x384 .f32) (x2 : Vec F S1x128 .f32) : Vec F S2000x64 .f32 :=
  View.canon [⟨r0_0, k0_pay2 (View.ld x0 r0_0) (View.ld x1 r0_1)⟩]

/-- Window 4 (`beta`): columns 0..63 of the biased FiLM block. -/
def out0_4 (x0 : Vec F S2000x64 .f32) (x1 : Vec F S64x384 .f32) (x2 : Vec F S1x128 .f32) : Vec F S2000x64 .f32 :=
  View.canon [⟨r0_0, k0_pay4 (View.ld x0 r0_0) (View.ld x1 r0_1) (View.ld x2 r0_2)⟩]

/-- Window 5 (`gamma`): columns 64..127 of the biased FiLM block. -/
def out0_5 (x0 : Vec F S2000x64 .f32) (x1 : Vec F S64x384 .f32) (x2 : Vec F S1x128 .f32) : Vec F S2000x64 .f32 :=
  View.canon [⟨r0_0, k0_pay5 (View.ld x0 r0_0) (View.ld x1 r0_1) (View.ld x2 r0_2)⟩]

/-- Window 6 (the skip term): `relu (gamma_s * h_s + beta_s)` of the product's last columns. -/
def out0_6 (x0 : Vec F S2000x64 .f32) (x1 : Vec F S64x384 .f32) (x2 : Vec F S1x128 .f32) : Vec F S2000x64 .f32 :=
  View.canon [⟨r0_0, k0_pay6 (View.ld x0 r0_0) (View.ld x1 r0_1)⟩]

/-- One whole-buffer store tiles the buffer (checked by evaluation), so it covers it. -/
theorem cover0_3 (p0 : Vec F S2000x64 .f32) (y : S2000x64.Idx) :
    ∃ pc ∈ ([⟨r0_0, p0⟩] : List (View.Piece (Elt F) S2000x64 .f32)), y ∈ pc.1.set :=
  View.cover_of_tiled [⟨r0_0, p0⟩] S2000x64.size (by rfl) y
theorem cover0_4 (p0 : Vec F S2000x64 .f32) (y : S2000x64.Idx) :
    ∃ pc ∈ ([⟨r0_0, p0⟩] : List (View.Piece (Elt F) S2000x64 .f32)), y ∈ pc.1.set :=
  View.cover_of_tiled [⟨r0_0, p0⟩] S2000x64.size (by rfl) y
theorem cover0_5 (p0 : Vec F S2000x64 .f32) (y : S2000x64.Idx) :
    ∃ pc ∈ ([⟨r0_0, p0⟩] : List (View.Piece (Elt F) S2000x64 .f32)), y ∈ pc.1.set :=
  View.cover_of_tiled [⟨r0_0, p0⟩] S2000x64.size (by rfl) y
theorem cover0_6 (p0 : Vec F S2000x64 .f32) (y : S2000x64.Idx) :
    ∃ pc ∈ ([⟨r0_0, p0⟩] : List (View.Piece (Elt F) S2000x64 .f32)), y ∈ pc.1.set :=
  View.cover_of_tiled [⟨r0_0, p0⟩] S2000x64.size (by rfl) y

/-! ## The pipeline's proof data -/

/-- The proof data of pipeline 0 on core `c`: the arrays as the region finds them (`V`); after the body at
    point `t` each input's buffer at its block and each output's at `out0_W` of the input blocks; the
    invariant the plain class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]

end Cert.Kernel.Hand

end
-- ==== Proof.K.Data1.lean ====
import proofs.«143908_j58153857188396_1_alg».proof.Proof.Gen.Kernel.Launch
import proofs.«143908_j58153857188396_1_alg».proof.Proof.Gen.Kernel.Skeleton
import proofs.«143908_j58153857188396_1_alg».proof.Proof.Gen.Kernel.Points
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 1 (the FiLM mix over an edge block): the windows' blocks, what the body leaves, the proof data -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each staging buffer whole -/

abbrev r1_0 : Rect S4000x64 := Rect.unit (s := S4000x64) ![0, 0] S4000x64.size inb_S4000x64_S4000x64_0_0

/-! ## What the body leaves in the output window's buffer -/

/-- Window 3: `relu (g * h + b)` pointwise, `x0` the gathered messages `h`, `x1` the gathered shifts `b`,
    `x2` the gathered scales `g` (the body reads the scales first). One whole-buffer store. -/
def out1_3 (x0 : Vec F S4000x64 .f32) (x1 : Vec F S4000x64 .f32) (x2 : Vec F S4000x64 .f32) : Vec F S4000x64 .f32 :=
  View.canon [⟨r1_0, k1_pay1 (View.ld x2 r1_0) (View.ld x0 r1_0) (View.ld x1 r1_0)⟩]

/-- One whole-buffer store tiles the buffer (checked by evaluation), so it covers it. -/
theorem cover1_3 (p0 : Vec F S4000x64 .f32) (y : S4000x64.Idx) :
    ∃ pc ∈ ([⟨r1_0, p0⟩] : List (View.Piece (Elt F) S4000x64 .f32)), y ∈ pc.1.set :=
  View.cover_of_tiled [⟨r1_0, p0⟩] S4000x64.size (by rfl) y

/-! ## The pipeline's proof data -/

/-- The proof data of pipeline 1 on core `c`: the arrays as the region finds them (`V`); after the body at
    point `t` each input's buffer at its block and the output's at `out1_3` of the input blocks; the
    invariant the plain class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

end Cert.Kernel.Hand

end
-- ==== Proof.K.Data2.lean ====
import proofs.«143908_j58153857188396_1_alg».proof.Proof.Gen.Kernel.Launch
import proofs.«143908_j58153857188396_1_alg».proof.Proof.Gen.Kernel.Skeleton
import proofs.«143908_j58153857188396_1_alg».proof.Proof.Gen.Kernel.Points
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 2 (the dense FiLM projection): the windows' blocks, what the body leaves, the proof data -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each staging buffer whole -/

abbrev r2_0 : Rect S2000x64 := Rect.unit (s := S2000x64) ![0, 0] S2000x64.size inb_S2000x64_S2000x64_0_0
abbrev r2_1 : Rect S64x384 := Rect.unit (s := S64x384) ![0, 0] S64x384.size inb_S64x384_S64x384_0_0
abbrev r2_2 : Rect S1x128 := Rect.unit (s := S1x128) ![0, 0] S1x128.size inb_S1x128_S1x128_0_0

/-! ## What the body leaves in each output window's buffer

Each output buffer is stored once, whole; the stored value is a payload of the three input blocks
(`x0` the node features, `x1` the stacked weights, `x2` the FiLM bias). -/

/-- Window 3 (the message projection `h`): columns 0..63 of the product. -/
def out2_3 (x0 : Vec F S2000x64 .f32) (x1 : Vec F S64x384 .f32) (x2 : Vec F S1x128 .f32) : Vec F S2000x64 .f32 :=
  View.canon [⟨r2_0, k2_pay2 (View.ld x0 r2_0) (View.ld x1 r2_1)⟩]

/-- Window 4 (`beta`): columns 0..63 of the biased FiLM block. -/
def out2_4 (x0 : Vec F S2000x64 .f32) (x1 : Vec F S64x384 .f32) (x2 : Vec F S1x128 .f32) : Vec F S2000x64 .f32 :=
  View.canon [⟨r2_0, k2_pay4 (View.ld x0 r2_0) (View.ld x1 r2_1) (View.ld x2 r2_2)⟩]

/-- Window 5 (`gamma`): columns 64..127 of the biased FiLM block. -/
def out2_5 (x0 : Vec F S2000x64 .f32) (x1 : Vec F S64x384 .f32) (x2 : Vec F S1x128 .f32) : Vec F S2000x64 .f32 :=
  View.canon [⟨r2_0, k2_pay5 (View.ld x0 r2_0) (View.ld x1 r2_1) (View.ld x2 r2_2)⟩]

/-- Window 6 (the skip term): `relu (gamma_s * h_s + beta_s)` of the product's last columns. -/
def out2_6 (x0 : Vec F S2000x64 .f32) (x1 : Vec F S64x384 .f32) (x2 : Vec F S1x128 .f32) : Vec F S2000x64 .f32 :=
  View.canon [⟨r2_0, k2_pay6 (View.ld x0 r2_0) (View.ld x1 r2_1)⟩]

/-- One whole-buffer store tiles the buffer (checked by evaluation), so it covers it. -/
theorem cover2_3 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y
theorem cover2_4 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y
theorem cover2_5 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y
theorem cover2_6 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The pipeline's proof data -/

/-- The proof data of pipeline 2 on core `c`: the arrays as the region finds them (`V`); after the body at
    point `t` each input's buffer at its block and each output's at `out2_W` of the input blocks; the
    invariant the plain class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
    | ⟨5, _⟩ => out2_5 (iblk2 V c 0 t) (iblk2 V c 1 t) (iblk2 V c 2 t)
    | ⟨6, _⟩ => out2_6 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 1 t) (iblk2 V c 2 t) := by dsimp only [dat2]
theorem after2_6 (c : Dev nD) (t : Fin cfg2.N) : (dat2 V c).after 6 t = out2_6 (iblk2 V c 0 t) (iblk2 V c 1 t) (iblk2 V c 2 t) := by dsimp only [dat2]

end Cert.Kernel.Hand

end
-- ==== Proof.K.Data3.lean ====
import proofs.«143908_j58153857188396_1_alg».proof.Proof.Gen.Kernel.Launch
import proofs.«143908_j58153857188396_1_alg».proof.Proof.Gen.Kernel.Skeleton
import proofs.«143908_j58153857188396_1_alg».proof.Proof.Gen.Kernel.Points
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 3 (the FiLM mix over an edge block): the windows' blocks, what the body leaves, the proof data -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each staging buffer whole -/

abbrev r3_0 : Rect S4000x64 := Rect.unit (s := S4000x64) ![0, 0] S4000x64.size inb_S4000x64_S4000x64_0_0

/-! ## What the body leaves in the output window's buffer -/

/-- Window 3: `relu (g * h + b)` pointwise, `x0` the gathered messages `h`, `x1` the gathered shifts `b`,
    `x2` the gathered scales `g` (the body reads the scales first). One whole-buffer store. -/
def out3_3 (x0 : Vec F S4000x64 .f32) (x1 : Vec F S4000x64 .f32) (x2 : Vec F S4000x64 .f32) : Vec F S4000x64 .f32 :=
  View.canon [⟨r3_0, k3_pay1 (View.ld x2 r3_0) (View.ld x0 r3_0) (View.ld x1 r3_0)⟩]

/-- One whole-buffer store tiles the buffer (checked by evaluation), so it covers it. -/
theorem cover3_3 (p0 : Vec F S4000x64 .f32) (y : S4000x64.Idx) :
    ∃ pc ∈ ([⟨r3_0, p0⟩] : List (View.Piece (Elt F) S4000x64 .f32)), y ∈ pc.1.set :=
  View.cover_of_tiled [⟨r3_0, p0⟩] S4000x64.size (by rfl) y

/-! ## The pipeline's proof data -/

/-- The proof data of pipeline 3 on core `c`: the arrays as the region finds them (`V`); after the body at
    point `t` each input's buffer at its block and the output's at `out3_3` of the input blocks; the
    invariant the plain class's (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

end Cert.Kernel.Hand

end
-- ==== Proof.K.Data4.lean ====
import proofs.«143908_j58153857188396_1_alg».proof.Proof.Gen.Kernel.Launch
import proofs.«143908_j58153857188396_1_alg».proof.Proof.Gen.Kernel.Skeleton
import proofs.«143908_j58153857188396_1_alg».proof.Proof.Gen.Kernel.Points
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 4 (the output head): the windows' blocks, what the body leaves, the proof data -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: each staging buffer whole -/

abbrev r4_0 : Rect S2000x64 := Rect.unit (s := S2000x64) ![0, 0] S2000x64.size inb_S2000x64_S2000x64_0_0
abbrev r4_1 : Rect S64x1 := Rect.unit (s := S64x1) ![0, 0] S64x1.size inb_S64x1_S64x1_0_0
abbrev r4_2 : Rect S1x1 := Rect.unit (s := S1x1) ![0, 0] S1x1.size inb_S1x1_S1x1_0_0
abbrev r4_3 : Rect S2000x1 := Rect.unit (s := S2000x1) ![0, 0] S2000x1.size inb_S2000x1_S2000x1_0_0

/-! ## What the body leaves in the output window's buffer -/

/-- Window 3: the node block times the head weights plus the head bias (`x0` the node features, `x1` the
    weights, `x2` the bias). One whole-buffer store. -/
def out4_3 (x0 : Vec F S2000x64 .f32) (x1 : Vec F S64x1 .f32) (x2 : Vec F S1x1 .f32) : Vec F S2000x1 .f32 :=
  View.canon [⟨r4_3, k4_pay1 (View.ld x0 r4_0) (View.ld x1 r4_1) (View.ld x2 r4_2)⟩]

/-- One whole-buffer store tiles the buffer (checked by evaluation), so it covers it. -/
theorem cover4_3 (p0 : Vec F S2000x1 .f32) (y : S2000x1.Idx) :
    ∃ pc ∈ ([⟨r4_3, p0⟩] : List (View.Piece (Elt F) S2000x1 .f32)), y ∈ pc.1.set :=
  View.cover_of_tiled [⟨r4_3, p0⟩] S2000x1.size (by rfl) y

/-! ## The pipeline's proof data -/

/-- The proof data of pipeline 4 on core `c`: the arrays as the region finds them (`V`); after the body at
    point `t` each input's buffer at its block and the output's at `out4_3` of the input blocks; the
    invariant the plain class's (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

end Cert.Kernel.Hand

end
-- ==== Proof.K.Fold.lean ====
import proofs.«143908_j58153857188396_1_alg».proof.Proof.K.Data0
import proofs.«143908_j58153857188396_1_alg».proof.Proof.K.Data1
import proofs.«143908_j58153857188396_1_alg».proof.Proof.K.Data2
import proofs.«143908_j58153857188396_1_alg».proof.Proof.K.Data3
import proofs.«143908_j58153857188396_1_alg».proof.Proof.K.Data4
import Idealize.ShloMosaic.Lib.Pipeline.FrameSuffix

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between two items of @main: a fold from the launch memory

@main is fourteen items: a stretch of host operations or a kernel region, in the order
host, region 0, host, region 1, host, host, host, region 2, host, region 3, host, host, host, region 4.
`WJ` is what core `c`'s buffers hold after the first `J` items: a stretch's `StableHlo.after`; a region's
arrays at what its write-backs leave, every other buffer as the region found it. -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After `hostOps2`. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- After `hostOps2_1`. -/
abbrev W6 : Dev nD → Valuation τ sig (Elt F) := fun c => StableHlo.after hostOps2_1 (W5 m ρ c)
/-- The same read at the TensorCore's references. -/
abbrev V6 : (c : Dev nD) → (b : Ref sig .tc) → Buf (Elt F) ((c : Thread nD τ).loc b) := fun c b => W6 m ρ c b
/-- After `hostOps2_2`. -/
abbrev W7 : Dev nD → Valuation τ sig (Elt F) := fun c => StableHlo.after hostOps2_2 (W6 m ρ c)
/-- The same read at the TensorCore's references. -/
abbrev V7 : (c : Dev nD) → (b : Ref sig .tc) → Buf (Elt F) ((c : Thread nD τ).loc b) := fun c b => W7 m ρ c b
/-- At region 2's exit: its arrays at what the pipeline leaves (the inputs as entered, each output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (region 2's exit contents). -/
abbrev V8 : (c : Dev nD) → (b : Ref sig .tc) → Buf (Elt F) ((c : Thread nD τ).loc b) := fun c b => W8 m ρ c b
/-- At region 2's exit each of its arrays holds what the pipeline leaves (`hF2`) and every other buffer what it
    held at entry (`hrest2`). -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After `hostOps3`. -/
abbrev W9 : Dev nD → Valuation τ sig (Elt F) := fun c => StableHlo.after hostOps3 (W8 m ρ c)
/-- The same read at the TensorCore's references. -/
abbrev V9 : (c : Dev nD) → (b : Ref sig .tc) → Buf (Elt F) ((c : Thread nD τ).loc b) := fun c b => W9 m ρ c b
/-- At region 3's exit: its arrays at what the pipeline leaves (the inputs as entered, each output's write-backs
    folded), every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- The same read at the TensorCore's references (region 3's exit contents). -/
abbrev V10 : (c : Dev nD) → (b : Ref sig .tc) → Buf (Elt F) ((c : Thread nD τ).loc b) := fun c b => W10 m ρ c b
/-- At region 3's exit each of its arrays holds what the pipeline leaves (`hF3`) and every other buffer what it
    held at entry (`hrest3`). -/
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- After `hostOps4`. -/
abbrev W11 : Dev nD → Valuation τ sig (Elt F) := fun c => StableHlo.after hostOps4 (W10 m ρ c)
/-- The same read at the TensorCore's references. -/
abbrev V11 : (c : Dev nD) → (b : Ref sig .tc) → Buf (Elt F) ((c : Thread nD τ).loc b) := fun c b => W11 m ρ c b
/-- After `hostOps4_1`. -/
abbrev W12 : Dev nD → Valuation τ sig (Elt F) := fun c => StableHlo.after hostOps4_1 (W11 m ρ c)
/-- The same read at the TensorCore's references. -/
abbrev V12 : (c : Dev nD) → (b : Ref sig .tc) → Buf (Elt F) ((c : Thread nD τ).loc b) := fun c b => W12 m ρ c b
/-- After `hostOps4_2`. -/
abbrev W13 : Dev nD → Valuation τ sig (Elt F) := fun c => StableHlo.after hostOps4_2 (W12 m ρ c)
/-- The same read at the TensorCore's references. -/
abbrev V13 : (c : Dev nD) → (b : Ref sig .tc) → Buf (Elt F) ((c : Thread nD τ).loc b) := fun c b => W13 m ρ c b
/-- At region 4's exit: its arrays at what the pipeline leaves (the inputs as entered, each output's write-backs
    folded), every other buffer as entered. -/
def W14 (c : Dev nD) : Valuation τ sig (Elt F) :=
  Pipeline.withArrays spec4 c (W13 m ρ c) fun w => (dat4 (V13 m ρ) c).arrAt w cfg4.N
theorem W14_arr (c : Dev nD) (w : Fin cfg4.W) :
    W14 m ρ c (Proc.devRef .tc (Pipeline.arrRef spec4 w)) = (dat4 (V13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
/-- The same read at the TensorCore's references (region 4's exit contents). -/
abbrev V14 : (c : Dev nD) → (b : Ref sig .tc) → Buf (Elt F) ((c : Thread nD τ).loc b) := fun c b => W14 m ρ c b
/-- At region 4's exit each of its arrays holds what the pipeline leaves (`hF4`) and every other buffer what it
    held at entry (`hrest4`). -/
theorem hF4 (c : Dev nD) (w : Fin cfg4.W) : (dat4 (V13 m ρ) c).arrAt w cfg4.N = V14 m ρ c (Pipeline.arrRef spec4 w) :=
  (W14_arr m ρ c w).symm
theorem hrest4 (c : Dev nD) : ∀ b, b ∉ Finset.univ.image (Pipeline.arrRef spec4) → V14 m ρ c b = V13 m ρ c b :=
  fun b hb => W14_of_ne m ρ c b fun w e => hb (Finset.mem_image.mpr ⟨w, Finset.mem_univ _, e⟩)

end Cert.Kernel.Hand

end
-- ==== Proof.K.Body0.lean ====
import proofs.«143908_j58153857188396_1_alg».proof.Proof.Gen.Kernel.Launch
import proofs.«143908_j58153857188396_1_alg».proof.Proof.Gen.Kernel.Skeleton
import proofs.«143908_j58153857188396_1_alg».proof.Proof.Gen.Kernel.Points
import proofs.«143908_j58153857188396_1_alg».proof.Proof.K.Data0
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 0 (the dense FiLM projection): the body's triple and the body obligation -/

/-! ## What the body finds in each input window's buffer -/

/-- Input window 0's current staging buffer holds its block at every point, fetched there or not, for ANY proof
    data whose array is `V`'s (`hA`) and whose body leaves the block in place (`hafter`): unfetched, the
    block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the
    block index has not moved (this window's index never moves: it is fetched at the first point only); the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the
    block index has not moved (this window's index never moves: it is fetched at the first point only); the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

set_option maxHeartbeats 4000000 in
/-- The kernel body on whole staging memrefs, the inputs' at read contents `xW` and the outputs' at anything, runs to
    the continuation holding the inputs' as they were and each output's at `out0_W` of the inputs': the printed
    function is its skeleton, which the symbolic executor runs; before each store the body loads the output buffer
    once, which returns whatever it held and is not used. -/
theorem sound_kernel0 (c : Dev nD) (E : Set ℕ) (i : grid0.Coords)
    (arg1 : Memref sig .tc .vmem S2000x64 .f32) (harg1 : arg1.IsWhole) (arg2 : Memref sig .tc .vmem S64x384 .f32) (harg2 : arg2.IsWhole)
    (arg3 : Memref sig .tc .vmem S1x128 .f32) (harg3 : arg3.IsWhole) (arg4 : Memref sig .tc .vmem S2000x64 .f32) (harg4 : arg4.IsWhole)
    (arg5 : Memref sig .tc .vmem S2000x64 .f32) (harg5 : arg5.IsWhole) (arg6 : Memref sig .tc .vmem S2000x64 .f32) (harg6 : arg6.IsWhole)
    (arg7 : Memref sig .tc .vmem S2000x64 .f32) (harg7 : arg7.IsWhole)
    (x0 : Vec F S2000x64 .f32) (x1 : Vec F S64x384 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2) ∗ owns (c : Thread nD τ) arg7 fullShare (out0_6 x0 x1 x2)) -∗ K ⟨⟩))
      ⊢ wp frame (wpE (defs₀ (F := F)) Variants.none c none) E
          (cc0__dense_film_kernel i arg1 harg1 arg2 harg2 arg3 harg3 arg4 harg4 arg5 harg5 arg6 harg6 arg7 harg7) K := by
  simp only [cc0__dense_film_kernel_eq_skeleton]; unfold cc0__dense_film_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's owed accounts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
import proofs.«143908_j58153857188396_1_alg».proof.Proof.Gen.Kernel.Launch
import proofs.«143908_j58153857188396_1_alg».proof.Proof.Gen.Kernel.Skeleton
import proofs.«143908_j58153857188396_1_alg».proof.Proof.Gen.Kernel.Points
import proofs.«143908_j58153857188396_1_alg».proof.Proof.K.Data1
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 1 (the FiLM mix over an edge block): the body's triple and the body obligation -/

/-! ## What the body finds in each input window's buffer -/

/-- Input window 0's current staging buffer holds its block at every point, fetched there or not, for ANY proof
    data whose array is `V`'s (`hA`) and whose body leaves the block in place (`hafter`): unfetched, the
    block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's triple -/

set_option maxHeartbeats 1000000 in
/-- The kernel body on whole staging memrefs, the inputs' at read contents `xW` and the output's at anything, runs to
    the continuation holding the inputs' as they were and the output's at `out1_3` of the inputs': the printed
    function is its skeleton, which the symbolic executor runs; the body's one load of the output buffer returns
    whatever it held and is not used. -/
theorem sound_kernel1 (c : Dev nD) (E : Set ℕ) (i : grid1.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (x0 x1 x2 : Vec F S4000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__filmmix_kernel i arg1 harg1 arg2 harg2 arg3 harg3 arg4 harg4) K := by
  simp only [cc1__filmmix_kernel_eq_skeleton]; unfold cc1__filmmix_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's owed accounts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
import proofs.«143908_j58153857188396_1_alg».proof.Proof.Gen.Kernel.Launch
import proofs.«143908_j58153857188396_1_alg».proof.Proof.Gen.Kernel.Skeleton
import proofs.«143908_j58153857188396_1_alg».proof.Proof.Gen.Kernel.Points
import proofs.«143908_j58153857188396_1_alg».proof.Proof.K.Data2
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 2 (the dense FiLM projection): the body's triple and the body obligation -/

/-! ## What the body finds in each input window's buffer -/

/-- Input window 0's current staging buffer holds its block at every point, fetched there or not, for ANY proof
    data whose array is `V`'s (`hA`) and whose body leaves the block in place (`hafter`): unfetched, the
    block index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof
    data whose array is `V`'s (`hA`) and whose body leaves the block in place (`hafter`): unfetched, the
    block index has not moved (this window's index never moves: it is fetched at the first point only); the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof
    data whose array is `V`'s (`hA`) and whose body leaves the block in place (`hafter`): unfetched, the
    block index has not moved (this window's index never moves: it is fetched at the first point only); the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body's triple -/

set_option maxHeartbeats 4000000 in
/-- The kernel body on whole staging memrefs, the inputs' at read contents `xW` and the outputs' at anything, runs to
    the continuation holding the inputs' as they were and each output's at `out2_W` of the inputs': the printed
    function is its skeleton, which the symbolic executor runs; before each store the body loads the output buffer
    once, which returns whatever it held and is not used. -/
theorem sound_kernel2 (c : Dev nD) (E : Set ℕ) (i : grid2.Coords)
    (arg1 : Memref sig .tc .vmem S2000x64 .f32) (harg1 : arg1.IsWhole) (arg2 : Memref sig .tc .vmem S64x384 .f32) (harg2 : arg2.IsWhole)
    (arg3 : Memref sig .tc .vmem S1x128 .f32) (harg3 : arg3.IsWhole) (arg4 : Memref sig .tc .vmem S2000x64 .f32) (harg4 : arg4.IsWhole)
    (arg5 : Memref sig .tc .vmem S2000x64 .f32) (harg5 : arg5.IsWhole) (arg6 : Memref sig .tc .vmem S2000x64 .f32) (harg6 : arg6.IsWhole)
    (arg7 : Memref sig .tc .vmem S2000x64 .f32) (harg7 : arg7.IsWhole)
    (x0 : Vec F S2000x64 .f32) (x1 : Vec F S64x384 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2) ∗ owns (c : Thread nD τ) arg5 fullShare (out2_4 x0 x1 x2)
            ∗ owns (c : Thread nD τ) arg6 fullShare (out2_5 x0 x1 x2) ∗ owns (c : Thread nD τ) arg7 fullShare (out2_6 x0 x1 x2)) -∗ K ⟨⟩))
      ⊢ wp frame (wpE (defs₀ (F := F)) Variants.none c none) E
          (cc2__dense_film_kernel i arg1 harg1 arg2 harg2 arg3 harg3 arg4 harg4 arg5 harg5 arg6 harg6 arg7 harg7) K := by
  simp only [cc2__dense_film_kernel_eq_skeleton]; unfold cc2__dense_film_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  isplitl [H4]
  · iexists _; isplitr
    swap; · iexact H4
    ipureintro
    exact View.read_writes_eq_canon _ _ _ (cover2_4 _)
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's owed accounts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
import proofs.«143908_j58153857188396_1_alg».proof.Proof.Gen.Kernel.Launch
import proofs.«143908_j58153857188396_1_alg».proof.Proof.Gen.Kernel.Skeleton
import proofs.«143908_j58153857188396_1_alg».proof.Proof.Gen.Kernel.Points
import proofs.«143908_j58153857188396_1_alg».proof.Proof.K.Data3
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 3 (the FiLM mix over an edge block): the body's triple and the body obligation -/

/-! ## What the body finds in each input window's buffer -/

/-- Input window 0's current staging buffer holds its block at every point, fetched there or not, for ANY proof
    data whose array is `V`'s (`hA`) and whose body leaves the block in place (`hafter`): unfetched, the
    block index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body's triple -/

set_option maxHeartbeats 1000000 in
/-- The kernel body on whole staging memrefs, the inputs' at read contents `xW` and the output's at anything, runs to
    the continuation holding the inputs' as they were and the output's at `out3_3` of the inputs': the printed
    function is its skeleton, which the symbolic executor runs; the body's one load of the output buffer returns
    whatever it held and is not used. -/
theorem sound_kernel3 (c : Dev nD) (E : Set ℕ) (i : grid3.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (x0 x1 x2 : Vec F S4000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__filmmix_kernel i arg1 harg1 arg2 harg2 arg3 harg3 arg4 harg4) K := by
  simp only [cc3__filmmix_kernel_eq_skeleton]; unfold cc3__filmmix_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The body obligation, at a generic point -/

/-- What the body is called with at point `t` (the library's body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's owed accounts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Body4.lean ====
import proofs.«143908_j58153857188396_1_alg».proof.Proof.Gen.Kernel.Launch
import proofs.«143908_j58153857188396_1_alg».proof.Proof.Gen.Kernel.Skeleton
import proofs.«143908_j58153857188396_1_alg».proof.Proof.Gen.Kernel.Points
import proofs.«143908_j58153857188396_1_alg».proof.Proof.K.Data4
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 4 (the output head): the body's triple and the body obligation -/

/-! ## What the body finds in each input window's buffer -/

/-- Input window 0's current staging buffer holds its block at every point, fetched there or not, for ANY proof
    data whose array is `V`'s (`hA`) and whose body leaves the block in place (`hafter`): unfetched, the
    block index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for ANY proof
    data whose array is `V`'s (`hA`) and whose body leaves the block in place (`hafter`): unfetched, the
    block index has not moved (this window's index never moves: it is fetched at the first point only); the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for ANY proof
    data whose array is `V`'s (`hA`) and whose body leaves the block in place (`hafter`): unfetched, the
    block index has not moved (this window's index never moves: it is fetched at the first point only); the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body's triple -/

set_option maxHeartbeats 1000000 in
/-- The kernel body on whole staging memrefs, the inputs' at read contents `xW` and the output's at anything, runs to
    the continuation holding the inputs' as they were and the output's at `out4_3` of the inputs': the printed
    function is its skeleton, which the symbolic executor runs; the body's one load of the output buffer returns
    whatever it held and is not used. -/
theorem sound_kernel4 (c : Dev nD) (E : Set ℕ) (i : grid4.Coords)
    (arg1 : Memref sig .tc .vmem S2000x64 .f32) (harg1 : arg1.IsWhole) (arg2 : Memref sig .tc .vmem S64x1 .f32) (harg2 : arg2.IsWhole)
    (arg3 : Memref sig .tc .vmem S1x1 .f32) (harg3 : arg3.IsWhole) (arg4 : Memref sig .tc .vmem S2000x1 .f32) (harg4 : arg4.IsWhole)
    (x0 : Vec F S2000x64 .f32) (x1 : Vec F S64x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__head_kernel i arg1 harg1 arg2 harg2 arg3 harg3 arg4 harg4) K := by
  simp only [cc4__head_kernel_eq_skeleton]; unfold cc4__head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The body obligation, at a generic point -/

/-- What the body is called with at point `t` (the library's body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's owed accounts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
import proofs.«143908_j58153857188396_1_alg».proof.Proof.K.Fold
import proofs.«143908_j58153857188396_1_alg».proof.Proof.K.Body0
import proofs.«143908_j58153857188396_1_alg».proof.Proof.K.Body1
import proofs.«143908_j58153857188396_1_alg».proof.Proof.K.Body2
import proofs.«143908_j58153857188396_1_alg».proof.Proof.K.Body3
import proofs.«143908_j58153857188396_1_alg».proof.Proof.K.Body4
import proofs.«143908_j58153857188396_1_alg».proof.Proof.Gen.Kernel.Regions
import Idealize.ShloMosaic.Lib.Pipeline.RegionsLoop

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: its fourteen items as segments, from the launch to the return

The buffer contents at each boundary are the fold `W0 … W14`. Here: each argument array read back through the fold to
its launch contents; every pipeline's proof data at its region's entry contents; a host segment per stretch and a region
segment per kernel region over the thread state "every unscoped buffer at the boundary's contents, the generator register
at some state, nothing owed"; and the launch theorem over the segments. -/

/-! ## The arguments end as launched

No host operation writes an argument; a region reads an argument through an input window (whose array the pipeline
leaves as entered) or does not touch it. So the fold at an argument's buffer walks back to the launch memory. -/

theorem W14_main_arg0 (c : Dev nD) : W14 m ρ c (Proc.devRef .tc main_arg0) = m ((c : Thread nD τ).loc main_arg0) :=
  calc W14 m ρ c (Proc.devRef .tc main_arg0)
    _ = W13 m ρ c (Proc.devRef .tc main_arg0) := W14_of_ne m ρ c main_arg0 (by decide)
    _ = W12 m ρ c (Proc.devRef .tc main_arg0) := StableHlo.after_of_writes_sub hostOps4_2 _ hostOps4_2_writes (by decide)
    _ = W11 m ρ c (Proc.devRef .tc main_arg0) := StableHlo.after_of_writes_sub hostOps4_1 _ hostOps4_1_writes (by decide)
    _ = W10 m ρ c (Proc.devRef .tc main_arg0) := StableHlo.after_of_writes_sub hostOps4 _ hostOps4_writes (by decide)
    _ = W9 m ρ c (Proc.devRef .tc main_arg0) := W10_of_ne m ρ c main_arg0 (by decide)
    _ = W8 m ρ c (Proc.devRef .tc main_arg0) := StableHlo.after_of_writes_sub hostOps3 _ hostOps3_writes (by decide)
    _ = W7 m ρ c (Proc.devRef .tc main_arg0) := W8_of_ne m ρ c main_arg0 (by decide)
    _ = W6 m ρ c (Proc.devRef .tc main_arg0) := StableHlo.after_of_writes_sub hostOps2_2 _ hostOps2_2_writes (by decide)
    _ = W5 m ρ c (Proc.devRef .tc main_arg0) := StableHlo.after_of_writes_sub hostOps2_1 _ hostOps2_1_writes (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W14_main_arg1 (c : Dev nD) : W14 m ρ c (Proc.devRef .tc main_arg1) = m ((c : Thread nD τ).loc main_arg1) :=
  calc W14 m ρ c (Proc.devRef .tc main_arg1)
    _ = W13 m ρ c (Proc.devRef .tc main_arg1) := W14_of_ne m ρ c main_arg1 (by decide)
    _ = W12 m ρ c (Proc.devRef .tc main_arg1) := StableHlo.after_of_writes_sub hostOps4_2 _ hostOps4_2_writes (by decide)
    _ = W11 m ρ c (Proc.devRef .tc main_arg1) := StableHlo.after_of_writes_sub hostOps4_1 _ hostOps4_1_writes (by decide)
    _ = W10 m ρ c (Proc.devRef .tc main_arg1) := StableHlo.after_of_writes_sub hostOps4 _ hostOps4_writes (by decide)
    _ = W9 m ρ c (Proc.devRef .tc main_arg1) := W10_of_ne m ρ c main_arg1 (by decide)
    _ = W8 m ρ c (Proc.devRef .tc main_arg1) := StableHlo.after_of_writes_sub hostOps3 _ hostOps3_writes (by decide)
    _ = W7 m ρ c (Proc.devRef .tc main_arg1) := W8_of_ne m ρ c main_arg1 (by decide)
    _ = W6 m ρ c (Proc.devRef .tc main_arg1) := StableHlo.after_of_writes_sub hostOps2_2 _ hostOps2_2_writes (by decide)
    _ = W5 m ρ c (Proc.devRef .tc main_arg1) := StableHlo.after_of_writes_sub hostOps2_1 _ hostOps2_1_writes (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W14_main_arg2 (c : Dev nD) : W14 m ρ c (Proc.devRef .tc main_arg2) = m ((c : Thread nD τ).loc main_arg2) :=
  calc W14 m ρ c (Proc.devRef .tc main_arg2)
    _ = W13 m ρ c (Proc.devRef .tc main_arg2) := W14_of_ne m ρ c main_arg2 (by decide)
    _ = W12 m ρ c (Proc.devRef .tc main_arg2) := StableHlo.after_of_writes_sub hostOps4_2 _ hostOps4_2_writes (by decide)
    _ = W11 m ρ c (Proc.devRef .tc main_arg2) := StableHlo.after_of_writes_sub hostOps4_1 _ hostOps4_1_writes (by decide)
    _ = W10 m ρ c (Proc.devRef .tc main_arg2) := StableHlo.after_of_writes_sub hostOps4 _ hostOps4_writes (by decide)
    _ = W9 m ρ c (Proc.devRef .tc main_arg2) := W10_of_ne m ρ c main_arg2 (by decide)
    _ = W8 m ρ c (Proc.devRef .tc main_arg2) := StableHlo.after_of_writes_sub hostOps3 _ hostOps3_writes (by decide)
    _ = W7 m ρ c (Proc.devRef .tc main_arg2) := W8_of_ne m ρ c main_arg2 (by decide)
    _ = W6 m ρ c (Proc.devRef .tc main_arg2) := StableHlo.after_of_writes_sub hostOps2_2 _ hostOps2_2_writes (by decide)
    _ = W5 m ρ c (Proc.devRef .tc main_arg2) := StableHlo.after_of_writes_sub hostOps2_1 _ hostOps2_1_writes (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W14_main_arg3 (c : Dev nD) : W14 m ρ c (Proc.devRef .tc main_arg3) = m ((c : Thread nD τ).loc main_arg3) :=
  calc W14 m ρ c (Proc.devRef .tc main_arg3)
    _ = W13 m ρ c (Proc.devRef .tc main_arg3) := W14_of_ne m ρ c main_arg3 (by decide)
    _ = W12 m ρ c (Proc.devRef .tc main_arg3) := StableHlo.after_of_writes_sub hostOps4_2 _ hostOps4_2_writes (by decide)
    _ = W11 m ρ c (Proc.devRef .tc main_arg3) := StableHlo.after_of_writes_sub hostOps4_1 _ hostOps4_1_writes (by decide)
    _ = W10 m ρ c (Proc.devRef .tc main_arg3) := StableHlo.after_of_writes_sub hostOps4 _ hostOps4_writes (by decide)
    _ = W9 m ρ c (Proc.devRef .tc main_arg3) := W10_of_ne m ρ c main_arg3 (by decide)
    _ = W8 m ρ c (Proc.devRef .tc main_arg3) := StableHlo.after_of_writes_sub hostOps3 _ hostOps3_writes (by decide)
    _ = W7 m ρ c (Proc.devRef .tc main_arg3) := W8_of_ne m ρ c main_arg3 (by decide)
    _ = W6 m ρ c (Proc.devRef .tc main_arg3) := StableHlo.after_of_writes_sub hostOps2_2 _ hostOps2_2_writes (by decide)
    _ = W5 m ρ c (Proc.devRef .tc main_arg3) := StableHlo.after_of_writes_sub hostOps2_1 _ hostOps2_1_writes (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W14_main_arg4 (c : Dev nD) : W14 m ρ c (Proc.devRef .tc main_arg4) = m ((c : Thread nD τ).loc main_arg4) :=
  calc W14 m ρ c (Proc.devRef .tc main_arg4)
    _ = W13 m ρ c (Proc.devRef .tc main_arg4) := W14_of_ne m ρ c main_arg4 (by decide)
    _ = W12 m ρ c (Proc.devRef .tc main_arg4) := StableHlo.after_of_writes_sub hostOps4_2 _ hostOps4_2_writes (by decide)
    _ = W11 m ρ c (Proc.devRef .tc main_arg4) := StableHlo.after_of_writes_sub hostOps4_1 _ hostOps4_1_writes (by decide)
    _ = W10 m ρ c (Proc.devRef .tc main_arg4) := StableHlo.after_of_writes_sub hostOps4 _ hostOps4_writes (by decide)
    _ = W9 m ρ c (Proc.devRef .tc main_arg4) := W10_of_ne m ρ c main_arg4 (by decide)
    _ = W8 m ρ c (Proc.devRef .tc main_arg4) := StableHlo.after_of_writes_sub hostOps3 _ hostOps3_writes (by decide)
    _ = W7 m ρ c (Proc.devRef .tc main_arg4) := W8_of_ne m ρ c main_arg4 (by decide)
    _ = W6 m ρ c (Proc.devRef .tc main_arg4) := StableHlo.after_of_writes_sub hostOps2_2 _ hostOps2_2_writes (by decide)
    _ = W5 m ρ c (Proc.devRef .tc main_arg4) := StableHlo.after_of_writes_sub hostOps2_1 _ hostOps2_1_writes (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W14_main_arg5 (c : Dev nD) : W14 m ρ c (Proc.devRef .tc main_arg5) = m ((c : Thread nD τ).loc main_arg5) :=
  calc W14 m ρ c (Proc.devRef .tc main_arg5)
    _ = W13 m ρ c (Proc.devRef .tc main_arg5) := W14_of_ne m ρ c main_arg5 (by decide)
    _ = W12 m ρ c (Proc.devRef .tc main_arg5) := StableHlo.after_of_writes_sub hostOps4_2 _ hostOps4_2_writes (by decide)
    _ = W11 m ρ c (Proc.devRef .tc main_arg5) := StableHlo.after_of_writes_sub hostOps4_1 _ hostOps4_1_writes (by decide)
    _ = W10 m ρ c (Proc.devRef .tc main_arg5) := StableHlo.after_of_writes_sub hostOps4 _ hostOps4_writes (by decide)
    _ = W9 m ρ c (Proc.devRef .tc main_arg5) := W10_of_ne m ρ c main_arg5 (by decide)
    _ = W8 m ρ c (Proc.devRef .tc main_arg5) := StableHlo.after_of_writes_sub hostOps3 _ hostOps3_writes (by decide)
    _ = W7 m ρ c (Proc.devRef .tc main_arg5) := W8_of_ne m ρ c main_arg5 (by decide)
    _ = W6 m ρ c (Proc.devRef .tc main_arg5) := StableHlo.after_of_writes_sub hostOps2_2 _ hostOps2_2_writes (by decide)
    _ = W5 m ρ c (Proc.devRef .tc main_arg5) := StableHlo.after_of_writes_sub hostOps2_1 _ hostOps2_1_writes (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W14_main_arg6 (c : Dev nD) : W14 m ρ c (Proc.devRef .tc main_arg6) = m ((c : Thread nD τ).loc main_arg6) :=
  calc W14 m ρ c (Proc.devRef .tc main_arg6)
    _ = W13 m ρ c (Proc.devRef .tc main_arg6) := W14_of_ne m ρ c main_arg6 (by decide)
    _ = W12 m ρ c (Proc.devRef .tc main_arg6) := StableHlo.after_of_writes_sub hostOps4_2 _ hostOps4_2_writes (by decide)
    _ = W11 m ρ c (Proc.devRef .tc main_arg6) := StableHlo.after_of_writes_sub hostOps4_1 _ hostOps4_1_writes (by decide)
    _ = W10 m ρ c (Proc.devRef .tc main_arg6) := StableHlo.after_of_writes_sub hostOps4 _ hostOps4_writes (by decide)
    _ = W9 m ρ c (Proc.devRef .tc main_arg6) := W10_of_ne m ρ c main_arg6 (by decide)
    _ = W8 m ρ c (Proc.devRef .tc main_arg6) := StableHlo.after_of_writes_sub hostOps3 _ hostOps3_writes (by decide)
    _ = W7 m ρ c (Proc.devRef .tc main_arg6) := W8_of_ne m ρ c main_arg6 (by decide)
    _ = W6 m ρ c (Proc.devRef .tc main_arg6) := StableHlo.after_of_writes_sub hostOps2_2 _ hostOps2_2_writes (by decide)
    _ = W5 m ρ c (Proc.devRef .tc main_arg6) := StableHlo.after_of_writes_sub hostOps2_1 _ hostOps2_1_writes (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W14_main_arg7 (c : Dev nD) : W14 m ρ c (Proc.devRef .tc main_arg7) = m ((c : Thread nD τ).loc main_arg7) :=
  calc W14 m ρ c (Proc.devRef .tc main_arg7)
    _ = W13 m ρ c (Proc.devRef .tc main_arg7) := W14_of_ne m ρ c main_arg7 (by decide)
    _ = W12 m ρ c (Proc.devRef .tc main_arg7) := StableHlo.after_of_writes_sub hostOps4_2 _ hostOps4_2_writes (by decide)
    _ = W11 m ρ c (Proc.devRef .tc main_arg7) := StableHlo.after_of_writes_sub hostOps4_1 _ hostOps4_1_writes (by decide)
    _ = W10 m ρ c (Proc.devRef .tc main_arg7) := StableHlo.after_of_writes_sub hostOps4 _ hostOps4_writes (by decide)
    _ = W9 m ρ c (Proc.devRef .tc main_arg7) := W10_of_ne m ρ c main_arg7 (by decide)
    _ = W8 m ρ c (Proc.devRef .tc main_arg7) := StableHlo.after_of_writes_sub hostOps3 _ hostOps3_writes (by decide)
    _ = W7 m ρ c (Proc.devRef .tc main_arg7) := W8_of_ne m ρ c main_arg7 (by decide)
    _ = W6 m ρ c (Proc.devRef .tc main_arg7) := StableHlo.after_of_writes_sub hostOps2_2 _ hostOps2_2_writes (by decide)
    _ = W5 m ρ c (Proc.devRef .tc main_arg7) := StableHlo.after_of_writes_sub hostOps2_1 _ hostOps2_1_writes (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W14_main_arg8 (c : Dev nD) : W14 m ρ c (Proc.devRef .tc main_arg8) = m ((c : Thread nD τ).loc main_arg8) :=
  calc W14 m ρ c (Proc.devRef .tc main_arg8)
    _ = W13 m ρ c (Proc.devRef .tc main_arg8) := W14_of_ne m ρ c main_arg8 (by decide)
    _ = W12 m ρ c (Proc.devRef .tc main_arg8) := StableHlo.after_of_writes_sub hostOps4_2 _ hostOps4_2_writes (by decide)
    _ = W11 m ρ c (Proc.devRef .tc main_arg8) := StableHlo.after_of_writes_sub hostOps4_1 _ hostOps4_1_writes (by decide)
    _ = W10 m ρ c (Proc.devRef .tc main_arg8) := StableHlo.after_of_writes_sub hostOps4 _ hostOps4_writes (by decide)
    _ = W9 m ρ c (Proc.devRef .tc main_arg8) := W10_of_ne m ρ c main_arg8 (by decide)
    _ = W8 m ρ c (Proc.devRef .tc main_arg8) := StableHlo.after_of_writes_sub hostOps3 _ hostOps3_writes (by decide)
    _ = W7 m ρ c (Proc.devRef .tc main_arg8) := W8_of_ne m ρ c main_arg8 (by decide)
    _ = W6 m ρ c (Proc.devRef .tc main_arg8) := StableHlo.after_of_writes_sub hostOps2_2 _ hostOps2_2_writes (by decide)
    _ = W5 m ρ c (Proc.devRef .tc main_arg8) := StableHlo.after_of_writes_sub hostOps2_1 _ hostOps2_1_writes (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W14_main_arg9 (c : Dev nD) : W14 m ρ c (Proc.devRef .tc main_arg9) = m ((c : Thread nD τ).loc main_arg9) :=
  calc W14 m ρ c (Proc.devRef .tc main_arg9)
    _ = W13 m ρ c (Proc.devRef .tc main_arg9) := W14_of_ne m ρ c main_arg9 (by decide)
    _ = W12 m ρ c (Proc.devRef .tc main_arg9) := StableHlo.after_of_writes_sub hostOps4_2 _ hostOps4_2_writes (by decide)
    _ = W11 m ρ c (Proc.devRef .tc main_arg9) := StableHlo.after_of_writes_sub hostOps4_1 _ hostOps4_1_writes (by decide)
    _ = W10 m ρ c (Proc.devRef .tc main_arg9) := StableHlo.after_of_writes_sub hostOps4 _ hostOps4_writes (by decide)
    _ = W9 m ρ c (Proc.devRef .tc main_arg9) := W10_of_ne m ρ c main_arg9 (by decide)
    _ = W8 m ρ c (Proc.devRef .tc main_arg9) := StableHlo.after_of_writes_sub hostOps3 _ hostOps3_writes (by decide)
    _ = W7 m ρ c (Proc.devRef .tc main_arg9) := W8_of_ne m ρ c main_arg9 (by decide)
    _ = W6 m ρ c (Proc.devRef .tc main_arg9) := StableHlo.after_of_writes_sub hostOps2_2 _ hostOps2_2_writes (by decide)
    _ = W5 m ρ c (Proc.devRef .tc main_arg9) := StableHlo.after_of_writes_sub hostOps2_1 _ hostOps2_1_writes (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W14_main_arg10 (c : Dev nD) : W14 m ρ c (Proc.devRef .tc main_arg10) = m ((c : Thread nD τ).loc main_arg10) :=
  calc W14 m ρ c (Proc.devRef .tc main_arg10)
    _ = W13 m ρ c (Proc.devRef .tc main_arg10) := W14_of_ne m ρ c main_arg10 (by decide)
    _ = W12 m ρ c (Proc.devRef .tc main_arg10) := StableHlo.after_of_writes_sub hostOps4_2 _ hostOps4_2_writes (by decide)
    _ = W11 m ρ c (Proc.devRef .tc main_arg10) := StableHlo.after_of_writes_sub hostOps4_1 _ hostOps4_1_writes (by decide)
    _ = W10 m ρ c (Proc.devRef .tc main_arg10) := StableHlo.after_of_writes_sub hostOps4 _ hostOps4_writes (by decide)
    _ = W9 m ρ c (Proc.devRef .tc main_arg10) := W10_of_ne m ρ c main_arg10 (by decide)
    _ = W8 m ρ c (Proc.devRef .tc main_arg10) := StableHlo.after_of_writes_sub hostOps3 _ hostOps3_writes (by decide)
    _ = W7 m ρ c (Proc.devRef .tc main_arg10) := W8_of_ne m ρ c main_arg10 (by decide)
    _ = W6 m ρ c (Proc.devRef .tc main_arg10) := StableHlo.after_of_writes_sub hostOps2_2 _ hostOps2_2_writes (by decide)
    _ = W5 m ρ c (Proc.devRef .tc main_arg10) := StableHlo.after_of_writes_sub hostOps2_1 _ hostOps2_1_writes (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W14_main_arg11 (c : Dev nD) : W14 m ρ c (Proc.devRef .tc main_arg11) = m ((c : Thread nD τ).loc main_arg11) :=
  calc W14 m ρ c (Proc.devRef .tc main_arg11)
    _ = W13 m ρ c (Proc.devRef .tc main_arg11) := W14_of_ne m ρ c main_arg11 (by decide)
    _ = W12 m ρ c (Proc.devRef .tc main_arg11) := StableHlo.after_of_writes_sub hostOps4_2 _ hostOps4_2_writes (by decide)
    _ = W11 m ρ c (Proc.devRef .tc main_arg11) := StableHlo.after_of_writes_sub hostOps4_1 _ hostOps4_1_writes (by decide)
    _ = W10 m ρ c (Proc.devRef .tc main_arg11) := StableHlo.after_of_writes_sub hostOps4 _ hostOps4_writes (by decide)
    _ = W9 m ρ c (Proc.devRef .tc main_arg11) := W10_of_ne m ρ c main_arg11 (by decide)
    _ = W8 m ρ c (Proc.devRef .tc main_arg11) := StableHlo.after_of_writes_sub hostOps3 _ hostOps3_writes (by decide)
    _ = W7 m ρ c (Proc.devRef .tc main_arg11) := W8_of_ne m ρ c main_arg11 (by decide)
    _ = W6 m ρ c (Proc.devRef .tc main_arg11) := StableHlo.after_of_writes_sub hostOps2_2 _ hostOps2_2_writes (by decide)
    _ = W5 m ρ c (Proc.devRef .tc main_arg11) := StableHlo.after_of_writes_sub hostOps2_1 _ hostOps2_1_writes (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W14_main_arg12 (c : Dev nD) : W14 m ρ c (Proc.devRef .tc main_arg12) = m ((c : Thread nD τ).loc main_arg12) :=
  calc W14 m ρ c (Proc.devRef .tc main_arg12)
    _ = W13 m ρ c (Proc.devRef .tc main_arg12) := (W14_arr m ρ c 1).trans (((dat4 (V13 m ρ) c).arrAt_in 1 rfl _).trans (A_eq4 (V13 m ρ) c 1))
    _ = W12 m ρ c (Proc.devRef .tc main_arg12) := StableHlo.after_of_writes_sub hostOps4_2 _ hostOps4_2_writes (by decide)
    _ = W11 m ρ c (Proc.devRef .tc main_arg12) := StableHlo.after_of_writes_sub hostOps4_1 _ hostOps4_1_writes (by decide)
    _ = W10 m ρ c (Proc.devRef .tc main_arg12) := StableHlo.after_of_writes_sub hostOps4 _ hostOps4_writes (by decide)
    _ = W9 m ρ c (Proc.devRef .tc main_arg12) := W10_of_ne m ρ c main_arg12 (by decide)
    _ = W8 m ρ c (Proc.devRef .tc main_arg12) := StableHlo.after_of_writes_sub hostOps3 _ hostOps3_writes (by decide)
    _ = W7 m ρ c (Proc.devRef .tc main_arg12) := W8_of_ne m ρ c main_arg12 (by decide)
    _ = W6 m ρ c (Proc.devRef .tc main_arg12) := StableHlo.after_of_writes_sub hostOps2_2 _ hostOps2_2_writes (by decide)
    _ = W5 m ρ c (Proc.devRef .tc main_arg12) := StableHlo.after_of_writes_sub hostOps2_1 _ hostOps2_1_writes (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W14_main_arg13 (c : Dev nD) : W14 m ρ c (Proc.devRef .tc main_arg13) = m ((c : Thread nD τ).loc main_arg13) :=
  calc W14 m ρ c (Proc.devRef .tc main_arg13)
    _ = W13 m ρ c (Proc.devRef .tc main_arg13) := W14_of_ne m ρ c main_arg13 (by decide)
    _ = W12 m ρ c (Proc.devRef .tc main_arg13) := StableHlo.after_of_writes_sub hostOps4_2 _ hostOps4_2_writes (by decide)
    _ = W11 m ρ c (Proc.devRef .tc main_arg13) := StableHlo.after_of_writes_sub hostOps4_1 _ hostOps4_1_writes (by decide)
    _ = W10 m ρ c (Proc.devRef .tc main_arg13) := StableHlo.after_of_writes_sub hostOps4 _ hostOps4_writes (by decide)
    _ = W9 m ρ c (Proc.devRef .tc main_arg13) := W10_of_ne m ρ c main_arg13 (by decide)
    _ = W8 m ρ c (Proc.devRef .tc main_arg13) := StableHlo.after_of_writes_sub hostOps3 _ hostOps3_writes (by decide)
    _ = W7 m ρ c (Proc.devRef .tc main_arg13) := W8_of_ne m ρ c main_arg13 (by decide)
    _ = W6 m ρ c (Proc.devRef .tc main_arg13) := StableHlo.after_of_writes_sub hostOps2_2 _ hostOps2_2_writes (by decide)
    _ = W5 m ρ c (Proc.devRef .tc main_arg13) := StableHlo.after_of_writes_sub hostOps2_1 _ hostOps2_1_writes (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) c
  | ⟨3, _⟩ => fun c => dat3 (V9 m ρ) c
  | ⟨4, _⟩ => fun c => dat4 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the plain
    class's invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it BESIDE the core owing nothing): every unscoped
    buffer at the last boundary's contents `W14`, the generator register at some state. -/
abbrev Tₙ (c : Dev nD) : sProp 𝕄 := iprop(StableHlo.held (c : Thread nD τ) (Pipeline.ucRefs τ sig) (W14 m ρ c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at `W1`, left at `W2`. Its arrays split
    out of the unscoped buffers and put back at the exit contents; the generator register into the class invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `W3`, left at `W4`. Its arrays split
    out of the unscoped buffers and put back at the exit contents; the generator register into the class invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered from every unscoped buffer at `W7`, left at `W8`. Its arrays split
    out of the unscoped buffers and put back at the exit contents; the generator register into the class invariant
    and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 3 over the thread state: entered from every unscoped buffer at `W9`, left at `W10`. Its arrays split
    out of the unscoped buffers and put back at the exit contents; the generator register into the class invariant
    and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 4 over the thread state: entered from every unscoped buffer at `W13`, left at `W14`. Its arrays split
    out of the unscoped buffers and put back at the exit contents; the generator register into the class invariant
    and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V13 m ρ c) (V14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 14 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .host (hseg hostOps4_1 hostOps4_1_sub hostOps4_1_fresh (W11 m ρ)),
    .host (hseg hostOps4_2 hostOps4_2_sub hostOps4_2_fresh (W12 m ρ)),
    .region (reg4 m ρ) ]
/-- @main IS the run of the segments: @main as the chain of its items, then the segments' run against that chain by the
    kernel's definitional check. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's unscoped buffers hold the last
    boundary's contents `W14`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun _ h => h)

/-- THE FRAME: every weakly fair execution of @main terminates, nothing faulting, and every final state has the
    fourteen argument arrays as launched: each is an unscoped buffer, which the run leaves at `W14`, and the fold at
    an argument walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs (onTc (τ := τ) (main (F := F))) ⟨m, fun _ => 0, ρ⟩).mono (fun r h c =>
    ⟨(h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c),
     (h c _ (mem_uc main_arg13 (by decide))).trans (W14_main_arg13 m ρ c)⟩)
    (run_all m ρ)

/-- info: 'Cert.Kernel.Hand.frame' depends on axioms: [propext, Classical.choice, Quot.sound] -/
#guard_msgs in #print axioms frame

end Cert.Kernel.Hand

end
-- ==== Proof.KI.Data0.lean ====
import proofs.«143908_j58153857188396_1_alg».proof.Proof.Gen.KernelIdeal.Launch
import proofs.«143908_j58153857188396_1_alg».proof.Proof.Gen.KernelIdeal.Skeleton
import proofs.«143908_j58153857188396_1_alg».proof.Proof.Gen.KernelIdeal.Points
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 0 (the dense FiLM projection): the windows' blocks, what the body leaves, the proof data -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each staging buffer whole -/

abbrev r0_0 : Rect S2000x64 := Rect.unit (s := S2000x64) ![0, 0] S2000x64.size inb_S2000x64_S2000x64_0_0
abbrev r0_1 : Rect S64x384 := Rect.unit (s := S64x384) ![0, 0] S64x384.size inb_S64x384_S64x384_0_0
abbrev r0_2 : Rect S1x128 := Rect.unit (s := S1x128) ![0, 0] S1x128.size inb_S1x128_S1x128_0_0

/-! ## What the body leaves in each output window's buffer

Each output buffer is stored once, whole; the stored value is a payload of the three input blocks
(`x0` the node features, `x1` the stacked weights, `x2` the FiLM bias). -/

/-- Window 3 (the message projection `h`): columns 0..63 of the product. -/
def out0_3 (x0 : Vec F S2000x64 .f32) (x1 : Vec F S64x384 .f32) (x2 : Vec F S1x128 .f32) : Vec F S2000x64 .f32 :=
  View.canon [⟨r0_0, k0_pay2 (View.ld x0 r0_0) (View.ld x1 r0_1)⟩]

/-- Window 4 (`beta`): columns 0..63 of the biased FiLM block. -/
def out0_4 (x0 : Vec F S2000x64 .f32) (x1 : Vec F S64x384 .f32) (x2 : Vec F S1x128 .f32) : Vec F S2000x64 .f32 :=
  View.canon [⟨r0_0, k0_pay4 (View.ld x0 r0_0) (View.ld x1 r0_1) (View.ld x2 r0_2)⟩]

/-- Window 5 (`gamma`): columns 64..127 of the biased FiLM block. -/
def out0_5 (x0 : Vec F S2000x64 .f32) (x1 : Vec F S64x384 .f32) (x2 : Vec F S1x128 .f32) : Vec F S2000x64 .f32 :=
  View.canon [⟨r0_0, k0_pay5 (View.ld x0 r0_0) (View.ld x1 r0_1) (View.ld x2 r0_2)⟩]

/-- Window 6 (the skip term): `relu (gamma_s * h_s + beta_s)` of the product's last columns. -/
def out0_6 (x0 : Vec F S2000x64 .f32) (x1 : Vec F S64x384 .f32) (x2 : Vec F S1x128 .f32) : Vec F S2000x64 .f32 :=
  View.canon [⟨r0_0, k0_pay6 (View.ld x0 r0_0) (View.ld x1 r0_1)⟩]

/-- One whole-buffer store tiles the buffer (checked by evaluation), so it covers it. -/
theorem cover0_3 (p0 : Vec F S2000x64 .f32) (y : S2000x64.Idx) :
    ∃ pc ∈ ([⟨r0_0, p0⟩] : List (View.Piece (Elt F) S2000x64 .f32)), y ∈ pc.1.set :=
  View.cover_of_tiled [⟨r0_0, p0⟩] S2000x64.size (by rfl) y
theorem cover0_4 (p0 : Vec F S2000x64 .f32) (y : S2000x64.Idx) :
    ∃ pc ∈ ([⟨r0_0, p0⟩] : List (View.Piece (Elt F) S2000x64 .f32)), y ∈ pc.1.set :=
  View.cover_of_tiled [⟨r0_0, p0⟩] S2000x64.size (by rfl) y
theorem cover0_5 (p0 : Vec F S2000x64 .f32) (y : S2000x64.Idx) :
    ∃ pc ∈ ([⟨r0_0, p0⟩] : List (View.Piece (Elt F) S2000x64 .f32)), y ∈ pc.1.set :=
  View.cover_of_tiled [⟨r0_0, p0⟩] S2000x64.size (by rfl) y
theorem cover0_6 (p0 : Vec F S2000x64 .f32) (y : S2000x64.Idx) :
    ∃ pc ∈ ([⟨r0_0, p0⟩] : List (View.Piece (Elt F) S2000x64 .f32)), y ∈ pc.1.set :=
  View.cover_of_tiled [⟨r0_0, p0⟩] S2000x64.size (by rfl) y

/-! ## The pipeline's proof data -/

/-- The proof data of pipeline 0 on core `c`: the arrays as the region finds them (`V`); after the body at
    point `t` each input's buffer at its block and each output's at `out0_W` of the input blocks; the
    invariant the plain class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]

end Cert.KernelIdeal.Hand

end
-- ==== Proof.KI.Data1.lean ====
import proofs.«143908_j58153857188396_1_alg».proof.Proof.Gen.KernelIdeal.Launch
import proofs.«143908_j58153857188396_1_alg».proof.Proof.Gen.KernelIdeal.Skeleton
import proofs.«143908_j58153857188396_1_alg».proof.Proof.Gen.KernelIdeal.Points
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 1 (the FiLM mix over an edge block): the windows' blocks, what the body leaves, the proof data -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each staging buffer whole -/

abbrev r1_0 : Rect S4000x64 := Rect.unit (s := S4000x64) ![0, 0] S4000x64.size inb_S4000x64_S4000x64_0_0

/-! ## What the body leaves in the output window's buffer -/

/-- Window 3: `relu (g * h + b)` pointwise, `x0` the gathered messages `h`, `x1` the gathered shifts `b`,
    `x2` the gathered scales `g` (the body reads the scales first). One whole-buffer store. -/
def out1_3 (x0 : Vec F S4000x64 .f32) (x1 : Vec F S4000x64 .f32) (x2 : Vec F S4000x64 .f32) : Vec F S4000x64 .f32 :=
  View.canon [⟨r1_0, k1_pay1 (View.ld x2 r1_0) (View.ld x0 r1_0) (View.ld x1 r1_0)⟩]

/-- One whole-buffer store tiles the buffer (checked by evaluation), so it covers it. -/
theorem cover1_3 (p0 : Vec F S4000x64 .f32) (y : S4000x64.Idx) :
    ∃ pc ∈ ([⟨r1_0, p0⟩] : List (View.Piece (Elt F) S4000x64 .f32)), y ∈ pc.1.set :=
  View.cover_of_tiled [⟨r1_0, p0⟩] S4000x64.size (by rfl) y

/-! ## The pipeline's proof data -/

/-- The proof data of pipeline 1 on core `c`: the arrays as the region finds them (`V`); after the body at
    point `t` each input's buffer at its block and the output's at `out1_3` of the input blocks; the
    invariant the plain class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

end Cert.KernelIdeal.Hand

end
-- ==== Proof.KI.Data2.lean ====
import proofs.«143908_j58153857188396_1_alg».proof.Proof.Gen.KernelIdeal.Launch
import proofs.«143908_j58153857188396_1_alg».proof.Proof.Gen.KernelIdeal.Skeleton
import proofs.«143908_j58153857188396_1_alg».proof.Proof.Gen.KernelIdeal.Points
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 2 (the dense FiLM projection): the windows' blocks, what the body leaves, the proof data -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each staging buffer whole -/

abbrev r2_0 : Rect S2000x64 := Rect.unit (s := S2000x64) ![0, 0] S2000x64.size inb_S2000x64_S2000x64_0_0
abbrev r2_1 : Rect S64x384 := Rect.unit (s := S64x384) ![0, 0] S64x384.size inb_S64x384_S64x384_0_0
abbrev r2_2 : Rect S1x128 := Rect.unit (s := S1x128) ![0, 0] S1x128.size inb_S1x128_S1x128_0_0

/-! ## What the body leaves in each output window's buffer

Each output buffer is stored once, whole; the stored value is a payload of the three input blocks
(`x0` the node features, `x1` the stacked weights, `x2` the FiLM bias). -/

/-- Window 3 (the message projection `h`): columns 0..63 of the product. -/
def out2_3 (x0 : Vec F S2000x64 .f32) (x1 : Vec F S64x384 .f32) (x2 : Vec F S1x128 .f32) : Vec F S2000x64 .f32 :=
  View.canon [⟨r2_0, k2_pay2 (View.ld x0 r2_0) (View.ld x1 r2_1)⟩]

/-- Window 4 (`beta`): columns 0..63 of the biased FiLM block. -/
def out2_4 (x0 : Vec F S2000x64 .f32) (x1 : Vec F S64x384 .f32) (x2 : Vec F S1x128 .f32) : Vec F S2000x64 .f32 :=
  View.canon [⟨r2_0, k2_pay4 (View.ld x0 r2_0) (View.ld x1 r2_1) (View.ld x2 r2_2)⟩]

/-- Window 5 (`gamma`): columns 64..127 of the biased FiLM block. -/
def out2_5 (x0 : Vec F S2000x64 .f32) (x1 : Vec F S64x384 .f32) (x2 : Vec F S1x128 .f32) : Vec F S2000x64 .f32 :=
  View.canon [⟨r2_0, k2_pay5 (View.ld x0 r2_0) (View.ld x1 r2_1) (View.ld x2 r2_2)⟩]

/-- Window 6 (the skip term): `relu (gamma_s * h_s + beta_s)` of the product's last columns. -/
def out2_6 (x0 : Vec F S2000x64 .f32) (x1 : Vec F S64x384 .f32) (x2 : Vec F S1x128 .f32) : Vec F S2000x64 .f32 :=
  View.canon [⟨r2_0, k2_pay6 (View.ld x0 r2_0) (View.ld x1 r2_1)⟩]

/-- One whole-buffer store tiles the buffer (checked by evaluation), so it covers it. -/
theorem cover2_3 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y
theorem cover2_4 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y
theorem cover2_5 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y
theorem cover2_6 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The pipeline's proof data -/

/-- The proof data of pipeline 2 on core `c`: the arrays as the region finds them (`V`); after the body at
    point `t` each input's buffer at its block and each output's at `out2_W` of the input blocks; the
    invariant the plain class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
    | ⟨5, _⟩ => out2_5 (iblk2 V c 0 t) (iblk2 V c 1 t) (iblk2 V c 2 t)
    | ⟨6, _⟩ => out2_6 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 1 t) (iblk2 V c 2 t) := by dsimp only [dat2]
theorem after2_6 (c : Dev nD) (t : Fin cfg2.N) : (dat2 V c).after 6 t = out2_6 (iblk2 V c 0 t) (iblk2 V c 1 t) (iblk2 V c 2 t) := by dsimp only [dat2]

end Cert.KernelIdeal.Hand

end
-- ==== Proof.KI.Data3.lean ====
import proofs.«143908_j58153857188396_1_alg».proof.Proof.Gen.KernelIdeal.Launch
import proofs.«143908_j58153857188396_1_alg».proof.Proof.Gen.KernelIdeal.Skeleton
import proofs.«143908_j58153857188396_1_alg».proof.Proof.Gen.KernelIdeal.Points
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 3 (the FiLM mix over an edge block): the windows' blocks, what the body leaves, the proof data -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each staging buffer whole -/

abbrev r3_0 : Rect S4000x64 := Rect.unit (s := S4000x64) ![0, 0] S4000x64.size inb_S4000x64_S4000x64_0_0

/-! ## What the body leaves in the output window's buffer -/

/-- Window 3: `relu (g * h + b)` pointwise, `x0` the gathered messages `h`, `x1` the gathered shifts `b`,
    `x2` the gathered scales `g` (the body reads the scales first). One whole-buffer store. -/
def out3_3 (x0 : Vec F S4000x64 .f32) (x1 : Vec F S4000x64 .f32) (x2 : Vec F S4000x64 .f32) : Vec F S4000x64 .f32 :=
  View.canon [⟨r3_0, k3_pay1 (View.ld x2 r3_0) (View.ld x0 r3_0) (View.ld x1 r3_0)⟩]

/-- One whole-buffer store tiles the buffer (checked by evaluation), so it covers it. -/
theorem cover3_3 (p0 : Vec F S4000x64 .f32) (y : S4000x64.Idx) :
    ∃ pc ∈ ([⟨r3_0, p0⟩] : List (View.Piece (Elt F) S4000x64 .f32)), y ∈ pc.1.set :=
  View.cover_of_tiled [⟨r3_0, p0⟩] S4000x64.size (by rfl) y

/-! ## The pipeline's proof data -/

/-- The proof data of pipeline 3 on core `c`: the arrays as the region finds them (`V`); after the body at
    point `t` each input's buffer at its block and the output's at `out3_3` of the input blocks; the
    invariant the plain class's (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

end Cert.KernelIdeal.Hand

end
-- ==== Proof.KI.Data4.lean ====
import proofs.«143908_j58153857188396_1_alg».proof.Proof.Gen.KernelIdeal.Launch
import proofs.«143908_j58153857188396_1_alg».proof.Proof.Gen.KernelIdeal.Skeleton
import proofs.«143908_j58153857188396_1_alg».proof.Proof.Gen.KernelIdeal.Points
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 4 (the output head): the windows' blocks, what the body leaves, the proof data -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: each staging buffer whole -/

abbrev r4_0 : Rect S2000x64 := Rect.unit (s := S2000x64) ![0, 0] S2000x64.size inb_S2000x64_S2000x64_0_0
abbrev r4_1 : Rect S64x1 := Rect.unit (s := S64x1) ![0, 0] S64x1.size inb_S64x1_S64x1_0_0
abbrev r4_2 : Rect S1x1 := Rect.unit (s := S1x1) ![0, 0] S1x1.size inb_S1x1_S1x1_0_0
abbrev r4_3 : Rect S2000x1 := Rect.unit (s := S2000x1) ![0, 0] S2000x1.size inb_S2000x1_S2000x1_0_0

/-! ## What the body leaves in the output window's buffer -/

/-- Window 3: the node block times the head weights plus the head bias (`x0` the node features, `x1` the
    weights, `x2` the bias). One whole-buffer store. -/
def out4_3 (x0 : Vec F S2000x64 .f32) (x1 : Vec F S64x1 .f32) (x2 : Vec F S1x1 .f32) : Vec F S2000x1 .f32 :=
  View.canon [⟨r4_3, k4_pay1 (View.ld x0 r4_0) (View.ld x1 r4_1) (View.ld x2 r4_2)⟩]

/-- One whole-buffer store tiles the buffer (checked by evaluation), so it covers it. -/
theorem cover4_3 (p0 : Vec F S2000x1 .f32) (y : S2000x1.Idx) :
    ∃ pc ∈ ([⟨r4_3, p0⟩] : List (View.Piece (Elt F) S2000x1 .f32)), y ∈ pc.1.set :=
  View.cover_of_tiled [⟨r4_3, p0⟩] S2000x1.size (by rfl) y

/-! ## The pipeline's proof data -/

/-- The proof data of pipeline 4 on core `c`: the arrays as the region finds them (`V`); after the body at
    point `t` each input's buffer at its block and the output's at `out4_3` of the input blocks; the
    invariant the plain class's (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

end Cert.KernelIdeal.Hand

end
-- ==== Proof.KI.Fold.lean ====
import proofs.«143908_j58153857188396_1_alg».proof.Proof.KI.Data0
import proofs.«143908_j58153857188396_1_alg».proof.Proof.KI.Data1
import proofs.«143908_j58153857188396_1_alg».proof.Proof.KI.Data2
import proofs.«143908_j58153857188396_1_alg».proof.Proof.KI.Data3
import proofs.«143908_j58153857188396_1_alg».proof.Proof.KI.Data4
import Idealize.ShloMosaic.Lib.Pipeline.FrameSuffix

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between two items of @main: a fold from the launch memory

@main is fourteen items: a stretch of host operations or a kernel region, in the order
host, region 0, host, region 1, host, host, host, region 2, host, region 3, host, host, host, region 4.
`WJ` is what core `c`'s buffers hold after the first `J` items: a stretch's `StableHlo.after`; a region's
arrays at what its write-backs leave, every other buffer as the region found it. -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After `hostOps2`. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- After `hostOps2_1`. -/
abbrev W6 : Dev nD → Valuation τ sig (Elt F) := fun c => StableHlo.after hostOps2_1 (W5 m ρ c)
/-- The same read at the TensorCore's references. -/
abbrev V6 : (c : Dev nD) → (b : Ref sig .tc) → Buf (Elt F) ((c : Thread nD τ).loc b) := fun c b => W6 m ρ c b
/-- After `hostOps2_2`. -/
abbrev W7 : Dev nD → Valuation τ sig (Elt F) := fun c => StableHlo.after hostOps2_2 (W6 m ρ c)
/-- The same read at the TensorCore's references. -/
abbrev V7 : (c : Dev nD) → (b : Ref sig .tc) → Buf (Elt F) ((c : Thread nD τ).loc b) := fun c b => W7 m ρ c b
/-- At region 2's exit: its arrays at what the pipeline leaves (the inputs as entered, each output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (region 2's exit contents). -/
abbrev V8 : (c : Dev nD) → (b : Ref sig .tc) → Buf (Elt F) ((c : Thread nD τ).loc b) := fun c b => W8 m ρ c b
/-- At region 2's exit each of its arrays holds what the pipeline leaves (`hF2`) and every other buffer what it
    held at entry (`hrest2`). -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After `hostOps3`. -/
abbrev W9 : Dev nD → Valuation τ sig (Elt F) := fun c => StableHlo.after hostOps3 (W8 m ρ c)
/-- The same read at the TensorCore's references. -/
abbrev V9 : (c : Dev nD) → (b : Ref sig .tc) → Buf (Elt F) ((c : Thread nD τ).loc b) := fun c b => W9 m ρ c b
/-- At region 3's exit: its arrays at what the pipeline leaves (the inputs as entered, each output's write-backs
    folded), every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- The same read at the TensorCore's references (region 3's exit contents). -/
abbrev V10 : (c : Dev nD) → (b : Ref sig .tc) → Buf (Elt F) ((c : Thread nD τ).loc b) := fun c b => W10 m ρ c b
/-- At region 3's exit each of its arrays holds what the pipeline leaves (`hF3`) and every other buffer what it
    held at entry (`hrest3`). -/
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- After `hostOps4`. -/
abbrev W11 : Dev nD → Valuation τ sig (Elt F) := fun c => StableHlo.after hostOps4 (W10 m ρ c)
/-- The same read at the TensorCore's references. -/
abbrev V11 : (c : Dev nD) → (b : Ref sig .tc) → Buf (Elt F) ((c : Thread nD τ).loc b) := fun c b => W11 m ρ c b
/-- After `hostOps4_1`. -/
abbrev W12 : Dev nD → Valuation τ sig (Elt F) := fun c => StableHlo.after hostOps4_1 (W11 m ρ c)
/-- The same read at the TensorCore's references. -/
abbrev V12 : (c : Dev nD) → (b : Ref sig .tc) → Buf (Elt F) ((c : Thread nD τ).loc b) := fun c b => W12 m ρ c b
/-- After `hostOps4_2`. -/
abbrev W13 : Dev nD → Valuation τ sig (Elt F) := fun c => StableHlo.after hostOps4_2 (W12 m ρ c)
/-- The same read at the TensorCore's references. -/
abbrev V13 : (c : Dev nD) → (b : Ref sig .tc) → Buf (Elt F) ((c : Thread nD τ).loc b) := fun c b => W13 m ρ c b
/-- At region 4's exit: its arrays at what the pipeline leaves (the inputs as entered, each output's write-backs
    folded), every other buffer as entered. -/
def W14 (c : Dev nD) : Valuation τ sig (Elt F) :=
  Pipeline.withArrays spec4 c (W13 m ρ c) fun w => (dat4 (V13 m ρ) c).arrAt w cfg4.N
theorem W14_arr (c : Dev nD) (w : Fin cfg4.W) :
    W14 m ρ c (Proc.devRef .tc (Pipeline.arrRef spec4 w)) = (dat4 (V13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
/-- The same read at the TensorCore's references (region 4's exit contents). -/
abbrev V14 : (c : Dev nD) → (b : Ref sig .tc) → Buf (Elt F) ((c : Thread nD τ).loc b) := fun c b => W14 m ρ c b
/-- At region 4's exit each of its arrays holds what the pipeline leaves (`hF4`) and every other buffer what it
    held at entry (`hrest4`). -/
theorem hF4 (c : Dev nD) (w : Fin cfg4.W) : (dat4 (V13 m ρ) c).arrAt w cfg4.N = V14 m ρ c (Pipeline.arrRef spec4 w) :=
  (W14_arr m ρ c w).symm
theorem hrest4 (c : Dev nD) : ∀ b, b ∉ Finset.univ.image (Pipeline.arrRef spec4) → V14 m ρ c b = V13 m ρ c b :=
  fun b hb => W14_of_ne m ρ c b fun w e => hb (Finset.mem_image.mpr ⟨w, Finset.mem_univ _, e⟩)

end Cert.KernelIdeal.Hand

end
-- ==== Proof.KI.Body0.lean ====
import proofs.«143908_j58153857188396_1_alg».proof.Proof.Gen.KernelIdeal.Launch
import proofs.«143908_j58153857188396_1_alg».proof.Proof.Gen.KernelIdeal.Skeleton
import proofs.«143908_j58153857188396_1_alg».proof.Proof.Gen.KernelIdeal.Points
import proofs.«143908_j58153857188396_1_alg».proof.Proof.KI.Data0
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 0 (the dense FiLM projection): the body's triple and the body obligation -/

/-! ## What the body finds in each input window's buffer -/

/-- Input window 0's current staging buffer holds its block at every point, fetched there or not, for ANY proof
    data whose array is `V`'s (`hA`) and whose body leaves the block in place (`hafter`): unfetched, the
    block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the
    block index has not moved (this window's index never moves: it is fetched at the first point only); the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the
    block index has not moved (this window's index never moves: it is fetched at the first point only); the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

set_option maxHeartbeats 4000000 in
/-- The kernel body on whole staging memrefs, the inputs' at read contents `xW` and the outputs' at anything, runs to
    the continuation holding the inputs' as they were and each output's at `out0_W` of the inputs': the printed
    function is its skeleton, which the symbolic executor runs; before each store the body loads the output buffer
    once, which returns whatever it held and is not used. -/
theorem sound_kernel0 (c : Dev nD) (E : Set ℕ) (i : grid0.Coords)
    (arg1 : Memref sig .tc .vmem S2000x64 .f32) (harg1 : arg1.IsWhole) (arg2 : Memref sig .tc .vmem S64x384 .f32) (harg2 : arg2.IsWhole)
    (arg3 : Memref sig .tc .vmem S1x128 .f32) (harg3 : arg3.IsWhole) (arg4 : Memref sig .tc .vmem S2000x64 .f32) (harg4 : arg4.IsWhole)
    (arg5 : Memref sig .tc .vmem S2000x64 .f32) (harg5 : arg5.IsWhole) (arg6 : Memref sig .tc .vmem S2000x64 .f32) (harg6 : arg6.IsWhole)
    (arg7 : Memref sig .tc .vmem S2000x64 .f32) (harg7 : arg7.IsWhole)
    (x0 : Vec F S2000x64 .f32) (x1 : Vec F S64x384 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2) ∗ owns (c : Thread nD τ) arg7 fullShare (out0_6 x0 x1 x2)) -∗ K ⟨⟩))
      ⊢ wp frame (wpE (defs₀ (F := F)) Variants.none c none) E
          (cc0__dense_film_kernel i arg1 harg1 arg2 harg2 arg3 harg3 arg4 harg4 arg5 harg5 arg6 harg6 arg7 harg7) K := by
  simp only [cc0__dense_film_kernel_eq_skeleton]; unfold cc0__dense_film_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's owed accounts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
import proofs.«143908_j58153857188396_1_alg».proof.Proof.Gen.KernelIdeal.Launch
import proofs.«143908_j58153857188396_1_alg».proof.Proof.Gen.KernelIdeal.Skeleton
import proofs.«143908_j58153857188396_1_alg».proof.Proof.Gen.KernelIdeal.Points
import proofs.«143908_j58153857188396_1_alg».proof.Proof.KI.Data1
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 1 (the FiLM mix over an edge block): the body's triple and the body obligation -/

/-! ## What the body finds in each input window's buffer -/

/-- Input window 0's current staging buffer holds its block at every point, fetched there or not, for ANY proof
    data whose array is `V`'s (`hA`) and whose body leaves the block in place (`hafter`): unfetched, the
    block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's triple -/

set_option maxHeartbeats 1000000 in
/-- The kernel body on whole staging memrefs, the inputs' at read contents `xW` and the output's at anything, runs to
    the continuation holding the inputs' as they were and the output's at `out1_3` of the inputs': the printed
    function is its skeleton, which the symbolic executor runs; the body's one load of the output buffer returns
    whatever it held and is not used. -/
theorem sound_kernel1 (c : Dev nD) (E : Set ℕ) (i : grid1.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (x0 x1 x2 : Vec F S4000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__filmmix_kernel i arg1 harg1 arg2 harg2 arg3 harg3 arg4 harg4) K := by
  simp only [cc1__filmmix_kernel_eq_skeleton]; unfold cc1__filmmix_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's owed accounts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
import proofs.«143908_j58153857188396_1_alg».proof.Proof.Gen.KernelIdeal.Launch
import proofs.«143908_j58153857188396_1_alg».proof.Proof.Gen.KernelIdeal.Skeleton
import proofs.«143908_j58153857188396_1_alg».proof.Proof.Gen.KernelIdeal.Points
import proofs.«143908_j58153857188396_1_alg».proof.Proof.KI.Data2
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 2 (the dense FiLM projection): the body's triple and the body obligation -/

/-! ## What the body finds in each input window's buffer -/

/-- Input window 0's current staging buffer holds its block at every point, fetched there or not, for ANY proof
    data whose array is `V`'s (`hA`) and whose body leaves the block in place (`hafter`): unfetched, the
    block index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof
    data whose array is `V`'s (`hA`) and whose body leaves the block in place (`hafter`): unfetched, the
    block index has not moved (this window's index never moves: it is fetched at the first point only); the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof
    data whose array is `V`'s (`hA`) and whose body leaves the block in place (`hafter`): unfetched, the
    block index has not moved (this window's index never moves: it is fetched at the first point only); the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body's triple -/

set_option maxHeartbeats 4000000 in
/-- The kernel body on whole staging memrefs, the inputs' at read contents `xW` and the outputs' at anything, runs to
    the continuation holding the inputs' as they were and each output's at `out2_W` of the inputs': the printed
    function is its skeleton, which the symbolic executor runs; before each store the body loads the output buffer
    once, which returns whatever it held and is not used. -/
theorem sound_kernel2 (c : Dev nD) (E : Set ℕ) (i : grid2.Coords)
    (arg1 : Memref sig .tc .vmem S2000x64 .f32) (harg1 : arg1.IsWhole) (arg2 : Memref sig .tc .vmem S64x384 .f32) (harg2 : arg2.IsWhole)
    (arg3 : Memref sig .tc .vmem S1x128 .f32) (harg3 : arg3.IsWhole) (arg4 : Memref sig .tc .vmem S2000x64 .f32) (harg4 : arg4.IsWhole)
    (arg5 : Memref sig .tc .vmem S2000x64 .f32) (harg5 : arg5.IsWhole) (arg6 : Memref sig .tc .vmem S2000x64 .f32) (harg6 : arg6.IsWhole)
    (arg7 : Memref sig .tc .vmem S2000x64 .f32) (harg7 : arg7.IsWhole)
    (x0 : Vec F S2000x64 .f32) (x1 : Vec F S64x384 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2) ∗ owns (c : Thread nD τ) arg5 fullShare (out2_4 x0 x1 x2)
            ∗ owns (c : Thread nD τ) arg6 fullShare (out2_5 x0 x1 x2) ∗ owns (c : Thread nD τ) arg7 fullShare (out2_6 x0 x1 x2)) -∗ K ⟨⟩))
      ⊢ wp frame (wpE (defs₀ (F := F)) Variants.none c none) E
          (cc2__dense_film_kernel i arg1 harg1 arg2 harg2 arg3 harg3 arg4 harg4 arg5 harg5 arg6 harg6 arg7 harg7) K := by
  simp only [cc2__dense_film_kernel_eq_skeleton]; unfold cc2__dense_film_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  isplitl [H4]
  · iexists _; isplitr
    swap; · iexact H4
    ipureintro
    exact View.read_writes_eq_canon _ _ _ (cover2_4 _)
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's owed accounts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
import proofs.«143908_j58153857188396_1_alg».proof.Proof.Gen.KernelIdeal.Launch
import proofs.«143908_j58153857188396_1_alg».proof.Proof.Gen.KernelIdeal.Skeleton
import proofs.«143908_j58153857188396_1_alg».proof.Proof.Gen.KernelIdeal.Points
import proofs.«143908_j58153857188396_1_alg».proof.Proof.KI.Data3
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 3 (the FiLM mix over an edge block): the body's triple and the body obligation -/

/-! ## What the body finds in each input window's buffer -/

/-- Input window 0's current staging buffer holds its block at every point, fetched there or not, for ANY proof
    data whose array is `V`'s (`hA`) and whose body leaves the block in place (`hafter`): unfetched, the
    block index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body's triple -/

set_option maxHeartbeats 1000000 in
/-- The kernel body on whole staging memrefs, the inputs' at read contents `xW` and the output's at anything, runs to
    the continuation holding the inputs' as they were and the output's at `out3_3` of the inputs': the printed
    function is its skeleton, which the symbolic executor runs; the body's one load of the output buffer returns
    whatever it held and is not used. -/
theorem sound_kernel3 (c : Dev nD) (E : Set ℕ) (i : grid3.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (x0 x1 x2 : Vec F S4000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__filmmix_kernel i arg1 harg1 arg2 harg2 arg3 harg3 arg4 harg4) K := by
  simp only [cc3__filmmix_kernel_eq_skeleton]; unfold cc3__filmmix_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The body obligation, at a generic point -/

/-- What the body is called with at point `t` (the library's body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's owed accounts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Body4.lean ====
import proofs.«143908_j58153857188396_1_alg».proof.Proof.Gen.KernelIdeal.Launch
import proofs.«143908_j58153857188396_1_alg».proof.Proof.Gen.KernelIdeal.Skeleton
import proofs.«143908_j58153857188396_1_alg».proof.Proof.Gen.KernelIdeal.Points
import proofs.«143908_j58153857188396_1_alg».proof.Proof.KI.Data4
import Idealize.ShloMosaic.Lib.Pipeline.FrameBody
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! # Region 4 (the output head): the body's triple and the body obligation -/

/-! ## What the body finds in each input window's buffer -/

/-- Input window 0's current staging buffer holds its block at every point, fetched there or not, for ANY proof
    data whose array is `V`'s (`hA`) and whose body leaves the block in place (`hafter`): unfetched, the
    block index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for ANY proof
    data whose array is `V`'s (`hA`) and whose body leaves the block in place (`hafter`): unfetched, the
    block index has not moved (this window's index never moves: it is fetched at the first point only); the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for ANY proof
    data whose array is `V`'s (`hA`) and whose body leaves the block in place (`hafter`): unfetched, the
    block index has not moved (this window's index never moves: it is fetched at the first point only); the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body's triple -/

set_option maxHeartbeats 1000000 in
/-- The kernel body on whole staging memrefs, the inputs' at read contents `xW` and the output's at anything, runs to
    the continuation holding the inputs' as they were and the output's at `out4_3` of the inputs': the printed
    function is its skeleton, which the symbolic executor runs; the body's one load of the output buffer returns
    whatever it held and is not used. -/
theorem sound_kernel4 (c : Dev nD) (E : Set ℕ) (i : grid4.Coords)
    (arg1 : Memref sig .tc .vmem S2000x64 .f32) (harg1 : arg1.IsWhole) (arg2 : Memref sig .tc .vmem S64x1 .f32) (harg2 : arg2.IsWhole)
    (arg3 : Memref sig .tc .vmem S1x1 .f32) (harg3 : arg3.IsWhole) (arg4 : Memref sig .tc .vmem S2000x1 .f32) (harg4 : arg4.IsWhole)
    (x0 : Vec F S2000x64 .f32) (x1 : Vec F S64x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__head_kernel i arg1 harg1 arg2 harg2 arg3 harg3 arg4 harg4) K := by
  simp only [cc4__head_kernel_eq_skeleton]; unfold cc4__head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The body obligation, at a generic point -/

/-- What the body is called with at point `t` (the library's body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's owed accounts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
import proofs.«143908_j58153857188396_1_alg».proof.Proof.KI.Fold
import proofs.«143908_j58153857188396_1_alg».proof.Proof.KI.Body0
import proofs.«143908_j58153857188396_1_alg».proof.Proof.KI.Body1
import proofs.«143908_j58153857188396_1_alg».proof.Proof.KI.Body2
import proofs.«143908_j58153857188396_1_alg».proof.Proof.KI.Body3
import proofs.«143908_j58153857188396_1_alg».proof.Proof.KI.Body4
import proofs.«143908_j58153857188396_1_alg».proof.Proof.Gen.KernelIdeal.Regions
import Idealize.ShloMosaic.Lib.Pipeline.RegionsLoop

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: its fourteen items as segments, from the launch to the return

The buffer contents at each boundary are the fold `W0 … W14`. Here: each argument array read back through the fold to
its launch contents; every pipeline's proof data at its region's entry contents; a host segment per stretch and a region
segment per kernel region over the thread state "every unscoped buffer at the boundary's contents, the generator register
at some state, nothing owed"; and the launch theorem over the segments. -/

/-! ## The arguments end as launched

No host operation writes an argument; a region reads an argument through an input window (whose array the pipeline
leaves as entered) or does not touch it. So the fold at an argument's buffer walks back to the launch memory. -/

theorem W14_main_arg0 (c : Dev nD) : W14 m ρ c (Proc.devRef .tc main_arg0) = m ((c : Thread nD τ).loc main_arg0) :=
  calc W14 m ρ c (Proc.devRef .tc main_arg0)
    _ = W13 m ρ c (Proc.devRef .tc main_arg0) := W14_of_ne m ρ c main_arg0 (by decide)
    _ = W12 m ρ c (Proc.devRef .tc main_arg0) := StableHlo.after_of_writes_sub hostOps4_2 _ hostOps4_2_writes (by decide)
    _ = W11 m ρ c (Proc.devRef .tc main_arg0) := StableHlo.after_of_writes_sub hostOps4_1 _ hostOps4_1_writes (by decide)
    _ = W10 m ρ c (Proc.devRef .tc main_arg0) := StableHlo.after_of_writes_sub hostOps4 _ hostOps4_writes (by decide)
    _ = W9 m ρ c (Proc.devRef .tc main_arg0) := W10_of_ne m ρ c main_arg0 (by decide)
    _ = W8 m ρ c (Proc.devRef .tc main_arg0) := StableHlo.after_of_writes_sub hostOps3 _ hostOps3_writes (by decide)
    _ = W7 m ρ c (Proc.devRef .tc main_arg0) := W8_of_ne m ρ c main_arg0 (by decide)
    _ = W6 m ρ c (Proc.devRef .tc main_arg0) := StableHlo.after_of_writes_sub hostOps2_2 _ hostOps2_2_writes (by decide)
    _ = W5 m ρ c (Proc.devRef .tc main_arg0) := StableHlo.after_of_writes_sub hostOps2_1 _ hostOps2_1_writes (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W14_main_arg1 (c : Dev nD) : W14 m ρ c (Proc.devRef .tc main_arg1) = m ((c : Thread nD τ).loc main_arg1) :=
  calc W14 m ρ c (Proc.devRef .tc main_arg1)
    _ = W13 m ρ c (Proc.devRef .tc main_arg1) := W14_of_ne m ρ c main_arg1 (by decide)
    _ = W12 m ρ c (Proc.devRef .tc main_arg1) := StableHlo.after_of_writes_sub hostOps4_2 _ hostOps4_2_writes (by decide)
    _ = W11 m ρ c (Proc.devRef .tc main_arg1) := StableHlo.after_of_writes_sub hostOps4_1 _ hostOps4_1_writes (by decide)
    _ = W10 m ρ c (Proc.devRef .tc main_arg1) := StableHlo.after_of_writes_sub hostOps4 _ hostOps4_writes (by decide)
    _ = W9 m ρ c (Proc.devRef .tc main_arg1) := W10_of_ne m ρ c main_arg1 (by decide)
    _ = W8 m ρ c (Proc.devRef .tc main_arg1) := StableHlo.after_of_writes_sub hostOps3 _ hostOps3_writes (by decide)
    _ = W7 m ρ c (Proc.devRef .tc main_arg1) := W8_of_ne m ρ c main_arg1 (by decide)
    _ = W6 m ρ c (Proc.devRef .tc main_arg1) := StableHlo.after_of_writes_sub hostOps2_2 _ hostOps2_2_writes (by decide)
    _ = W5 m ρ c (Proc.devRef .tc main_arg1) := StableHlo.after_of_writes_sub hostOps2_1 _ hostOps2_1_writes (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W14_main_arg2 (c : Dev nD) : W14 m ρ c (Proc.devRef .tc main_arg2) = m ((c : Thread nD τ).loc main_arg2) :=
  calc W14 m ρ c (Proc.devRef .tc main_arg2)
    _ = W13 m ρ c (Proc.devRef .tc main_arg2) := W14_of_ne m ρ c main_arg2 (by decide)
    _ = W12 m ρ c (Proc.devRef .tc main_arg2) := StableHlo.after_of_writes_sub hostOps4_2 _ hostOps4_2_writes (by decide)
    _ = W11 m ρ c (Proc.devRef .tc main_arg2) := StableHlo.after_of_writes_sub hostOps4_1 _ hostOps4_1_writes (by decide)
    _ = W10 m ρ c (Proc.devRef .tc main_arg2) := StableHlo.after_of_writes_sub hostOps4 _ hostOps4_writes (by decide)
    _ = W9 m ρ c (Proc.devRef .tc main_arg2) := W10_of_ne m ρ c main_arg2 (by decide)
    _ = W8 m ρ c (Proc.devRef .tc main_arg2) := StableHlo.after_of_writes_sub hostOps3 _ hostOps3_writes (by decide)
    _ = W7 m ρ c (Proc.devRef .tc main_arg2) := W8_of_ne m ρ c main_arg2 (by decide)
    _ = W6 m ρ c (Proc.devRef .tc main_arg2) := StableHlo.after_of_writes_sub hostOps2_2 _ hostOps2_2_writes (by decide)
    _ = W5 m ρ c (Proc.devRef .tc main_arg2) := StableHlo.after_of_writes_sub hostOps2_1 _ hostOps2_1_writes (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W14_main_arg3 (c : Dev nD) : W14 m ρ c (Proc.devRef .tc main_arg3) = m ((c : Thread nD τ).loc main_arg3) :=
  calc W14 m ρ c (Proc.devRef .tc main_arg3)
    _ = W13 m ρ c (Proc.devRef .tc main_arg3) := W14_of_ne m ρ c main_arg3 (by decide)
    _ = W12 m ρ c (Proc.devRef .tc main_arg3) := StableHlo.after_of_writes_sub hostOps4_2 _ hostOps4_2_writes (by decide)
    _ = W11 m ρ c (Proc.devRef .tc main_arg3) := StableHlo.after_of_writes_sub hostOps4_1 _ hostOps4_1_writes (by decide)
    _ = W10 m ρ c (Proc.devRef .tc main_arg3) := StableHlo.after_of_writes_sub hostOps4 _ hostOps4_writes (by decide)
    _ = W9 m ρ c (Proc.devRef .tc main_arg3) := W10_of_ne m ρ c main_arg3 (by decide)
    _ = W8 m ρ c (Proc.devRef .tc main_arg3) := StableHlo.after_of_writes_sub hostOps3 _ hostOps3_writes (by decide)
    _ = W7 m ρ c (Proc.devRef .tc main_arg3) := W8_of_ne m ρ c main_arg3 (by decide)
    _ = W6 m ρ c (Proc.devRef .tc main_arg3) := StableHlo.after_of_writes_sub hostOps2_2 _ hostOps2_2_writes (by decide)
    _ = W5 m ρ c (Proc.devRef .tc main_arg3) := StableHlo.after_of_writes_sub hostOps2_1 _ hostOps2_1_writes (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W14_main_arg4 (c : Dev nD) : W14 m ρ c (Proc.devRef .tc main_arg4) = m ((c : Thread nD τ).loc main_arg4) :=
  calc W14 m ρ c (Proc.devRef .tc main_arg4)
    _ = W13 m ρ c (Proc.devRef .tc main_arg4) := W14_of_ne m ρ c main_arg4 (by decide)
    _ = W12 m ρ c (Proc.devRef .tc main_arg4) := StableHlo.after_of_writes_sub hostOps4_2 _ hostOps4_2_writes (by decide)
    _ = W11 m ρ c (Proc.devRef .tc main_arg4) := StableHlo.after_of_writes_sub hostOps4_1 _ hostOps4_1_writes (by decide)
    _ = W10 m ρ c (Proc.devRef .tc main_arg4) := StableHlo.after_of_writes_sub hostOps4 _ hostOps4_writes (by decide)
    _ = W9 m ρ c (Proc.devRef .tc main_arg4) := W10_of_ne m ρ c main_arg4 (by decide)
    _ = W8 m ρ c (Proc.devRef .tc main_arg4) := StableHlo.after_of_writes_sub hostOps3 _ hostOps3_writes (by decide)
    _ = W7 m ρ c (Proc.devRef .tc main_arg4) := W8_of_ne m ρ c main_arg4 (by decide)
    _ = W6 m ρ c (Proc.devRef .tc main_arg4) := StableHlo.after_of_writes_sub hostOps2_2 _ hostOps2_2_writes (by decide)
    _ = W5 m ρ c (Proc.devRef .tc main_arg4) := StableHlo.after_of_writes_sub hostOps2_1 _ hostOps2_1_writes (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W14_main_arg5 (c : Dev nD) : W14 m ρ c (Proc.devRef .tc main_arg5) = m ((c : Thread nD τ).loc main_arg5) :=
  calc W14 m ρ c (Proc.devRef .tc main_arg5)
    _ = W13 m ρ c (Proc.devRef .tc main_arg5) := W14_of_ne m ρ c main_arg5 (by decide)
    _ = W12 m ρ c (Proc.devRef .tc main_arg5) := StableHlo.after_of_writes_sub hostOps4_2 _ hostOps4_2_writes (by decide)
    _ = W11 m ρ c (Proc.devRef .tc main_arg5) := StableHlo.after_of_writes_sub hostOps4_1 _ hostOps4_1_writes (by decide)
    _ = W10 m ρ c (Proc.devRef .tc main_arg5) := StableHlo.after_of_writes_sub hostOps4 _ hostOps4_writes (by decide)
    _ = W9 m ρ c (Proc.devRef .tc main_arg5) := W10_of_ne m ρ c main_arg5 (by decide)
    _ = W8 m ρ c (Proc.devRef .tc main_arg5) := StableHlo.after_of_writes_sub hostOps3 _ hostOps3_writes (by decide)
    _ = W7 m ρ c (Proc.devRef .tc main_arg5) := W8_of_ne m ρ c main_arg5 (by decide)
    _ = W6 m ρ c (Proc.devRef .tc main_arg5) := StableHlo.after_of_writes_sub hostOps2_2 _ hostOps2_2_writes (by decide)
    _ = W5 m ρ c (Proc.devRef .tc main_arg5) := StableHlo.after_of_writes_sub hostOps2_1 _ hostOps2_1_writes (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W14_main_arg6 (c : Dev nD) : W14 m ρ c (Proc.devRef .tc main_arg6) = m ((c : Thread nD τ).loc main_arg6) :=
  calc W14 m ρ c (Proc.devRef .tc main_arg6)
    _ = W13 m ρ c (Proc.devRef .tc main_arg6) := W14_of_ne m ρ c main_arg6 (by decide)
    _ = W12 m ρ c (Proc.devRef .tc main_arg6) := StableHlo.after_of_writes_sub hostOps4_2 _ hostOps4_2_writes (by decide)
    _ = W11 m ρ c (Proc.devRef .tc main_arg6) := StableHlo.after_of_writes_sub hostOps4_1 _ hostOps4_1_writes (by decide)
    _ = W10 m ρ c (Proc.devRef .tc main_arg6) := StableHlo.after_of_writes_sub hostOps4 _ hostOps4_writes (by decide)
    _ = W9 m ρ c (Proc.devRef .tc main_arg6) := W10_of_ne m ρ c main_arg6 (by decide)
    _ = W8 m ρ c (Proc.devRef .tc main_arg6) := StableHlo.after_of_writes_sub hostOps3 _ hostOps3_writes (by decide)
    _ = W7 m ρ c (Proc.devRef .tc main_arg6) := W8_of_ne m ρ c main_arg6 (by decide)
    _ = W6 m ρ c (Proc.devRef .tc main_arg6) := StableHlo.after_of_writes_sub hostOps2_2 _ hostOps2_2_writes (by decide)
    _ = W5 m ρ c (Proc.devRef .tc main_arg6) := StableHlo.after_of_writes_sub hostOps2_1 _ hostOps2_1_writes (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W14_main_arg7 (c : Dev nD) : W14 m ρ c (Proc.devRef .tc main_arg7) = m ((c : Thread nD τ).loc main_arg7) :=
  calc W14 m ρ c (Proc.devRef .tc main_arg7)
    _ = W13 m ρ c (Proc.devRef .tc main_arg7) := W14_of_ne m ρ c main_arg7 (by decide)
    _ = W12 m ρ c (Proc.devRef .tc main_arg7) := StableHlo.after_of_writes_sub hostOps4_2 _ hostOps4_2_writes (by decide)
    _ = W11 m ρ c (Proc.devRef .tc main_arg7) := StableHlo.after_of_writes_sub hostOps4_1 _ hostOps4_1_writes (by decide)
    _ = W10 m ρ c (Proc.devRef .tc main_arg7) := StableHlo.after_of_writes_sub hostOps4 _ hostOps4_writes (by decide)
    _ = W9 m ρ c (Proc.devRef .tc main_arg7) := W10_of_ne m ρ c main_arg7 (by decide)
    _ = W8 m ρ c (Proc.devRef .tc main_arg7) := StableHlo.after_of_writes_sub hostOps3 _ hostOps3_writes (by decide)
    _ = W7 m ρ c (Proc.devRef .tc main_arg7) := W8_of_ne m ρ c main_arg7 (by decide)
    _ = W6 m ρ c (Proc.devRef .tc main_arg7) := StableHlo.after_of_writes_sub hostOps2_2 _ hostOps2_2_writes (by decide)
    _ = W5 m ρ c (Proc.devRef .tc main_arg7) := StableHlo.after_of_writes_sub hostOps2_1 _ hostOps2_1_writes (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W14_main_arg8 (c : Dev nD) : W14 m ρ c (Proc.devRef .tc main_arg8) = m ((c : Thread nD τ).loc main_arg8) :=
  calc W14 m ρ c (Proc.devRef .tc main_arg8)
    _ = W13 m ρ c (Proc.devRef .tc main_arg8) := W14_of_ne m ρ c main_arg8 (by decide)
    _ = W12 m ρ c (Proc.devRef .tc main_arg8) := StableHlo.after_of_writes_sub hostOps4_2 _ hostOps4_2_writes (by decide)
    _ = W11 m ρ c (Proc.devRef .tc main_arg8) := StableHlo.after_of_writes_sub hostOps4_1 _ hostOps4_1_writes (by decide)
    _ = W10 m ρ c (Proc.devRef .tc main_arg8) := StableHlo.after_of_writes_sub hostOps4 _ hostOps4_writes (by decide)
    _ = W9 m ρ c (Proc.devRef .tc main_arg8) := W10_of_ne m ρ c main_arg8 (by decide)
    _ = W8 m ρ c (Proc.devRef .tc main_arg8) := StableHlo.after_of_writes_sub hostOps3 _ hostOps3_writes (by decide)
    _ = W7 m ρ c (Proc.devRef .tc main_arg8) := W8_of_ne m ρ c main_arg8 (by decide)
    _ = W6 m ρ c (Proc.devRef .tc main_arg8) := StableHlo.after_of_writes_sub hostOps2_2 _ hostOps2_2_writes (by decide)
    _ = W5 m ρ c (Proc.devRef .tc main_arg8) := StableHlo.after_of_writes_sub hostOps2_1 _ hostOps2_1_writes (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W14_main_arg9 (c : Dev nD) : W14 m ρ c (Proc.devRef .tc main_arg9) = m ((c : Thread nD τ).loc main_arg9) :=
  calc W14 m ρ c (Proc.devRef .tc main_arg9)
    _ = W13 m ρ c (Proc.devRef .tc main_arg9) := W14_of_ne m ρ c main_arg9 (by decide)
    _ = W12 m ρ c (Proc.devRef .tc main_arg9) := StableHlo.after_of_writes_sub hostOps4_2 _ hostOps4_2_writes (by decide)
    _ = W11 m ρ c (Proc.devRef .tc main_arg9) := StableHlo.after_of_writes_sub hostOps4_1 _ hostOps4_1_writes (by decide)
    _ = W10 m ρ c (Proc.devRef .tc main_arg9) := StableHlo.after_of_writes_sub hostOps4 _ hostOps4_writes (by decide)
    _ = W9 m ρ c (Proc.devRef .tc main_arg9) := W10_of_ne m ρ c main_arg9 (by decide)
    _ = W8 m ρ c (Proc.devRef .tc main_arg9) := StableHlo.after_of_writes_sub hostOps3 _ hostOps3_writes (by decide)
    _ = W7 m ρ c (Proc.devRef .tc main_arg9) := W8_of_ne m ρ c main_arg9 (by decide)
    _ = W6 m ρ c (Proc.devRef .tc main_arg9) := StableHlo.after_of_writes_sub hostOps2_2 _ hostOps2_2_writes (by decide)
    _ = W5 m ρ c (Proc.devRef .tc main_arg9) := StableHlo.after_of_writes_sub hostOps2_1 _ hostOps2_1_writes (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W14_main_arg10 (c : Dev nD) : W14 m ρ c (Proc.devRef .tc main_arg10) = m ((c : Thread nD τ).loc main_arg10) :=
  calc W14 m ρ c (Proc.devRef .tc main_arg10)
    _ = W13 m ρ c (Proc.devRef .tc main_arg10) := W14_of_ne m ρ c main_arg10 (by decide)
    _ = W12 m ρ c (Proc.devRef .tc main_arg10) := StableHlo.after_of_writes_sub hostOps4_2 _ hostOps4_2_writes (by decide)
    _ = W11 m ρ c (Proc.devRef .tc main_arg10) := StableHlo.after_of_writes_sub hostOps4_1 _ hostOps4_1_writes (by decide)
    _ = W10 m ρ c (Proc.devRef .tc main_arg10) := StableHlo.after_of_writes_sub hostOps4 _ hostOps4_writes (by decide)
    _ = W9 m ρ c (Proc.devRef .tc main_arg10) := W10_of_ne m ρ c main_arg10 (by decide)
    _ = W8 m ρ c (Proc.devRef .tc main_arg10) := StableHlo.after_of_writes_sub hostOps3 _ hostOps3_writes (by decide)
    _ = W7 m ρ c (Proc.devRef .tc main_arg10) := W8_of_ne m ρ c main_arg10 (by decide)
    _ = W6 m ρ c (Proc.devRef .tc main_arg10) := StableHlo.after_of_writes_sub hostOps2_2 _ hostOps2_2_writes (by decide)
    _ = W5 m ρ c (Proc.devRef .tc main_arg10) := StableHlo.after_of_writes_sub hostOps2_1 _ hostOps2_1_writes (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W14_main_arg11 (c : Dev nD) : W14 m ρ c (Proc.devRef .tc main_arg11) = m ((c : Thread nD τ).loc main_arg11) :=
  calc W14 m ρ c (Proc.devRef .tc main_arg11)
    _ = W13 m ρ c (Proc.devRef .tc main_arg11) := W14_of_ne m ρ c main_arg11 (by decide)
    _ = W12 m ρ c (Proc.devRef .tc main_arg11) := StableHlo.after_of_writes_sub hostOps4_2 _ hostOps4_2_writes (by decide)
    _ = W11 m ρ c (Proc.devRef .tc main_arg11) := StableHlo.after_of_writes_sub hostOps4_1 _ hostOps4_1_writes (by decide)
    _ = W10 m ρ c (Proc.devRef .tc main_arg11) := StableHlo.after_of_writes_sub hostOps4 _ hostOps4_writes (by decide)
    _ = W9 m ρ c (Proc.devRef .tc main_arg11) := W10_of_ne m ρ c main_arg11 (by decide)
    _ = W8 m ρ c (Proc.devRef .tc main_arg11) := StableHlo.after_of_writes_sub hostOps3 _ hostOps3_writes (by decide)
    _ = W7 m ρ c (Proc.devRef .tc main_arg11) := W8_of_ne m ρ c main_arg11 (by decide)
    _ = W6 m ρ c (Proc.devRef .tc main_arg11) := StableHlo.after_of_writes_sub hostOps2_2 _ hostOps2_2_writes (by decide)
    _ = W5 m ρ c (Proc.devRef .tc main_arg11) := StableHlo.after_of_writes_sub hostOps2_1 _ hostOps2_1_writes (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W14_main_arg12 (c : Dev nD) : W14 m ρ c (Proc.devRef .tc main_arg12) = m ((c : Thread nD τ).loc main_arg12) :=
  calc W14 m ρ c (Proc.devRef .tc main_arg12)
    _ = W13 m ρ c (Proc.devRef .tc main_arg12) := (W14_arr m ρ c 1).trans (((dat4 (V13 m ρ) c).arrAt_in 1 rfl _).trans (A_eq4 (V13 m ρ) c 1))
    _ = W12 m ρ c (Proc.devRef .tc main_arg12) := StableHlo.after_of_writes_sub hostOps4_2 _ hostOps4_2_writes (by decide)
    _ = W11 m ρ c (Proc.devRef .tc main_arg12) := StableHlo.after_of_writes_sub hostOps4_1 _ hostOps4_1_writes (by decide)
    _ = W10 m ρ c (Proc.devRef .tc main_arg12) := StableHlo.after_of_writes_sub hostOps4 _ hostOps4_writes (by decide)
    _ = W9 m ρ c (Proc.devRef .tc main_arg12) := W10_of_ne m ρ c main_arg12 (by decide)
    _ = W8 m ρ c (Proc.devRef .tc main_arg12) := StableHlo.after_of_writes_sub hostOps3 _ hostOps3_writes (by decide)
    _ = W7 m ρ c (Proc.devRef .tc main_arg12) := W8_of_ne m ρ c main_arg12 (by decide)
    _ = W6 m ρ c (Proc.devRef .tc main_arg12) := StableHlo.after_of_writes_sub hostOps2_2 _ hostOps2_2_writes (by decide)
    _ = W5 m ρ c (Proc.devRef .tc main_arg12) := StableHlo.after_of_writes_sub hostOps2_1 _ hostOps2_1_writes (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W14_main_arg13 (c : Dev nD) : W14 m ρ c (Proc.devRef .tc main_arg13) = m ((c : Thread nD τ).loc main_arg13) :=
  calc W14 m ρ c (Proc.devRef .tc main_arg13)
    _ = W13 m ρ c (Proc.devRef .tc main_arg13) := W14_of_ne m ρ c main_arg13 (by decide)
    _ = W12 m ρ c (Proc.devRef .tc main_arg13) := StableHlo.after_of_writes_sub hostOps4_2 _ hostOps4_2_writes (by decide)
    _ = W11 m ρ c (Proc.devRef .tc main_arg13) := StableHlo.after_of_writes_sub hostOps4_1 _ hostOps4_1_writes (by decide)
    _ = W10 m ρ c (Proc.devRef .tc main_arg13) := StableHlo.after_of_writes_sub hostOps4 _ hostOps4_writes (by decide)
    _ = W9 m ρ c (Proc.devRef .tc main_arg13) := W10_of_ne m ρ c main_arg13 (by decide)
    _ = W8 m ρ c (Proc.devRef .tc main_arg13) := StableHlo.after_of_writes_sub hostOps3 _ hostOps3_writes (by decide)
    _ = W7 m ρ c (Proc.devRef .tc main_arg13) := W8_of_ne m ρ c main_arg13 (by decide)
    _ = W6 m ρ c (Proc.devRef .tc main_arg13) := StableHlo.after_of_writes_sub hostOps2_2 _ hostOps2_2_writes (by decide)
    _ = W5 m ρ c (Proc.devRef .tc main_arg13) := StableHlo.after_of_writes_sub hostOps2_1 _ hostOps2_1_writes (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) c
  | ⟨3, _⟩ => fun c => dat3 (V9 m ρ) c
  | ⟨4, _⟩ => fun c => dat4 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the plain
    class's invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it BESIDE the core owing nothing): every unscoped
    buffer at the last boundary's contents `W14`, the generator register at some state. -/
abbrev Tₙ (c : Dev nD) : sProp 𝕄 := iprop(StableHlo.held (c : Thread nD τ) (Pipeline.ucRefs τ sig) (W14 m ρ c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at `W1`, left at `W2`. Its arrays split
    out of the unscoped buffers and put back at the exit contents; the generator register into the class invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `W3`, left at `W4`. Its arrays split
    out of the unscoped buffers and put back at the exit contents; the generator register into the class invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered from every unscoped buffer at `W7`, left at `W8`. Its arrays split
    out of the unscoped buffers and put back at the exit contents; the generator register into the class invariant
    and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 3 over the thread state: entered from every unscoped buffer at `W9`, left at `W10`. Its arrays split
    out of the unscoped buffers and put back at the exit contents; the generator register into the class invariant
    and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 4 over the thread state: entered from every unscoped buffer at `W13`, left at `W14`. Its arrays split
    out of the unscoped buffers and put back at the exit contents; the generator register into the class invariant
    and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V13 m ρ c) (V14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 14 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .host (hseg hostOps4_1 hostOps4_1_sub hostOps4_1_fresh (W11 m ρ)),
    .host (hseg hostOps4_2 hostOps4_2_sub hostOps4_2_fresh (W12 m ρ)),
    .region (reg4 m ρ) ]
/-- @main IS the run of the segments: @main as the chain of its items, then the segments' run against that chain by the
    kernel's definitional check. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's unscoped buffers hold the last
    boundary's contents `W14`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun _ h => h)

/-- THE FRAME: every weakly fair execution of @main terminates, nothing faulting, and every final state has the
    fourteen argument arrays as launched: each is an unscoped buffer, which the run leaves at `W14`, and the fold at
    an argument walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs (onTc (τ := τ) (main (F := F))) ⟨m, fun _ => 0, ρ⟩).mono (fun r h c =>
    ⟨(h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c),
     (h c _ (mem_uc main_arg13 (by decide))).trans (W14_main_arg13 m ρ c)⟩)
    (run_all m ρ)

/-- info: 'Cert.KernelIdeal.Hand.frame' depends on axioms: [propext, Classical.choice, Quot.sound] -/
#guard_msgs in #print axioms frame

end Cert.KernelIdeal.Hand

end
-- ==== Proof.Ref.Run.lean ====
/- The reference program's @main as the list of its 154 host operations, and its run read back: every
   weakly fair execution terminates with each buffer at the fold of the operations' results over the
   launch contents, and the fourteen arguments unchanged. The operations of a called function (relu,
   relu_0, leaky_relu and the _where inside it) stand at the call's place, over the buffers of that call. -/
import proofs.«143908_j58153857188396_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 154 operations, in program order; a called function's operations in its call's place. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg6 main_v4 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_v4 main_v5 ((extractStridedSlice S100000x64 ![0, 0] · slices_S100000x128_S100000x64_0_0) : (⟨S100000x128, .f32⟩ : BufTy).Contents (Elt F) → (⟨S100000x64, .f32⟩ : BufTy).Contents (Elt F)),
    unary main_v4 main_v6 ((extractStridedSlice S100000x64 ![0, 64] · slices_S100000x128_S100000x64_0_64) : (⟨S100000x128, .f32⟩ : BufTy).Contents (Elt F) → (⟨S100000x64, .f32⟩ : BufTy).Contents (Elt F)),
    binary main_arg0 main_arg5 main_v7 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v6 main_v7 main_v8 (mulf : (⟨S100000x64, .f32⟩ : BufTy).Contents (Elt F) → (⟨S100000x64, .f32⟩ : BufTy).Contents (Elt F) → (⟨S100000x64, .f32⟩ : BufTy).Contents (Elt F)),
    binary main_v8 main_v5 main_v9 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v9) (TRef.of (T := ⟨S100000x64, .f32⟩) main_call0_v0) (TRef.of (T := ⟨S100000x64, .f32⟩) main_v10) maximumf,
    binary main_arg0 main_arg3 main_v11 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg4 main_v12 (broadcastInDim S1x128 ![1] bcast_S128_S1x128_1 : (⟨S128, .f32⟩ : BufTy).Contents (Elt F) → (⟨S1x128, .f32⟩ : BufTy).Contents (Elt F)),
    unary main_v12 main_v13 (broadcastInDim S100000x128 ![0, 1] bcast_S1x128_S100000x128_0_1 : (⟨S1x128, .f32⟩ : BufTy).Contents (Elt F) → (⟨S100000x128, .f32⟩ : BufTy).Contents (Elt F)),
    binary main_v11 main_v13 main_v14 (addf : (⟨S100000x128, .f32⟩ : BufTy).Contents (Elt F) → (⟨S100000x128, .f32⟩ : BufTy).Contents (Elt F) → (⟨S100000x128, .f32⟩ : BufTy).Contents (Elt F)),
    unary main_v14 main_v15 ((extractStridedSlice S100000x64 ![0, 0] · slices_S100000x128_S100000x64_0_0) : (⟨S100000x128, .f32⟩ : BufTy).Contents (Elt F) → (⟨S100000x64, .f32⟩ : BufTy).Contents (Elt F)),
    unary main_v14 main_v16 ((extractStridedSlice S100000x64 ![0, 64] · slices_S100000x128_S100000x64_0_64) : (⟨S100000x128, .f32⟩ : BufTy).Contents (Elt F) → (⟨S100000x64, .f32⟩ : BufTy).Contents (Elt F)),
    binary main_arg0 main_arg2 main_v17 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c (constantI S_ 32 0#32),
    unary main_c main_v18 (broadcastInDim S1600000 ![] bcast_S_S1600000 : (⟨S_, .i32⟩ : BufTy).Contents (Elt F) → (⟨S1600000, .i32⟩ : BufTy).Contents (Elt F)),
    binary main_v3 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v20 (broadcastInDim S1600000 ![] bcast_S_S1600000 : (⟨S_, .i32⟩ : BufTy).Contents (Elt F) → (⟨S1600000, .i32⟩ : BufTy).Contents (Elt F)),
    binary main_v3 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_v3 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_v16 main_v23 main_v24 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_1 (constantI S_ 32 0#32),
    unary main_c_1 main_v25 (broadcastInDim S1600000 ![] bcast_S_S1600000 : (⟨S_, .i32⟩ : BufTy).Contents (Elt F) → (⟨S1600000, .i32⟩ : BufTy).Contents (Elt F)),
    binary main_v1 main_v25 main_v26 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v27 (broadcastInDim S1600000 ![] bcast_S_S1600000 : (⟨S_, .i32⟩ : BufTy).Contents (Elt F) → (⟨S1600000, .i32⟩ : BufTy).Contents (Elt F)),
    binary main_v1 main_v27 main_v28 (addi : (⟨S1600000, .i32⟩ : BufTy).Contents (Elt F) → (⟨S1600000, .i32⟩ : BufTy).Contents (Elt F) → (⟨S1600000, .i32⟩ : BufTy).Contents (Elt F)),
    ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v29 main_v30 (broadcastInDim S1600000x1 ![0] bcast_S1600000_S1600000x1_0 : (⟨S1600000, .i32⟩ : BufTy).Contents (Elt F) → (⟨S1600000x1, .i32⟩ : BufTy).Contents (Elt F)),
    binary main_v17 main_v30 main_v31 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v24 main_v31 main_v32 (mulf : (⟨S1600000x64, .f32⟩ : BufTy).Contents (Elt F) → (⟨S1600000x64, .f32⟩ : BufTy).Contents (Elt F) → (⟨S1600000x64, .f32⟩ : BufTy).Contents (Elt F)),
    nullary main_c_3 (constantI S_ 32 0#32),
    unary main_c_3 main_v33 (broadcastInDim S1600000 ![] bcast_S_S1600000 : (⟨S_, .i32⟩ : BufTy).Contents (Elt F) → (⟨S1600000, .i32⟩ : BufTy).Contents (Elt F)),
    binary main_v3 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v35 (broadcastInDim S1600000 ![] bcast_S_S1600000 : (⟨S_, .i32⟩ : BufTy).Contents (Elt F) → (⟨S1600000, .i32⟩ : BufTy).Contents (Elt F)),
    binary main_v3 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_v3 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_v15 main_v38 main_v39 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v32 main_v39 main_v40 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1600000x64, .f32⟩) main_call1_v0) (broadcastInDim S1600000x64 ![] bcast_S_S1600000x64),
    TRef.binary (TRef.of (T := ⟨S1600000x64, .f32⟩) main_v40) (TRef.of (T := ⟨S1600000x64, .f32⟩) main_call1_v0) (TRef.of (T := ⟨S1600000x64, .f32⟩) main_v41) maximumf,
    nullary main_cst (constant S_ .f32 0x00000000#32),
    unary main_cst main_v42 (broadcastInDim S100000x64 ![] bcast_S_S100000x64 : (⟨S_, .f32⟩ : BufTy).Contents (Elt F) → (⟨S100000x64, .f32⟩ : BufTy).Contents (Elt F)),
    unary main_v3 main_v43 (broadcastInDim S1600000x1 ![0] bcast_S1600000_S1600000x1_0 : (⟨S1600000, .i32⟩ : BufTy).Contents (Elt F) → (⟨S1600000x1, .i32⟩ : BufTy).Contents (Elt F)),
    ternary main_v42 main_v43 main_v41 main_v44 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_5 (constant S_ .f32 0x3F800000#32),
    unary main_cst_5 main_v45 (broadcastInDim S1600000 ![] bcast_S_S1600000 : (⟨S_, .f32⟩ : BufTy).Contents (Elt F) → (⟨S1600000, .f32⟩ : BufTy).Contents (Elt F)),
    nullary main_cst_6 (constant S_ .f32 0x00000000#32),
    unary main_cst_6 main_v46 (broadcastInDim S100000 ![] bcast_S_S100000 : (⟨S_, .f32⟩ : BufTy).Contents (Elt F) → (⟨S100000, .f32⟩ : BufTy).Contents (Elt F)),
    unary main_v3 main_v47 (broadcastInDim S1600000x1 ![0] bcast_S1600000_S1600000x1_0 : (⟨S1600000, .i32⟩ : BufTy).Contents (Elt F) → (⟨S1600000x1, .i32⟩ : BufTy).Contents (Elt F)),
    ternary main_v46 main_v47 main_v45 main_v48 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_7 (constant S_ .f32 0x3F800000#32),
    unary main_cst_7 main_v49 (broadcastInDim S100000 ![] bcast_S_S100000 : (⟨S_, .f32⟩ : BufTy).Contents (Elt F) → (⟨S100000, .f32⟩ : BufTy).Contents (Elt F)),
    binary main_v48 main_v49 main_v50 (maximumf : (⟨S100000, .f32⟩ : BufTy).Contents (Elt F) → (⟨S100000, .f32⟩ : BufTy).Contents (Elt F) → (⟨S100000, .f32⟩ : BufTy).Contents (Elt F)),
    unary main_v50 main_v51 (broadcastInDim S100000x1 ![0] bcast_S100000_S100000x1_0 : (⟨S100000, .f32⟩ : BufTy).Contents (Elt F) → (⟨S100000x1, .f32⟩ : BufTy).Contents (Elt F)),
    unary main_v51 main_v52 (broadcastInDim S100000x64 ![0, 1] bcast_S100000x1_S100000x64_0_1 : (⟨S100000x1, .f32⟩ : BufTy).Contents (Elt F) → (⟨S100000x64, .f32⟩ : BufTy).Contents (Elt F)),
    binary main_v44 main_v52 main_v53 (Host.divf : (⟨S100000x64, .f32⟩ : BufTy).Contents (Elt F) → (⟨S100000x64, .f32⟩ : BufTy).Contents (Elt F) → (⟨S100000x64, .f32⟩ : BufTy).Contents (Elt F)),
    binary main_v10 main_v53 main_v54 (addf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x3C23D70A#32),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v54) (TRef.of (T := ⟨S100000x64, .f32⟩) main_call2_v0) (TRef.of (T := ⟨S100000x64, .i1⟩) main_call2_v1) (cmpf .oge),
    TRef.unary (TRef.of (T := ⟨S_, .f32⟩) main_cst_8) (TRef.of (T := ⟨S_, .f32⟩) main_call2_v2) id,
    TRef.unary (TRef.of (T := ⟨S_, .f32⟩) main_call2_v2) (TRef.of (T := ⟨S100000x64, .f32⟩) main_call2_v3) (broadcastInDim S100000x64 ![] bcast_S_S100000x64),
    TRef.binary (TRef.of (T := ⟨S100000x64, .f32⟩) main_call2_v3) (TRef.of (T := ⟨S100000x64, .f32⟩) main_v54) (TRef.of (T := ⟨S100000x64, .f32⟩) main_call2_v4) mulf,
    TRef.ternary (TRef.of (T := ⟨S100000x64, .i1⟩) main_call2_v1) (TRef.of (T := ⟨S100000x64, .f32⟩) main_v54) (TRef.of (T := ⟨S100000x64, .f32⟩) main_call2_v4) (TRef.of (T := ⟨S100000x64, .f32⟩) main_v55) select,
    binary main_v55 main_arg11 main_v56 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_v56 main_v57 ((extractStridedSlice S100000x64 ![0, 0] · slices_S100000x128_S100000x64_0_0) : (⟨S100000x128, .f32⟩ : BufTy).Contents (Elt F) → (⟨S100000x64, .f32⟩ : BufTy).Contents (Elt F)),
    unary main_v56 main_v58 ((extractStridedSlice S100000x64 ![0, 64] · slices_S100000x128_S100000x64_0_64) : (⟨S100000x128, .f32⟩ : BufTy).Contents (Elt F) → (⟨S100000x64, .f32⟩ : BufTy).Contents (Elt F)),
    binary main_v55 main_arg10 main_v59 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v58 main_v59 main_v60 (mulf : (⟨S100000x64, .f32⟩ : BufTy).Contents (Elt F) → (⟨S100000x64, .f32⟩ : BufTy).Contents (Elt F) → (⟨S100000x64, .f32⟩ : BufTy).Contents (Elt F)),
    binary main_v60 main_v57 main_v61 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v61) (TRef.of (T := ⟨S100000x64, .f32⟩) main_call3_v0) (TRef.of (T := ⟨S100000x64, .f32⟩) main_v62) maximumf,
    binary main_v55 main_arg8 main_v63 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg9 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)),
    unary main_v66 main_v67 ((extractStridedSlice S100000x64 ![0, 0] · slices_S100000x128_S100000x64_0_0) : (⟨S100000x128, .f32⟩ : BufTy).Contents (Elt F) → (⟨S100000x64, .f32⟩ : BufTy).Contents (Elt F)),
    unary main_v66 main_v68 ((extractStridedSlice S100000x64 ![0, 64] · slices_S100000x128_S100000x64_0_64) : (⟨S100000x128, .f32⟩ : BufTy).Contents (Elt F) → (⟨S100000x64, .f32⟩ : BufTy).Contents (Elt F)),
    binary main_v55 main_arg7 main_v69 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_9 (constantI S_ 32 0#32),
    unary main_c_9 main_v70 (broadcastInDim S1600000 ![] bcast_S_S1600000 : (⟨S_, .i32⟩ : BufTy).Contents (Elt F) → (⟨S1600000, .i32⟩ : BufTy).Contents (Elt F)),
    binary main_v3 main_v70 main_v71 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v72 (broadcastInDim S1600000 ![] bcast_S_S1600000 : (⟨S_, .i32⟩ : BufTy).Contents (Elt F) → (⟨S1600000, .i32⟩ : BufTy).Contents (Elt F)),
    binary main_v3 main_v72 main_v73 (addi : (⟨S1600000, .i32⟩ : BufTy).Contents (Elt F) → (⟨S1600000, .i32⟩ : BufTy).Contents (Elt F) → (⟨S1600000, .i32⟩ : BufTy).Contents (Elt F)),
    ternary main_v71 main_v73 main_v3 main_v74 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v74 main_v75 (broadcastInDim S1600000x1 ![0] bcast_S1600000_S1600000x1_0 : (⟨S1600000, .i32⟩ : BufTy).Contents (Elt F) → (⟨S1600000x1, .i32⟩ : BufTy).Contents (Elt F)),
    binary main_v68 main_v75 main_v76 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_11 (constantI S_ 32 0#32),
    unary main_c_11 main_v77 (broadcastInDim S1600000 ![] bcast_S_S1600000 : (⟨S_, .i32⟩ : BufTy).Contents (Elt F) → (⟨S1600000, .i32⟩ : BufTy).Contents (Elt F)),
    binary main_v1 main_v77 main_v78 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v79 (broadcastInDim S1600000 ![] bcast_S_S1600000 : (⟨S_, .i32⟩ : BufTy).Contents (Elt F) → (⟨S1600000, .i32⟩ : BufTy).Contents (Elt F)),
    binary main_v1 main_v79 main_v80 (addi : (⟨S1600000, .i32⟩ : BufTy).Contents (Elt F) → (⟨S1600000, .i32⟩ : BufTy).Contents (Elt F) → (⟨S1600000, .i32⟩ : BufTy).Contents (Elt F)),
    ternary main_v78 main_v80 main_v1 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v81 main_v82 (broadcastInDim S1600000x1 ![0] bcast_S1600000_S1600000x1_0 : (⟨S1600000, .i32⟩ : BufTy).Contents (Elt F) → (⟨S1600000x1, .i32⟩ : BufTy).Contents (Elt F)),
    binary main_v69 main_v82 main_v83 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v76 main_v83 main_v84 (mulf : (⟨S1600000x64, .f32⟩ : BufTy).Contents (Elt F) → (⟨S1600000x64, .f32⟩ : BufTy).Contents (Elt F) → (⟨S1600000x64, .f32⟩ : BufTy).Contents (Elt F)),
    nullary main_c_13 (constantI S_ 32 0#32),
    unary main_c_13 main_v85 (broadcastInDim S1600000 ![] bcast_S_S1600000 : (⟨S_, .i32⟩ : BufTy).Contents (Elt F) → (⟨S1600000, .i32⟩ : BufTy).Contents (Elt F)),
    binary main_v3 main_v85 main_v86 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v87 (broadcastInDim S1600000 ![] bcast_S_S1600000 : (⟨S_, .i32⟩ : BufTy).Contents (Elt F) → (⟨S1600000, .i32⟩ : BufTy).Contents (Elt F)),
    binary main_v3 main_v87 main_v88 (addi : (⟨S1600000, .i32⟩ : BufTy).Contents (Elt F) → (⟨S1600000, .i32⟩ : BufTy).Contents (Elt F) → (⟨S1600000, .i32⟩ : BufTy).Contents (Elt F)),
    ternary main_v86 main_v88 main_v3 main_v89 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v89 main_v90 (broadcastInDim S1600000x1 ![0] bcast_S1600000_S1600000x1_0 : (⟨S1600000, .i32⟩ : BufTy).Contents (Elt F) → (⟨S1600000x1, .i32⟩ : BufTy).Contents (Elt F)),
    binary main_v67 main_v90 main_v91 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v84 main_v91 main_v92 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1600000x64, .f32⟩) main_call4_v0) (broadcastInDim S1600000x64 ![] bcast_S_S1600000x64),
    TRef.binary (TRef.of (T := ⟨S1600000x64, .f32⟩) main_v92) (TRef.of (T := ⟨S1600000x64, .f32⟩) main_call4_v0) (TRef.of (T := ⟨S1600000x64, .f32⟩) main_v93) maximumf,
    nullary main_cst_15 (constant S_ .f32 0x00000000#32),
    unary main_cst_15 main_v94 (broadcastInDim S100000x64 ![] bcast_S_S100000x64 : (⟨S_, .f32⟩ : BufTy).Contents (Elt F) → (⟨S100000x64, .f32⟩ : BufTy).Contents (Elt F)),
    unary main_v3 main_v95 (broadcastInDim S1600000x1 ![0] bcast_S1600000_S1600000x1_0 : (⟨S1600000, .i32⟩ : BufTy).Contents (Elt F) → (⟨S1600000x1, .i32⟩ : BufTy).Contents (Elt F)),
    ternary main_v94 main_v95 main_v93 main_v96 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_16 (constant S_ .f32 0x3F800000#32),
    unary main_cst_16 main_v97 (broadcastInDim S1600000 ![] bcast_S_S1600000 : (⟨S_, .f32⟩ : BufTy).Contents (Elt F) → (⟨S1600000, .f32⟩ : BufTy).Contents (Elt F)),
    nullary main_cst_17 (constant S_ .f32 0x00000000#32),
    unary main_cst_17 main_v98 (broadcastInDim S100000 ![] bcast_S_S100000 : (⟨S_, .f32⟩ : BufTy).Contents (Elt F) → (⟨S100000, .f32⟩ : BufTy).Contents (Elt F)),
    unary main_v3 main_v99 (broadcastInDim S1600000x1 ![0] bcast_S1600000_S1600000x1_0 : (⟨S1600000, .i32⟩ : BufTy).Contents (Elt F) → (⟨S1600000x1, .i32⟩ : BufTy).Contents (Elt F)),
    ternary main_v98 main_v99 main_v97 main_v100 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_18 (constant S_ .f32 0x3F800000#32),
    unary main_cst_18 main_v101 (broadcastInDim S100000 ![] bcast_S_S100000 : (⟨S_, .f32⟩ : BufTy).Contents (Elt F) → (⟨S100000, .f32⟩ : BufTy).Contents (Elt F)),
    binary main_v100 main_v101 main_v102 (maximumf : (⟨S100000, .f32⟩ : BufTy).Contents (Elt F) → (⟨S100000, .f32⟩ : BufTy).Contents (Elt F) → (⟨S100000, .f32⟩ : BufTy).Contents (Elt F)),
    unary main_v102 main_v103 (broadcastInDim S100000x1 ![0] bcast_S100000_S100000x1_0 : (⟨S100000, .f32⟩ : BufTy).Contents (Elt F) → (⟨S100000x1, .f32⟩ : BufTy).Contents (Elt F)),
    unary main_v103 main_v104 (broadcastInDim S100000x64 ![0, 1] bcast_S100000x1_S100000x64_0_1 : (⟨S100000x1, .f32⟩ : BufTy).Contents (Elt F) → (⟨S100000x64, .f32⟩ : BufTy).Contents (Elt F)),
    binary main_v96 main_v104 main_v105 (Host.divf : (⟨S100000x64, .f32⟩ : BufTy).Contents (Elt F) → (⟨S100000x64, .f32⟩ : BufTy).Contents (Elt F) → (⟨S100000x64, .f32⟩ : BufTy).Contents (Elt F)),
    binary main_v62 main_v105 main_v106 (addf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x3C23D70A#32),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v106) (TRef.of (T := ⟨S100000x64, .f32⟩) main_call5_v0) (TRef.of (T := ⟨S100000x64, .i1⟩) main_call5_v1) (cmpf .oge),
    TRef.unary (TRef.of (T := ⟨S_, .f32⟩) main_cst_19) (TRef.of (T := ⟨S_, .f32⟩) main_call5_v2) id,
    TRef.unary (TRef.of (T := ⟨S_, .f32⟩) main_call5_v2) (TRef.of (T := ⟨S100000x64, .f32⟩) main_call5_v3) (broadcastInDim S100000x64 ![] bcast_S_S100000x64),
    TRef.binary (TRef.of (T := ⟨S100000x64, .f32⟩) main_call5_v3) (TRef.of (T := ⟨S100000x64, .f32⟩) main_v106) (TRef.of (T := ⟨S100000x64, .f32⟩) main_call5_v4) mulf,
    TRef.ternary (TRef.of (T := ⟨S100000x64, .i1⟩) main_call5_v1) (TRef.of (T := ⟨S100000x64, .f32⟩) main_v106) (TRef.of (T := ⟨S100000x64, .f32⟩) main_call5_v4) (TRef.of (T := ⟨S100000x64, .f32⟩) main_v107) select,
    binary main_v107 main_arg12 main_v108 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg13 main_v109 (broadcastInDim S1x1 ![1] bcast_S1_S1x1_1 : (⟨S1, .f32⟩ : BufTy).Contents (Elt F) → (⟨S1x1, .f32⟩ : BufTy).Contents (Elt F)),
    unary main_v109 main_v110 (broadcastInDim S100000x1 ![0, 1] bcast_S1x1_S100000x1_0_1 : (⟨S1x1, .f32⟩ : BufTy).Contents (Elt F) → (⟨S100000x1, .f32⟩ : BufTy).Contents (Elt F)),
    binary main_v108 main_v110 main_v111 (addf : (⟨S100000x1, .f32⟩ : BufTy).Contents (Elt F) → (⟨S100000x1, .f32⟩ : BufTy).Contents (Elt F) → (⟨S100000x1, .f32⟩ : BufTy).Contents (Elt F)) ]

-- one bind per operation: the two sides unfold to the same chain of steps
set_option maxRecDepth 16384 in
set_option maxHeartbeats 4000000 in
/-- @main is that straight line: its three windows in turn, each call its function's body at the call's buffers. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every buffer an operation touches is a TensorCore reference. -/
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., binary_bufs_sub .., binary_bufs_sub .., nullary_bufs_sub .., unary_bufs_sub ..,
    binary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    unary_bufs_sub .., unary_bufs_sub .., binary_bufs_sub .., binary_bufs_sub .., binary_bufs_sub .., nullary_bufs_sub ..,
    unary_bufs_sub .., binary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub ..⟩

set_option maxRecDepth 16384 in
/-- Every operation determines its result: none leaves a buffer with arbitrary contents. -/
theorem ops_fresh : (ops : List (HloOp τ sig (Elt F))).Forall fun op => op.fresh = ∅ := by
  simp only [List.Forall]; repeat' constructor

/-- On every device, from any memory with zero counters: every weakly fair execution of @main terminates
    with each TensorCore buffer at the fold of the operations' results over its launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-- The references the operations write: one each, in order. -/
abbrev ops_W : List (Ref sig .tc) :=
  [main_v0, main_v1, main_v2, main_v3, main_v4, main_v5, main_v6, main_v7, main_v8, main_v9,
   main_call0_cst, main_call0_v0, main_v10, main_v11, main_v12, main_v13, main_v14, main_v15, main_v16, main_v17,
   main_c, main_v18, main_v19, main_c_0, main_v20, main_v21, main_v22, main_v23, main_v24, main_c_1,
   main_v25, main_v26, main_c_2, main_v27, main_v28, main_v29, main_v30, main_v31, main_v32, main_c_3,
   main_v33, main_v34, main_c_4, main_v35, main_v36, main_v37, main_v38, main_v39, main_v40, main_call1_cst,
   main_call1_v0, main_v41, main_cst, main_v42, main_v43, main_v44, main_cst_5, main_v45, main_cst_6, main_v46,
   main_v47, main_v48, main_cst_7, main_v49, main_v50, main_v51, main_v52, main_v53, main_v54, main_cst_8,
   main_call2_cst, main_call2_v0, main_call2_v1, main_call2_v2, main_call2_v3, main_call2_v4, main_v55, main_v56, main_v57, main_v58,
   main_v59, main_v60, main_v61, main_call3_cst, main_call3_v0, main_v62, main_v63, main_v64, main_v65, main_v66,
   main_v67, main_v68, main_v69, main_c_9, main_v70, main_v71, main_c_10, main_v72, main_v73, main_v74,
   main_v75, main_v76, main_c_11, main_v77, main_v78, main_c_12, main_v79, main_v80, main_v81, main_v82,
   main_v83, main_v84, main_c_13, main_v85, main_v86, main_c_14, main_v87, main_v88, main_v89, main_v90,
   main_v91, main_v92, main_call4_cst, main_call4_v0, main_v93, main_cst_15, main_v94, main_v95, main_v96, main_cst_16,
   main_v97, main_cst_17, main_v98, main_v99, main_v100, main_cst_18, main_v101, main_v102, main_v103, main_v104,
   main_v105, main_v106, main_cst_19, main_call5_cst, main_call5_v0, main_call5_v1, main_call5_v2, main_call5_v3, main_call5_v4, main_v107,
   main_v108, main_v109, main_v110, main_v111]

/-- A reference of a list, as a one-element set of device buffers, lies in the list's set. -/
theorem single_sub_W {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 16384 in
/-- Each operation writes its own result buffer only, and that one is in the list. -/
theorem ops_writes : (ops : List (HloOp τ sig (Elt F))).Forall fun op =>
    op.writes ⊆ (ops_W.map (Proc.devRef (τ := τ) .tc)).toFinset :=
  ⟨single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide), single_sub_W (by decide),
    single_sub_W (by decide), single_sub_W (by decide), single_sub_W (by decide), single_sub_W (by decide)⟩

/-! No operation writes an argument: each keeps its launch contents. -/

theorem after_main_arg0 (V : Valuation τ sig (Elt F)) :
    after ops V (Proc.devRef .tc main_arg0) = V (Proc.devRef .tc main_arg0) :=
  after_of_writes_sub ops V ops_writes (by decide)
theorem after_main_arg1 (V : Valuation τ sig (Elt F)) :
    after ops V (Proc.devRef .tc main_arg1) = V (Proc.devRef .tc main_arg1) :=
  after_of_writes_sub ops V ops_writes (by decide)
theorem after_main_arg2 (V : Valuation τ sig (Elt F)) :
    after ops V (Proc.devRef .tc main_arg2) = V (Proc.devRef .tc main_arg2) :=
  after_of_writes_sub ops V ops_writes (by decide)
theorem after_main_arg3 (V : Valuation τ sig (Elt F)) :
    after ops V (Proc.devRef .tc main_arg3) = V (Proc.devRef .tc main_arg3) :=
  after_of_writes_sub ops V ops_writes (by decide)
theorem after_main_arg4 (V : Valuation τ sig (Elt F)) :
    after ops V (Proc.devRef .tc main_arg4) = V (Proc.devRef .tc main_arg4) :=
  after_of_writes_sub ops V ops_writes (by decide)
theorem after_main_arg5 (V : Valuation τ sig (Elt F)) :
    after ops V (Proc.devRef .tc main_arg5) = V (Proc.devRef .tc main_arg5) :=
  after_of_writes_sub ops V ops_writes (by decide)
theorem after_main_arg6 (V : Valuation τ sig (Elt F)) :
    after ops V (Proc.devRef .tc main_arg6) = V (Proc.devRef .tc main_arg6) :=
  after_of_writes_sub ops V ops_writes (by decide)
theorem after_main_arg7 (V : Valuation τ sig (Elt F)) :
    after ops V (Proc.devRef .tc main_arg7) = V (Proc.devRef .tc main_arg7) :=
  after_of_writes_sub ops V ops_writes (by decide)
theorem after_main_arg8 (V : Valuation τ sig (Elt F)) :
    after ops V (Proc.devRef .tc main_arg8) = V (Proc.devRef .tc main_arg8) :=
  after_of_writes_sub ops V ops_writes (by decide)
theorem after_main_arg9 (V : Valuation τ sig (Elt F)) :
    after ops V (Proc.devRef .tc main_arg9) = V (Proc.devRef .tc main_arg9) :=
  after_of_writes_sub ops V ops_writes (by decide)
theorem after_main_arg10 (V : Valuation τ sig (Elt F)) :
    after ops V (Proc.devRef .tc main_arg10) = V (Proc.devRef .tc main_arg10) :=
  after_of_writes_sub ops V ops_writes (by decide)
theorem after_main_arg11 (V : Valuation τ sig (Elt F)) :
    after ops V (Proc.devRef .tc main_arg11) = V (Proc.devRef .tc main_arg11) :=
  after_of_writes_sub ops V ops_writes (by decide)
theorem after_main_arg12 (V : Valuation τ sig (Elt F)) :
    after ops V (Proc.devRef .tc main_arg12) = V (Proc.devRef .tc main_arg12) :=
  after_of_writes_sub ops V ops_writes (by decide)
theorem after_main_arg13 (V : Valuation τ sig (Elt F)) :
    after ops V (Proc.devRef .tc main_arg13) = V (Proc.devRef .tc main_arg13) :=
  after_of_writes_sub ops V ops_writes (by decide)

/-- On every device, from any memory with zero counters: every weakly fair execution of @main terminates,
    and leaves the fourteen arguments as they were. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c main_arg0).trans (after_main_arg0 _), (h c main_arg1).trans (after_main_arg1 _), (h c main_arg2).trans (after_main_arg2 _),
     (h c main_arg3).trans (after_main_arg3 _), (h c main_arg4).trans (after_main_arg4 _), (h c main_arg5).trans (after_main_arg5 _),
     (h c main_arg6).trans (after_main_arg6 _), (h c main_arg7).trans (after_main_arg7 _), (h c main_arg8).trans (after_main_arg8 _),
     (h c main_arg9).trans (after_main_arg9 _), (h c main_arg10).trans (after_main_arg10 _), (h c main_arg11).trans (after_main_arg11 _),
     (h c main_arg12).trans (after_main_arg12 _), (h c main_arg13).trans (after_main_arg13 _)⟩)
    (run_raw m ρ)

end Cert.ReferenceIdeal.Hand

end
-- ==== Proof.Val.Spec.lean ====
/-
  The result of the two-layer FiLM graph convolution as ONE nested term of whole-array operations of the fourteen
  argument arrays — the reference's own order of operations: per layer the self term relu(γₛ·(x·W_skip) + βₛ) with
  (βₛ, γₛ) the two halves of x·W_film_skip; the FiLM parameters (β, γ) the two halves of x·W_film + b; h = x·W_lin; the
  message relu(γ[dst]·h[src] + β[dst]) per edge; its sum over the edges into each target node divided by
  max(in-degree, 1); a leaky rectifier; and at the end the head h·W_out + b_out.  Both programs are proved to end with
  this term; nothing here is evaluated.
-/
import proofs.«143908_j58153857188396_1_alg».proof.Proof.Gen.ReferenceIdeal

noncomputable section

namespace Cert.Spec

open Idealize.ShloMosaic Cert.ReferenceIdeal Cert.ReferenceIdeal.Facts₀

variable {F : FTy → Type} [FloatOps F]

/-- A float array of shape `S`. -/
abbrev Fl (F : FTy → Type) [FloatOps F] (S : Shape) : Type := (⟨S, .f32⟩ : BufTy).Contents (Elt F)
/-- A 32-bit integer array of shape `S`. -/
abbrev In (F : FTy → Type) [FloatOps F] (S : Shape) : Type := (⟨S, .i32⟩ : BufTy).Contents (Elt F)

/-- The all-zero node array. -/
def zeros64 : Fl F S100000x64 := broadcastInDim S100000x64 ![] bcast_S_S100000x64 (constant S_ .f32 0x00000000#32)
/-- max(v, 0) on a node array. -/
def relu (v : Fl F S100000x64) : Fl F S100000x64 :=
  maximumf v (broadcastInDim S100000x64 ![] bcast_S_S100000x64 (constant S_ .f32 0x00000000#32))
/-- max(v, 0) on an edge array. -/
def reluE (v : Fl F S1600000x64) : Fl F S1600000x64 :=
  maximumf v (broadcastInDim S1600000x64 ![] bcast_S_S1600000x64 (constant S_ .f32 0x00000000#32))
/-- x·W for a 64-column weight. -/
def dot64 (x : Fl F S100000x64) (W : Fl F S64x64) : Fl F S100000x64 :=
  Host.dotGeneral dot_S100000x64_S64x64_S100000x64_1_0_0_1_n_n none x W
/-- x·W for a 128-column weight. -/
def dot128 (x : Fl F S100000x64) (W : Fl F S64x128) : Fl F S100000x128 :=
  Host.dotGeneral dot_S100000x64_S64x128_S100000x128_1_0_0_1_n_n none x W
/-- Columns 0..63 of a 128-column array. -/
def lo (y : Fl F S100000x128) : Fl F S100000x64 := extractStridedSlice S100000x64 ![0, 0] y slices_S100000x128_S100000x64_0_0
/-- Columns 64..127 of a 128-column array. -/
def hi (y : Fl F S100000x128) : Fl F S100000x64 := extractStridedSlice S100000x64 ![0, 64] y slices_S100000x128_S100000x64_0_64
/-- The self term relu(γₛ·(x·W_skip) + βₛ), (βₛ, γₛ) the halves of x·W_film_skip. -/
def skip (x : Fl F S100000x64) (Wsk : Fl F S64x64) (Wfs : Fl F S64x128) : Fl F S100000x64 :=
  relu (addf (mulf (hi (dot128 x Wfs)) (dot64 x Wsk)) (lo (dot128 x Wfs)))
/-- x·W_film + b, the bias a row repeated down the nodes. -/
def film (x : Fl F S100000x64) (Wf : Fl F S64x128) (b : Fl F S128) : Fl F S100000x128 :=
  addf (dot128 x Wf) (broadcastInDim S100000x128 ![0, 1] bcast_S1x128_S100000x128_0_1 (broadcastInDim S1x128 ![1] bcast_S128_S1x128_1 b))
/-- β: the first half of the FiLM parameters. -/
def beta (x : Fl F S100000x64) (Wf : Fl F S64x128) (b : Fl F S128) : Fl F S100000x64 := lo (film x Wf b)
/-- γ: the second half of the FiLM parameters. -/
def gamma (x : Fl F S100000x64) (Wf : Fl F S64x128) (b : Fl F S128) : Fl F S100000x64 := hi (film x Wf b)
/-- A negative index counts from the end: i < 0 ↦ i + 100000. -/
def wrap (i : In F S1600000) : In F S1600000 :=
  select (cmpi .slt i (broadcastInDim S1600000 ![] bcast_S_S1600000 (constantI S_ 32 0#32)))
    (addi i (broadcastInDim S1600000 ![] bcast_S_S1600000 (constantI S_ 32 100000#32))) i
/-- An index vector as a one-column index array. -/
def col (i : In F S1600000) : In F S1600000x1 := broadcastInDim S1600000x1 ![0] bcast_S1600000_S1600000x1_0 i
/-- The rows of a node array at the (wrapped) indices, one per edge. -/
def gat (v : Fl F S100000x64) (i : In F S1600000) : Fl F S1600000x64 :=
  Host.gather gather_S100000x64_S1600000x1_S1600000x64_1_0_n_n_0_1_164 v (col (wrap i))
/-- The message relu(g·h + b) per edge. -/
def msg (g h b : Fl F S1600000x64) : Fl F S1600000x64 := reluE (addf (mulf g h) b)
/-- The messages summed into their target nodes. -/
def agg (dst : In F S1600000) (u : Fl F S1600000x64) : Fl F S100000x64 :=
  Host.scatterAdd scatter_S100000x64_S1600000x1_S1600000x64_1_0_0_1 zeros64 (col dst) u
/-- The in-degree of every node. -/
def deg (dst : In F S1600000) : Fl F S100000 :=
  Host.scatterAdd scatter_S100000_S1600000x1_S1600000_n_0_0_1
    (broadcastInDim S100000 ![] bcast_S_S100000 (constant S_ .f32 0x00000000#32)) (col dst)
    (broadcastInDim S1600000 ![] bcast_S_S1600000 (constant S_ .f32 0x3F800000#32))
/-- The mean aggregation: the summed messages over max(in-degree, 1). -/
def mean (dst : In F S1600000) (u : Fl F S1600000x64) : Fl F S100000x64 :=
  Host.divf (agg dst u)
    (broadcastInDim S100000x64 ![0, 1] bcast_S100000x1_S100000x64_0_1
      (broadcastInDim S100000x1 ![0] bcast_S100000_S100000x1_0
        (maximumf (deg dst) (broadcastInDim S100000 ![] bcast_S_S100000 (constant S_ .f32 0x3F800000#32)))))
/-- The leaky rectifier with the slope's f32 word kept as a word: v where v ≥ 0, slope·v elsewhere. -/
def leaky (v : Fl F S100000x64) : Fl F S100000x64 :=
  select (cmpf .oge v (broadcastInDim S100000x64 ![] bcast_S_S100000x64 (constant S_ .f32 0x00000000#32))) v
    (mulf (broadcastInDim S100000x64 ![] bcast_S_S100000x64 (id (constant S_ .f32 0x3C23D70A#32))) v)
/-- One FiLM layer before the rectifier: self term + mean of the messages. -/
def conv (x : Fl F S100000x64) (src dst : In F S1600000) (Wl : Fl F S64x64) (Wf : Fl F S64x128) (b : Fl F S128)
    (Wsk : Fl F S64x64) (Wfs : Fl F S64x128) : Fl F S100000x64 :=
  addf (skip x Wsk Wfs) (mean dst (msg (gat (gamma x Wf b) dst) (gat (dot64 x Wl) src) (gat (beta x Wf b) dst)))
/-- One FiLM layer. -/
def layer (x : Fl F S100000x64) (src dst : In F S1600000) (Wl : Fl F S64x64) (Wf : Fl F S64x128) (b : Fl F S128)
    (Wsk : Fl F S64x64) (Wfs : Fl F S64x128) : Fl F S100000x64 :=
  leaky (conv x src dst Wl Wf b Wsk Wfs)
/-- The output head h·W_out + b_out. -/
def head (h : Fl F S100000x64) (Wo : Fl F S64x1) (bo : Fl F S1) : Fl F S100000x1 :=
  addf (Host.dotGeneral dot_S100000x64_S64x1_S100000x1_1_0_0_1_n_n none h Wo)
    (broadcastInDim S100000x1 ![0, 1] bcast_S1x1_S100000x1_0_1 (broadcastInDim S1x1 ![1] bcast_S1_S1x1_1 bo))
/-- Row 0 of the edge list: the source node of every edge. -/
def srcOf (e : In F S2x1600000) : In F S1600000 :=
  fun i => shapeCast S1600000 (extractStridedSlice S1x1600000 ![0, 0] e slices_S2x1600000_S1x1600000_0_0) shapeCasts_S1x1600000_S1600000 i
/-- Row 1 of the edge list: the target node of every edge. -/
def dstOf (e : In F S2x1600000) : In F S1600000 :=
  fun i => shapeCast S1600000 (extractStridedSlice S1x1600000 ![1, 0] e slices_S2x1600000_S1x1600000_1_0) shapeCasts_S1x1600000_S1600000 i

/-- The whole network. -/
def result (x : Fl F S100000x64) (e : In F S2x1600000)
    (Wl1 : Fl F S64x64) (Wf1 : Fl F S64x128) (b1 : Fl F S128) (Wsk1 : Fl F S64x64) (Wfs1 : Fl F S64x128)
    (Wl2 : Fl F S64x64) (Wf2 : Fl F S64x128) (b2 : Fl F S128) (Wsk2 : Fl F S64x64) (Wfs2 : Fl F S64x128)
    (Wo : Fl F S64x1) (bo : Fl F S1) : Fl F S100000x1 :=
  head (layer (layer x (srcOf e) (dstOf e) Wl1 Wf1 b1 Wsk1 Wfs1) (srcOf e) (dstOf e) Wl2 Wf2 b2 Wsk2 Wfs2) Wo bo

end Cert.Spec

end
-- ==== Proof.Ref.Result.lean ====
/- The reference's result buffer, read off the fold of its operations, is the network's nested term of
   whole-array operations (Val/Spec.lean) of the fourteen argument arrays: each operation's result is its
   function of its operands' contents, a buffer another operation writes is left alone by it, and what
   remains are the two spellings of one term. -/
import proofs.«143908_j58153857188396_1_alg».proof.Proof.Ref.Run
import proofs.«143908_j58153857188396_1_alg».proof.Proof.Val.Spec

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the fold nests once per operation, and one reference inequality is decided per (operation, later read) pair
set_option maxRecDepth 16384 in
set_option maxHeartbeats 200000000 in
/-- After the 154 operations, from any contents `V`, the last buffer holds the network's term of `V`'s
    fourteen arguments: the two FiLM layers and the head, in the reference's own order of operations. The
    transports a called function's operations carry between a buffer's type and its value's are the identity. -/
theorem result_eq (V : Valuation τ sig (Elt F)) :
    after ops V (Proc.devRef .tc main_v111)
      = Cert.Spec.result (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) := by
  after_results_simp
  rfl

end Cert.ReferenceIdeal.Hand

end
-- ==== Proof.Val.Host.lean ====
/-
  The host stretches of the two-layer FiLM graph convolution read as whole-array terms: what each stretch of host
  operations leaves in the buffers later steps use, from an arbitrary valuation of the buffers when the stretch starts.
  Generic in the float reading.  The edge list's two rows; the weights side by side (x·[W_lin | W_film | W_skip |
  W_film_skip] is one product) and the bias as a row; the three gathers per layer (h at the sources, β and γ at the
  targets, a negative index counted from the end); the mean of the messages added to the self term; the leaky rectifier;
  the head's bias as a 1×1 array.
-/
import proofs.«143908_j58153857188396_1_alg».proof.Proof.Gen.KernelIdeal.Launch
import proofs.«143908_j58153857188396_1_alg».proof.Proof.Val.Spec

noncomputable section

namespace Cert.KernelIdeal.Val

open Idealize.ShloMosaic Cert.KernelIdeal Cert.KernelIdeal.Gen

variable {F : FTy → Type} [FloatOps F]

/-! ## Before the first dense region: the edge rows, the stacked weights, the bias row -/

/-- The source node of every edge: row 0 of the edge list. -/
theorem host0_src (W : Valuation τ sig (Elt F)) :
    StableHlo.after hostOps0 W (Proc.devRef .tc main_v1) = Cert.Spec.srcOf (W (Proc.devRef .tc main_arg1)) := by
  after_results; rfl

/-- The target node of every edge: row 1 of the edge list. -/
theorem host0_dst (W : Valuation τ sig (Elt F)) :
    StableHlo.after hostOps0 W (Proc.devRef .tc main_v3) = Cert.Spec.dstOf (W (Proc.devRef .tc main_arg1)) := by
  after_results; rfl

/-- The first layer's four weights side by side. -/
theorem host0_wall (W : Valuation τ sig (Elt F)) :
    StableHlo.after hostOps0 W (Proc.devRef .tc main_v4)
      = concatenate S64x384 1 [⟨S64x64, W (Proc.devRef .tc main_arg2)⟩, ⟨S64x128, W (Proc.devRef .tc main_arg3)⟩,
          ⟨S64x64, W (Proc.devRef .tc main_arg5)⟩, ⟨S64x128, W (Proc.devRef .tc main_arg6)⟩]
          concatenates_S64x64_S64x128_S64x64_S64x128_S64x384_d1 := by
  after_results; rfl

/-- The first layer's FiLM bias as a row. -/
theorem host0_bias (W : Valuation τ sig (Elt F)) :
    StableHlo.after hostOps0 W (Proc.devRef .tc main_v5)
      = fun i => shapeCast S1x128 (W (Proc.devRef .tc main_arg4)) shapeCasts_S128_S1x128 i := by
  after_results; rfl

/-! ## Between the first dense region and the first message region: the three gathers -/

/-- h = x·W_lin at the source of every edge. -/
theorem host1_h (W : Valuation τ sig (Elt F)) :
    StableHlo.after hostOps1 W (Proc.devRef .tc main_v13)
      = Cert.Spec.gat (W (Proc.devRef .tc main_v6_0)) (W (Proc.devRef .tc main_v1)) := by
  after_results; rfl

/-- β at the target of every edge. -/
theorem host1_beta (W : Valuation τ sig (Elt F)) :
    StableHlo.after hostOps1 W (Proc.devRef .tc main_v20)
      = Cert.Spec.gat (W (Proc.devRef .tc main_v6_1)) (W (Proc.devRef .tc main_v3)) := by
  after_results_simp; rfl

/-- γ at the target of every edge. -/
theorem host1_gamma (W : Valuation τ sig (Elt F)) :
    StableHlo.after hostOps1 W (Proc.devRef .tc main_v27)
      = Cert.Spec.gat (W (Proc.devRef .tc main_v6_2)) (W (Proc.devRef .tc main_v3)) := by
  after_results_simp; rfl

/-! ## After the first message region: the mean of the messages added to the self term, the rectifier, the second
layer's stacked weights -/

/-- The first layer before its rectifier: self term + mean of the messages over the in-edges. -/
theorem host2_conv (W : Valuation τ sig (Elt F)) :
    StableHlo.after hostOps2 W (Proc.devRef .tc main_v41)
      = addf (W (Proc.devRef .tc main_v6_3))
          (Cert.Spec.mean (W (Proc.devRef .tc main_v3)) (W (Proc.devRef .tc main_v28))) := by
  after_results_simp; rfl

/-- The rectifier's slope, the f32 word 0x3C23D70A. -/
theorem host2_slope (W : Valuation τ sig (Elt F)) :
    StableHlo.after hostOps2 W (Proc.devRef .tc main_cst_8) = constant S_ .f32 0x3C23D70A#32 := by
  after_results

/-- The first layer's leaky rectifier. -/
theorem host21_leaky (W : Valuation τ sig (Elt F))
    (hs : W (Proc.devRef .tc main_cst_8) = constant S_ .f32 0x3C23D70A#32) :
    StableHlo.after hostOps2_1 W (Proc.devRef .tc main_v42) = Cert.Spec.leaky (W (Proc.devRef .tc main_v41)) := by
  after_results; rw [hs]; rfl

/-- The second layer's four weights side by side. -/
theorem host22_wall (W : Valuation τ sig (Elt F)) :
    StableHlo.after hostOps2_2 W (Proc.devRef .tc main_v43)
      = concatenate S64x384 1 [⟨S64x64, W (Proc.devRef .tc main_arg7)⟩, ⟨S64x128, W (Proc.devRef .tc main_arg8)⟩,
          ⟨S64x64, W (Proc.devRef .tc main_arg10)⟩, ⟨S64x128, W (Proc.devRef .tc main_arg11)⟩]
          concatenates_S64x64_S64x128_S64x64_S64x128_S64x384_d1 := by
  after_results; rfl

/-- The second layer's FiLM bias as a row. -/
theorem host22_bias (W : Valuation τ sig (Elt F)) :
    StableHlo.after hostOps2_2 W (Proc.devRef .tc main_v44)
      = fun i => shapeCast S1x128 (W (Proc.devRef .tc main_arg9)) shapeCasts_S128_S1x128 i := by
  after_results; rfl

/-! ## The second layer's gathers -/

/-- The second layer's h at the source of every edge. -/
theorem host3_h (W : Valuation τ sig (Elt F)) :
    StableHlo.after hostOps3 W (Proc.devRef .tc main_v52)
      = Cert.Spec.gat (W (Proc.devRef .tc main_v45_0)) (W (Proc.devRef .tc main_v1)) := by
  after_results; rfl

/-- The second layer's β at the target of every edge. -/
theorem host3_beta (W : Valuation τ sig (Elt F)) :
    StableHlo.after hostOps3 W (Proc.devRef .tc main_v59)
      = Cert.Spec.gat (W (Proc.devRef .tc main_v45_1)) (W (Proc.devRef .tc main_v3)) := by
  after_results_simp; rfl

/-- The second layer's γ at the target of every edge. -/
theorem host3_gamma (W : Valuation τ sig (Elt F)) :
    StableHlo.after hostOps3 W (Proc.devRef .tc main_v66)
      = Cert.Spec.gat (W (Proc.devRef .tc main_v45_2)) (W (Proc.devRef .tc main_v3)) := by
  after_results_simp; rfl

/-! ## After the second message region: mean, rectifier, the head's bias -/

/-- The second layer before its rectifier. -/
theorem host4_conv (W : Valuation τ sig (Elt F)) :
    StableHlo.after hostOps4 W (Proc.devRef .tc main_v80)
      = addf (W (Proc.devRef .tc main_v45_3))
          (Cert.Spec.mean (W (Proc.devRef .tc main_v3)) (W (Proc.devRef .tc main_v67))) := by
  after_results_simp; rfl

/-- The second rectifier's slope, the same f32 word. -/
theorem host4_slope (W : Valuation τ sig (Elt F)) :
    StableHlo.after hostOps4 W (Proc.devRef .tc main_cst_19) = constant S_ .f32 0x3C23D70A#32 := by
  after_results

/-- The second layer's leaky rectifier. -/
theorem host41_leaky (W : Valuation τ sig (Elt F))
    (hs : W (Proc.devRef .tc main_cst_19) = constant S_ .f32 0x3C23D70A#32) :
    StableHlo.after hostOps4_1 W (Proc.devRef .tc main_v81) = Cert.Spec.leaky (W (Proc.devRef .tc main_v80)) := by
  after_results; rw [hs]; rfl

/-- The head's bias as a 1×1 array. -/
theorem host42_bias (W : Valuation τ sig (Elt F)) :
    StableHlo.after hostOps4_2 W (Proc.devRef .tc main_v82)
      = fun i => shapeCast S1x1 (W (Proc.devRef .tc main_arg13)) shapeCasts_S1_S1x1 i := by
  after_results; rfl

end Cert.KernelIdeal.Val

end
-- ==== Proof.Val.DensePay.lean ====
/-
  The dense FiLM projection's stored values read index by index.  One block of 2000 node rows x0 is multiplied into
  the 384 stacked weight columns W; the product's columns 0..63 are the message projection, columns 64..191 plus the
  bias row are the FiLM parameters (two halves of 64), and columns 192..255, 256..319, 320..383 are the skip
  projection and its own FiLM parameters: the self term is max(γₛ·hₛ + βₛ, 0).  Every entry is a sum over the 64 input
  features, with nothing added to it (the accumulator is the zero splat).
-/
import proofs.«143908_j58153857188396_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val.Dense

open Idealize.ShloMosaic Idealize.ShloMosaic.ValueIdx
open Cert.KernelIdeal Cert.KernelIdeal.Gen
open scoped BigOperators

/-- Entry (p, q) of the block's product with the stacked weights: the sum over the 64 features of
    x0[p, k] · W[k, q]. -/
theorem pay1_apply (x0 : Vec Ideal S2000x64 .f32) (W : Vec Ideal S64x384 .f32) (p : Fin 2000) (q : Fin 384) :
    k0_pay1 x0 W (ix2 p q) = ∑ k : Fin 64, x0 (ix2 p k) * W (ix2 k q) := by
  unfold k0_pay1
  simp only [matmul]
  rw [Ideal.matmul_constant_zero_apply]
  rw [← Equiv.sum_comp (contrEquiv1 dot_S2000x64_S64x384_S2000x384_1_0_0_1_n_n 64 rfl rfl).symm]
  refine Finset.sum_congr rfl fun k _ => ?_
  have hl : dot_S2000x64_S64x384_S2000x384_1_0_0_1_n_n.lhsIdx (ix2 p q) ((contrEquiv1 dot_S2000x64_S64x384_S2000x384_1_0_0_1_n_n 64 rfl rfl).symm k) = ix2 p k := by
    funext a; apply Fin.ext
    match a with
    | ⟨0, _⟩ => rfl
    | ⟨1, _⟩ =>
      exact (DotDims.lhsIdx_val_of_single _ (cl := (1 : Fin 2)) rfl _ _).trans
        (contrEquiv1_symm_val dot_S2000x64_S64x384_S2000x384_1_0_0_1_n_n 64 rfl rfl k)
  have hr : dot_S2000x64_S64x384_S2000x384_1_0_0_1_n_n.rhsIdx (ix2 p q) ((contrEquiv1 dot_S2000x64_S64x384_S2000x384_1_0_0_1_n_n 64 rfl rfl).symm k) = ix2 k q := by
    funext a; apply Fin.ext
    match a with
    | ⟨0, _⟩ =>
      exact (DotDims.rhsIdx_val_of_single _ (cr := (0 : Fin 2)) rfl _ _).trans
        (contrEquiv1_symm_val dot_S2000x64_S64x384_S2000x384_1_0_0_1_n_n 64 rfl rfl k)
    | ⟨1, _⟩ => rfl
  rw [hl, hr, truncf_apply, truncf_apply, shapeCast_self]

/-- The message projection's entry (p, q): column q of the product. -/
theorem pay2_apply (x0 : Vec Ideal S2000x64 .f32) (W : Vec Ideal S64x384 .f32) (p : Fin 2000) (q : Fin 64) :
    k0_pay2 x0 W (ix2 p q) = ∑ k : Fin 64, x0 (ix2 p k) * W (ix2 k (⟨q.val, by omega⟩ : Fin 384)) := by
  unfold k0_pay2
  rw [extractStridedSlice_apply ![0, 0] _ _ (ix2 p q) (ix2 p (⟨q.val, by omega⟩ : Fin 384)) (fun a => by
    match a with
    | ⟨0, _⟩ => show p.val = 0 + p.val; omega
    | ⟨1, _⟩ => show q.val = 0 + q.val; omega)]
  exact pay1_apply x0 W p _

/-- The FiLM block's entry (p, q), q < 128: column 64 + q of the product plus the bias row's entry q. -/
theorem pay3_apply (x0 : Vec Ideal S2000x64 .f32) (W : Vec Ideal S64x384 .f32) (b0 : Vec Ideal S1x128 .f32)
    (p : Fin 2000) (q : Fin 128) :
    k0_pay3 x0 W b0 (ix2 p q)
      = (∑ k : Fin 64, x0 (ix2 p k) * W (ix2 k (⟨64 + q.val, by omega⟩ : Fin 384))) + b0 (ix2 (0 : Fin 1) q) := by
  unfold k0_pay3
  rw [addf_apply]
  rw [extractStridedSlice_apply ![0, 64] _ _ (ix2 p q) (ix2 p (⟨64 + q.val, by omega⟩ : Fin 384)) (fun a => by
    match a with
    | ⟨0, _⟩ => show p.val = 0 + p.val; omega
    | ⟨1, _⟩ => show 64 + q.val = 64 + q.val; rfl)]
  rw [broadcastTo_apply _ _ (ix2 p q) (ix2 (0 : Fin 1) q) (fun a => by
    match a with
    | ⟨0, _⟩ => rfl
    | ⟨1, _⟩ => rfl)]
  rw [shapeCast_self, pay1_apply]

/-- β's entry (p, q): the FiLM block's column q. -/
theorem pay4_apply (x0 : Vec Ideal S2000x64 .f32) (W : Vec Ideal S64x384 .f32) (b0 : Vec Ideal S1x128 .f32)
    (p : Fin 2000) (q : Fin 64) :
    k0_pay4 x0 W b0 (ix2 p q)
      = (∑ k : Fin 64, x0 (ix2 p k) * W (ix2 k (⟨64 + q.val, by omega⟩ : Fin 384)))
        + b0 (ix2 (0 : Fin 1) (⟨q.val, by omega⟩ : Fin 128)) := by
  unfold k0_pay4
  rw [extractStridedSlice_apply ![0, 0] _ _ (ix2 p q) (ix2 p (⟨q.val, by omega⟩ : Fin 128)) (fun a => by
    match a with
    | ⟨0, _⟩ => show p.val = 0 + p.val; omega
    | ⟨1, _⟩ => show q.val = 0 + q.val; omega)]
  exact pay3_apply x0 W b0 p _

/-- γ's entry (p, q): the FiLM block's column 64 + q. -/
theorem pay5_apply (x0 : Vec Ideal S2000x64 .f32) (W : Vec Ideal S64x384 .f32) (b0 : Vec Ideal S1x128 .f32)
    (p : Fin 2000) (q : Fin 64) :
    k0_pay5 x0 W b0 (ix2 p q)
      = (∑ k : Fin 64, x0 (ix2 p k) * W (ix2 k (⟨128 + q.val, by omega⟩ : Fin 384)))
        + b0 (ix2 (0 : Fin 1) (⟨64 + q.val, by omega⟩ : Fin 128)) := by
  unfold k0_pay5
  rw [extractStridedSlice_apply ![0, 64] _ _ (ix2 p q) (ix2 p (⟨64 + q.val, by omega⟩ : Fin 128)) (fun a => by
    match a with
    | ⟨0, _⟩ => show p.val = 0 + p.val; omega
    | ⟨1, _⟩ => show 64 + q.val = 64 + q.val; rfl)]
  rw [pay3_apply]
  congr 1
  refine Finset.sum_congr rfl fun k _ => ?_
  have e : (⟨64 + (64 + q.val), by omega⟩ : Fin 384) = ⟨128 + q.val, by omega⟩ :=
    Fin.ext (by show 64 + (64 + q.val) = 128 + q.val; omega)
  exact congrArg (fun z => x0 (ix2 p k) * W (ix2 k z)) e

/-- The self term's entry (p, q): max(γₛ·hₛ + βₛ, 0) with hₛ, βₛ, γₛ the product's columns 192 + q, 256 + q, 320 + q. -/
theorem pay6_apply (x0 : Vec Ideal S2000x64 .f32) (W : Vec Ideal S64x384 .f32) (p : Fin 2000) (q : Fin 64) :
    k0_pay6 x0 W (ix2 p q)
      = max ((∑ k : Fin 64, x0 (ix2 p k) * W (ix2 k (⟨320 + q.val, by omega⟩ : Fin 384)))
              * (∑ k : Fin 64, x0 (ix2 p k) * W (ix2 k (⟨192 + q.val, by omega⟩ : Fin 384)))
            + (∑ k : Fin 64, x0 (ix2 p k) * W (ix2 k (⟨256 + q.val, by omega⟩ : Fin 384))))
          (Ideal.ofBits .f32 0x00000000#32) := by
  unfold k0_pay6
  rw [maximumf_apply, addf_apply, mulf_apply, broadcast_apply]
  rw [extractStridedSlice_apply ![0, 64] _ _ (ix2 p q) (ix2 p (⟨64 + q.val, by omega⟩ : Fin 128)) (fun a => by
    match a with
    | ⟨0, _⟩ => show p.val = 0 + p.val; omega
    | ⟨1, _⟩ => show 64 + q.val = 64 + q.val; rfl)]
  rw [extractStridedSlice_apply ![0, 0] _ _ (ix2 p q) (ix2 p (⟨q.val, by omega⟩ : Fin 128)) (fun a => by
    match a with
    | ⟨0, _⟩ => show p.val = 0 + p.val; omega
    | ⟨1, _⟩ => show q.val = 0 + q.val; omega)]
  rw [extractStridedSlice_apply ![0, 192] _ _ (ix2 p q) (ix2 p (⟨192 + q.val, by omega⟩ : Fin 384)) (fun a => by
    match a with
    | ⟨0, _⟩ => show p.val = 0 + p.val; omega
    | ⟨1, _⟩ => show 192 + q.val = 192 + q.val; rfl)]
  rw [extractStridedSlice_apply ![0, 256] _ _ (ix2 p (⟨64 + q.val, by omega⟩ : Fin 128)) (ix2 p (⟨320 + q.val, by omega⟩ : Fin 384)) (fun a => by
    match a with
    | ⟨0, _⟩ => show p.val = 0 + p.val; omega
    | ⟨1, _⟩ => show 320 + q.val = 256 + (64 + q.val); omega)]
  rw [extractStridedSlice_apply ![0, 256] _ _ (ix2 p (⟨q.val, by omega⟩ : Fin 128)) (ix2 p (⟨256 + q.val, by omega⟩ : Fin 384)) (fun a => by
    match a with
    | ⟨0, _⟩ => show p.val = 0 + p.val; omega
    | ⟨1, _⟩ => show 256 + q.val = 256 + q.val; rfl)]
  rw [pay1_apply, pay1_apply, pay1_apply]
  rfl

end Cert.KernelIdeal.Val.Dense

end
-- ==== Proof.Val.DenseSpec.lean ====
/-
  The specification's dense terms read index by index: x·W at (r, q) is the sum over the 64 features of
  x[r, k] · W[k, q]; the halves of a 128-column array are its columns q and 64 + q; the FiLM parameters add the bias
  entry q to every row; the self term is max(γₛ·hₛ + βₛ, 0).  And the two layouts the weights and the bias reach the
  dense region in: the four weight matrices laid side by side along the columns (64, 128, 64, 128 columns), and
  the bias vector as one row.
-/
import proofs.«143908_j58153857188396_1_alg».proof.Proof.Gen.KernelIdeal.Skeleton
import proofs.«143908_j58153857188396_1_alg».proof.Proof.Val.Spec
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.Val.Dense

open Idealize.ShloMosaic Idealize.ShloMosaic.ValueIdx
open scoped BigOperators

/-! ## The specification's terms at an index -/

section SpecSide
open Cert.ReferenceIdeal Cert.ReferenceIdeal.Gen

/-- (x·W)[r, q] for a 64-column weight. -/
theorem dot64_apply (x : Cert.Spec.Fl Ideal S100000x64) (W : Cert.Spec.Fl Ideal S64x64) (r : Fin 100000) (q : Fin 64) :
    Cert.Spec.dot64 x W (ix2 r q) = ∑ k : Fin 64, x (ix2 r k) * W (ix2 k q) := by
  unfold Cert.Spec.dot64
  simp only [Host.dotGeneral]
  rw [Ideal.dotGeneral_apply]
  rw [← Equiv.sum_comp (contrEquiv1 dot_S100000x64_S64x64_S100000x64_1_0_0_1_n_n 64 rfl rfl).symm]
  refine Finset.sum_congr rfl fun k _ => ?_
  have hl : dot_S100000x64_S64x64_S100000x64_1_0_0_1_n_n.lhsIdx (ix2 r q) ((contrEquiv1 dot_S100000x64_S64x64_S100000x64_1_0_0_1_n_n 64 rfl rfl).symm k) = ix2 r k := by
    funext a; apply Fin.ext
    match a with
    | ⟨0, _⟩ => rfl
    | ⟨1, _⟩ =>
      exact (DotDims.lhsIdx_val_of_single _ (cl := (1 : Fin 2)) rfl _ _).trans
        (contrEquiv1_symm_val dot_S100000x64_S64x64_S100000x64_1_0_0_1_n_n 64 rfl rfl k)
  have hr : dot_S100000x64_S64x64_S100000x64_1_0_0_1_n_n.rhsIdx (ix2 r q) ((contrEquiv1 dot_S100000x64_S64x64_S100000x64_1_0_0_1_n_n 64 rfl rfl).symm k) = ix2 k q := by
    funext a; apply Fin.ext
    match a with
    | ⟨0, _⟩ =>
      exact (DotDims.rhsIdx_val_of_single _ (cr := (0 : Fin 2)) rfl _ _).trans
        (contrEquiv1_symm_val dot_S100000x64_S64x64_S100000x64_1_0_0_1_n_n 64 rfl rfl k)
    | ⟨1, _⟩ => rfl
  rw [hl, hr]

/-- (x·W)[r, q] for a 128-column weight. -/
theorem dot128_apply (x : Cert.Spec.Fl Ideal S100000x64) (W : Cert.Spec.Fl Ideal S64x128) (r : Fin 100000) (q : Fin 128) :
    Cert.Spec.dot128 x W (ix2 r q) = ∑ k : Fin 64, x (ix2 r k) * W (ix2 k q) := by
  unfold Cert.Spec.dot128
  simp only [Host.dotGeneral]
  rw [Ideal.dotGeneral_apply]
  rw [← Equiv.sum_comp (contrEquiv1 dot_S100000x64_S64x128_S100000x128_1_0_0_1_n_n 64 rfl rfl).symm]
  refine Finset.sum_congr rfl fun k _ => ?_
  have hl : dot_S100000x64_S64x128_S100000x128_1_0_0_1_n_n.lhsIdx (ix2 r q) ((contrEquiv1 dot_S100000x64_S64x128_S100000x128_1_0_0_1_n_n 64 rfl rfl).symm k) = ix2 r k := by
    funext a; apply Fin.ext
    match a with
    | ⟨0, _⟩ => rfl
    | ⟨1, _⟩ =>
      exact (DotDims.lhsIdx_val_of_single _ (cl := (1 : Fin 2)) rfl _ _).trans
        (contrEquiv1_symm_val dot_S100000x64_S64x128_S100000x128_1_0_0_1_n_n 64 rfl rfl k)
  have hr : dot_S100000x64_S64x128_S100000x128_1_0_0_1_n_n.rhsIdx (ix2 r q) ((contrEquiv1 dot_S100000x64_S64x128_S100000x128_1_0_0_1_n_n 64 rfl rfl).symm k) = ix2 k q := by
    funext a; apply Fin.ext
    match a with
    | ⟨0, _⟩ =>
      exact (DotDims.rhsIdx_val_of_single _ (cr := (0 : Fin 2)) rfl _ _).trans
        (contrEquiv1_symm_val dot_S100000x64_S64x128_S100000x128_1_0_0_1_n_n 64 rfl rfl k)
    | ⟨1, _⟩ => rfl
  rw [hl, hr]

/-- The first half's entry (r, q) is column q. -/
theorem lo_apply (y : Cert.Spec.Fl Ideal S100000x128) (r : Fin 100000) (q : Fin 64) :
    Cert.Spec.lo y (ix2 r q) = y (ix2 r (⟨q.val, by omega⟩ : Fin 128)) := by
  unfold Cert.Spec.lo
  exact extractStridedSlice_apply ![0, 0] _ _ (ix2 r q) (ix2 r (⟨q.val, by omega⟩ : Fin 128)) (fun a => by
    match a with
    | ⟨0, _⟩ => show r.val = 0 + r.val; omega
    | ⟨1, _⟩ => show q.val = 0 + q.val; omega)

/-- The second half's entry (r, q) is column 64 + q. -/
theorem hi_apply (y : Cert.Spec.Fl Ideal S100000x128) (r : Fin 100000) (q : Fin 64) :
    Cert.Spec.hi y (ix2 r q) = y (ix2 r (⟨64 + q.val, by omega⟩ : Fin 128)) := by
  unfold Cert.Spec.hi
  exact extractStridedSlice_apply ![0, 64] _ _ (ix2 r q) (ix2 r (⟨64 + q.val, by omega⟩ : Fin 128)) (fun a => by
    match a with
    | ⟨0, _⟩ => show r.val = 0 + r.val; omega
    | ⟨1, _⟩ => show 64 + q.val = 64 + q.val; rfl)

/-- The bias vector as a row, entry q. -/
theorem biasRow_apply (b : Cert.Spec.Fl Ideal S128) (q : Fin 128) :
    broadcastInDim S1x128 ![1] bcast_S128_S1x128_1 b (ix2 (0 : Fin 1) q) = b (ix1 q) :=
  broadcastInDim_apply ![1] _ b (ix2 (0 : Fin 1) q) (ix1 q) (fun a => by
    match a with
    | ⟨0, _⟩ => rfl)

/-- The FiLM parameters' entry (r, q): (x·W_film)[r, q] plus the bias entry q. -/
theorem film_apply (x : Cert.Spec.Fl Ideal S100000x64) (Wf : Cert.Spec.Fl Ideal S64x128) (b : Cert.Spec.Fl Ideal S128)
    (r : Fin 100000) (q : Fin 128) :
    Cert.Spec.film x Wf b (ix2 r q) = (∑ k : Fin 64, x (ix2 r k) * Wf (ix2 k q)) + b (ix1 q) := by
  unfold Cert.Spec.film
  rw [addf_apply, dot128_apply, broadcastInDim_oneRow_apply, biasRow_apply]

/-- β's entry (r, q). -/
theorem beta_apply (x : Cert.Spec.Fl Ideal S100000x64) (Wf : Cert.Spec.Fl Ideal S64x128) (b : Cert.Spec.Fl Ideal S128)
    (r : Fin 100000) (q : Fin 64) :
    Cert.Spec.beta x Wf b (ix2 r q)
      = (∑ k : Fin 64, x (ix2 r k) * Wf (ix2 k (⟨q.val, by omega⟩ : Fin 128))) + b (ix1 (⟨q.val, by omega⟩ : Fin 128)) := by
  unfold Cert.Spec.beta
  rw [lo_apply, film_apply]

/-- γ's entry (r, q). -/
theorem gamma_apply (x : Cert.Spec.Fl Ideal S100000x64) (Wf : Cert.Spec.Fl Ideal S64x128) (b : Cert.Spec.Fl Ideal S128)
    (r : Fin 100000) (q : Fin 64) :
    Cert.Spec.gamma x Wf b (ix2 r q)
      = (∑ k : Fin 64, x (ix2 r k) * Wf (ix2 k (⟨64 + q.val, by omega⟩ : Fin 128))) + b (ix1 (⟨64 + q.val, by omega⟩ : Fin 128)) := by
  unfold Cert.Spec.gamma
  rw [hi_apply, film_apply]

/-- The self term's entry (r, q). -/
theorem skip_apply (x : Cert.Spec.Fl Ideal S100000x64) (Wsk : Cert.Spec.Fl Ideal S64x64) (Wfs : Cert.Spec.Fl Ideal S64x128)
    (r : Fin 100000) (q : Fin 64) :
    Cert.Spec.skip x Wsk Wfs (ix2 r q)
      = max ((∑ k : Fin 64, x (ix2 r k) * Wfs (ix2 k (⟨64 + q.val, by omega⟩ : Fin 128)))
              * (∑ k : Fin 64, x (ix2 r k) * Wsk (ix2 k q))
            + (∑ k : Fin 64, x (ix2 r k) * Wfs (ix2 k (⟨q.val, by omega⟩ : Fin 128))))
          (Ideal.ofBits .f32 0x00000000#32) := by
  unfold Cert.Spec.skip Cert.Spec.relu
  rw [maximumf_apply, addf_apply, mulf_apply, hi_apply, lo_apply, dot128_apply, dot128_apply, dot64_apply]
  rfl

end SpecSide

/-! ## The two layouts the dense region's operands arrive in -/

section Layouts
open Cert.KernelIdeal
variable {α : Type}

/-- Of the four weight matrices laid side by side along the columns, columns 0..63 are the first. -/
theorem wall_lin (Wl : S64x64.Idx → α) (Wf : S64x128.Idx → α) (Wsk : S64x64.Idx → α) (Wfs : S64x128.Idx → α)
    (h : Shape.Concatenates [S64x64, S64x128, S64x64, S64x128] S64x384 1) (k : Fin 64) (q : Fin 64) :
    concatenate S64x384 1 [⟨S64x64, Wl⟩, ⟨S64x128, Wf⟩, ⟨S64x64, Wsk⟩, ⟨S64x128, Wfs⟩] h (ix2 k (⟨q.val, by omega⟩ : Fin 384))
      = Wl (ix2 k q) :=
  concatenate_apply_piece (t := S64x384) (1 : Fin 2) [⟨S64x64, Wl⟩, ⟨S64x128, Wf⟩, ⟨S64x64, Wsk⟩, ⟨S64x128, Wfs⟩] h _ 0 (by show (0 : ℕ) < 4; omega) S64x64 Wl rfl rfl 0 rfl (ix2 k q)
    (fun b hb => by
      match b with
      | ⟨0, _⟩ => rfl
      | ⟨1, _⟩ => exact absurd rfl hb)
    (by show 0 + q.val = q.val; omega)

/-- Columns 64..191 are the second. -/
theorem wall_film (Wl : S64x64.Idx → α) (Wf : S64x128.Idx → α) (Wsk : S64x64.Idx → α) (Wfs : S64x128.Idx → α)
    (h : Shape.Concatenates [S64x64, S64x128, S64x64, S64x128] S64x384 1) (k : Fin 64) (q : Fin 128) :
    concatenate S64x384 1 [⟨S64x64, Wl⟩, ⟨S64x128, Wf⟩, ⟨S64x64, Wsk⟩, ⟨S64x128, Wfs⟩] h (ix2 k (⟨64 + q.val, by omega⟩ : Fin 384))
      = Wf (ix2 k q) :=
  concatenate_apply_piece (t := S64x384) (1 : Fin 2) [⟨S64x64, Wl⟩, ⟨S64x128, Wf⟩, ⟨S64x64, Wsk⟩, ⟨S64x128, Wfs⟩] h _ 1 (by show (1 : ℕ) < 4; omega) S64x128 Wf rfl rfl 64 rfl (ix2 k q)
    (fun b hb => by
      match b with
      | ⟨0, _⟩ => rfl
      | ⟨1, _⟩ => exact absurd rfl hb)
    (by show 64 + q.val = 64 + q.val; rfl)

/-- Columns 192..255 are the third. -/
theorem wall_skip (Wl : S64x64.Idx → α) (Wf : S64x128.Idx → α) (Wsk : S64x64.Idx → α) (Wfs : S64x128.Idx → α)
    (h : Shape.Concatenates [S64x64, S64x128, S64x64, S64x128] S64x384 1) (k : Fin 64) (q : Fin 64) :
    concatenate S64x384 1 [⟨S64x64, Wl⟩, ⟨S64x128, Wf⟩, ⟨S64x64, Wsk⟩, ⟨S64x128, Wfs⟩] h (ix2 k (⟨192 + q.val, by omega⟩ : Fin 384))
      = Wsk (ix2 k q) :=
  concatenate_apply_piece (t := S64x384) (1 : Fin 2) [⟨S64x64, Wl⟩, ⟨S64x128, Wf⟩, ⟨S64x64, Wsk⟩, ⟨S64x128, Wfs⟩] h _ 2 (by show (2 : ℕ) < 4; omega) S64x64 Wsk rfl rfl 192 rfl (ix2 k q)
    (fun b hb => by
      match b with
      | ⟨0, _⟩ => rfl
      | ⟨1, _⟩ => exact absurd rfl hb)
    (by show 192 + q.val = 192 + q.val; rfl)

/-- Columns 256..383 are the fourth. -/
theorem wall_filmskip (Wl : S64x64.Idx → α) (Wf : S64x128.Idx → α) (Wsk : S64x64.Idx → α) (Wfs : S64x128.Idx → α)
    (h : Shape.Concatenates [S64x64, S64x128, S64x64, S64x128] S64x384 1) (k : Fin 64) (q : Fin 128) :
    concatenate S64x384 1 [⟨S64x64, Wl⟩, ⟨S64x128, Wf⟩, ⟨S64x64, Wsk⟩, ⟨S64x128, Wfs⟩] h (ix2 k (⟨256 + q.val, by omega⟩ : Fin 384))
      = Wfs (ix2 k q) :=
  concatenate_apply_piece (t := S64x384) (1 : Fin 2) [⟨S64x64, Wl⟩, ⟨S64x128, Wf⟩, ⟨S64x64, Wsk⟩, ⟨S64x128, Wfs⟩] h _ 3 (by show (3 : ℕ) < 4; omega) S64x128 Wfs rfl rfl 256 rfl (ix2 k q)
    (fun b hb => by
      match b with
      | ⟨0, _⟩ => rfl
      | ⟨1, _⟩ => exact absurd rfl hb)
    (by show 256 + q.val = 256 + q.val; rfl)

/-- The bias vector recast as one row: entry (0, q) is the vector's entry q. -/
theorem biasCast_apply (b : S128.Idx → α) (h : S128.ShapeCasts S1x128) (q : Fin 128) :
    shapeCast S1x128 b h (ix2 (0 : Fin 1) q) = b (ix1 q) :=
  shapeCast_apply b h (ix2 (0 : Fin 1) q) (ix1 q) (by
    rw [Shape.rowMajor_val_two, Shape.rowMajor_val_one]; show q.val = 0 * 128 + q.val; omega)

end Layouts

end Cert.KernelIdeal.Val.Dense

end
-- ==== Proof.Val.DensePoint.lean ====
/-
  One entry of each of the dense region's four results against the specification.  A block row p of the node block
  x0 is row r of the node array x; the region's weight operand W0 is the four weight matrices side by side; its bias
  operand b0 is the bias vector as one row.  Then the sums over the 64 features that the region stores are, entry by
  entry, the specification's x·W_lin, the two halves of x·W_film + b, and the self term: the column of the stacked
  weights a sum reads is the same column of the matrix that sits there.  No law of arithmetic is used.
-/
import proofs.«143908_j58153857188396_1_alg».proof.Proof.Val.DenseSpec

noncomputable section

namespace Cert.KernelIdeal.Val.Dense

open Idealize.ShloMosaic Idealize.ShloMosaic.ValueIdx
open Cert.KernelIdeal
open scoped BigOperators

variable (x : S100000x64.Idx → Elt Ideal .f32)
  (Wl : S64x64.Idx → Elt Ideal .f32) (Wf : S64x128.Idx → Elt Ideal .f32)
  (Wsk : S64x64.Idx → Elt Ideal .f32) (Wfs : S64x128.Idx → Elt Ideal .f32)
  (h : Shape.Concatenates [S64x64, S64x128, S64x64, S64x128] S64x384 1)
  (b : S128.Idx → Elt Ideal .f32)
  (x0 : Vec Ideal S2000x64 .f32) (W0 : Vec Ideal S64x384 .f32) (b0 : Vec Ideal S1x128 .f32)
  (hW0 : W0 = concatenate S64x384 1 [⟨S64x64, Wl⟩, ⟨S64x128, Wf⟩, ⟨S64x64, Wsk⟩, ⟨S64x128, Wfs⟩] h)
  (p : Fin 2000) (r : Fin 100000) (hx0 : ∀ k : Fin 64, x0 (ix2 p k) = x (ix2 r k))
  (hb0 : ∀ q : Fin 128, b0 (ix2 (0 : Fin 1) q) = b (ix1 q))

include hW0 hx0 in
/-- The message projection: columns 0..63 of the stacked product are x·W_lin. -/
theorem h_sum (q : Fin 64) :
    (∑ k : Fin 64, x0 (ix2 p k) * W0 (ix2 k (⟨q.val, by omega⟩ : Fin 384))) = Cert.Spec.dot64 x Wl (ix2 r q) := by
  rw [dot64_apply]
  refine Finset.sum_congr rfl fun k _ => ?_
  rw [hx0 k, hW0]
  exact congrArg (x (ix2 r k) * ·) (wall_lin Wl Wf Wsk Wfs h k q)

include hW0 hx0 hb0 in
/-- β: columns 64..127 of the stacked product plus the bias are the first half of x·W_film + b. -/
theorem beta_sum (q : Fin 64) :
    (∑ k : Fin 64, x0 (ix2 p k) * W0 (ix2 k (⟨64 + q.val, by omega⟩ : Fin 384)))
        + b0 (ix2 (0 : Fin 1) (⟨q.val, by omega⟩ : Fin 128))
      = Cert.Spec.beta x Wf b (ix2 r q) := by
  rw [beta_apply, hb0]
  congr 1
  refine Finset.sum_congr rfl fun k _ => ?_
  rw [hx0 k, hW0]
  exact congrArg (x (ix2 r k) * ·) (wall_film Wl Wf Wsk Wfs h k (⟨q.val, by omega⟩ : Fin 128))

include hW0 hx0 hb0 in
/-- γ: columns 128..191 of the stacked product plus the bias are the second half of x·W_film + b. -/
theorem gamma_sum (q : Fin 64) :
    (∑ k : Fin 64, x0 (ix2 p k) * W0 (ix2 k (⟨128 + q.val, by omega⟩ : Fin 384)))
        + b0 (ix2 (0 : Fin 1) (⟨64 + q.val, by omega⟩ : Fin 128))
      = Cert.Spec.gamma x Wf b (ix2 r q) := by
  have e : (⟨128 + q.val, by omega⟩ : Fin 384) = ⟨64 + (64 + q.val), by omega⟩ :=
    Fin.ext (by show 128 + q.val = 64 + (64 + q.val); omega)
  rw [gamma_apply, hb0, e]
  congr 1
  refine Finset.sum_congr rfl fun k _ => ?_
  rw [hx0 k, hW0]
  exact congrArg (x (ix2 r k) * ·) (wall_film Wl Wf Wsk Wfs h k (⟨64 + q.val, by omega⟩ : Fin 128))

include hW0 hx0 in
/-- The self term: columns 192..255 are x·W_skip, columns 256..383 are x·W_film_skip. -/
theorem skip_sum (q : Fin 64) :
    max ((∑ k : Fin 64, x0 (ix2 p k) * W0 (ix2 k (⟨320 + q.val, by omega⟩ : Fin 384)))
            * (∑ k : Fin 64, x0 (ix2 p k) * W0 (ix2 k (⟨192 + q.val, by omega⟩ : Fin 384)))
          + (∑ k : Fin 64, x0 (ix2 p k) * W0 (ix2 k (⟨256 + q.val, by omega⟩ : Fin 384))))
        (Ideal.ofBits .f32 0x00000000#32)
      = Cert.Spec.skip x Wsk Wfs (ix2 r q) := by
  have e : (⟨320 + q.val, by omega⟩ : Fin 384) = ⟨256 + (64 + q.val), by omega⟩ :=
    Fin.ext (by show 320 + q.val = 256 + (64 + q.val); omega)
  have s1 : (∑ k : Fin 64, x0 (ix2 p k) * W0 (ix2 k (⟨256 + (64 + q.val), by omega⟩ : Fin 384)))
      = ∑ k : Fin 64, x (ix2 r k) * Wfs (ix2 k (⟨64 + q.val, by omega⟩ : Fin 128)) :=
    Finset.sum_congr rfl fun k _ => by
      rw [hx0 k, hW0]
      exact congrArg (x (ix2 r k) * ·) (wall_filmskip Wl Wf Wsk Wfs h k (⟨64 + q.val, by omega⟩ : Fin 128))
  have s2 : (∑ k : Fin 64, x0 (ix2 p k) * W0 (ix2 k (⟨192 + q.val, by omega⟩ : Fin 384)))
      = ∑ k : Fin 64, x (ix2 r k) * Wsk (ix2 k q) :=
    Finset.sum_congr rfl fun k _ => by
      rw [hx0 k, hW0]
      exact congrArg (x (ix2 r k) * ·) (wall_skip Wl Wf Wsk Wfs h k q)
  have s3 : (∑ k : Fin 64, x0 (ix2 p k) * W0 (ix2 k (⟨256 + q.val, by omega⟩ : Fin 384)))
      = ∑ k : Fin 64, x (ix2 r k) * Wfs (ix2 k (⟨q.val, by omega⟩ : Fin 128)) :=
    Finset.sum_congr rfl fun k _ => by
      rw [hx0 k, hW0]
      exact congrArg (x (ix2 r k) * ·) (wall_filmskip Wl Wf Wsk Wfs h k (⟨q.val, by omega⟩ : Fin 128))
  rw [skip_apply, e, s1, s2, s3]

end Cert.KernelIdeal.Val.Dense

end
-- ==== Proof.Val.Dense0.lean ====
/-
  The dense FiLM projection's four result arrays after the region, as whole-array terms of its operands.  Grid
  point t holds node rows 2000·t … 2000·t + 1999: its node block is those rows of the node array, its weight and
  bias blocks are the whole operands, and the block it writes back to each result array is those rows of the
  specification's term.  The fifty blocks cover the 100000 rows (row r lies in block r / 2000), so each result array
  ends as the whole term.
-/
import proofs.«143908_j58153857188396_1_alg».proof.Proof.KI.Data0
import proofs.«143908_j58153857188396_1_alg».proof.Proof.Val.DensePay
import proofs.«143908_j58153857188396_1_alg».proof.Proof.Val.DensePoint
import Idealize.ShloMosaic.Lib.Pipeline.Value

set_option maxRecDepth 16384

noncomputable section

namespace Cert.KernelIdeal.Val.Dense0

open Cert.KernelIdeal Cert.KernelIdeal.Gen Cert.KernelIdeal.Hand Cert.KernelIdeal.Val.Dense
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node window and the four result windows are at row block t, column
    block 0; the weight and bias windows are at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 50 := Nat.lt_of_lt_of_eq t.isLt N_0

/-! ## The input blocks -/

/-- Row p of the node block at point t is row 2000·t + p of the node array. -/
theorem xblk_row (c : Dev nD) (t : Fin cfg0.N) (p : Fin 2000) (k : Fin 64) :
    (iblk0 V c 0 t : Vec Ideal S2000x64 .f32) (ix2 p k)
      = (V c (Pipeline.arrRef spec0 0) : S100000x64.Idx → Elt Ideal .f32)
          (ix2 (⟨t.val * 2000 + p.val, by have := t_lt t; omega⟩ : Fin 100000) k) := by
  obtain ⟨e0, e1, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 2000 + 1 * p.val = t.val * 2000 + p.val; rw [e0]; omega
  | ⟨1, _⟩ => show win0_0.index t (1 : Fin 2) * 64 + 1 * k.val = k.val; rw [e1]; omega

/-- The weight block at every point is the whole stacked weight array. -/
theorem wblk_eq (c : Dev nD) (t : Fin cfg0.N) :
    (iblk0 V c 1 t : Vec Ideal S64x384 .f32) = (V c (Pipeline.arrRef spec0 1) : S64x384.Idx → Elt Ideal .f32) := by
  obtain ⟨-, -, e2, e3, -⟩ := idx_facts t
  funext y
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 64 + 1 * (y 0).val = (y 0).val; rw [e2]; omega
  | ⟨1, _⟩ => show win0_1.index t (1 : Fin 2) * 384 + 1 * (y 1).val = (y 1).val; rw [e3]; omega

/-- The bias block at every point is the whole bias row. -/
theorem bblk_eq (c : Dev nD) (t : Fin cfg0.N) :
    (iblk0 V c 2 t : Vec Ideal S1x128 .f32) = (V c (Pipeline.arrRef spec0 2) : S1x128.Idx → Elt Ideal .f32) := by
  obtain ⟨-, -, -, -, e4, e5, -⟩ := idx_facts t
  funext y
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

section Results

variable (c : Dev nD)
  (Wl : Cert.Spec.Fl Ideal Cert.ReferenceIdeal.S64x64) (Wf : Cert.Spec.Fl Ideal Cert.ReferenceIdeal.S64x128)
  (Wsk : Cert.Spec.Fl Ideal Cert.ReferenceIdeal.S64x64) (Wfs : Cert.Spec.Fl Ideal Cert.ReferenceIdeal.S64x128)
  (hw : V c (Pipeline.arrRef spec0 1) = concatenate S64x384 1 [⟨S64x64, Wl⟩, ⟨S64x128, Wf⟩, ⟨S64x64, Wsk⟩, ⟨S64x128, Wfs⟩]
    Facts₀.concatenates_S64x64_S64x128_S64x64_S64x128_S64x384_d1)
  (b : Cert.Spec.Fl Ideal Cert.ReferenceIdeal.S128)
  (hb : V c (Pipeline.arrRef spec0 2) = fun i => shapeCast S1x128 b Facts₀.shapeCasts_S128_S1x128 i)

/-! ## Result window 3: the message projection x·W_lin -/

include hw in
/-- What point t writes back to result window 3 is its block of the specification's term. -/
theorem flushed_h (t : Fin cfg0.N) :
    (dat0 V c).flushed 3 t = ((cfg0.win 3).blk t).view.read (Elt Ideal) (Cert.Spec.dot64 (V c (Pipeline.arrRef spec0 0)) Wl) := by
  show (cfg0.win 3).cut (grid0.coords t) ((dat0 V c).after 3 t) = _
  rw [after0_3]
  unfold out0_3
  rw [View.canon_unit_zero hz]
  simp only [View.ld_unit_zero (S := S2000x64) hz, View.ld_unit_zero (S := S64x384) hz]
  funext j
  obtain ⟨e0, e1, e2, e3, e4, e5, e6, e7, e8, e9, e10, e11, e12, e13⟩ := idx_facts t
  have hp : (j 0).val < 2000 := (j 0).isLt
  have hq : (j 1).val < 64 := (j 1).isLt
  have ht := t_lt t
  have ein : (win0 3).xinj (grid0.coords t) j = ix2 (⟨(j 0).val, hp⟩ : Fin 2000) (⟨(j 1).val, hq⟩ : Fin 64) :=
    funext fun a => by
      match a with
      | ⟨0, _⟩ => rfl
      | ⟨1, _⟩ => rfl
  have eout : ((cfg0.win 3).blk t).view.emb j
      = ix2 (⟨t.val * 2000 + (j 0).val, by omega⟩ : Fin 100000) (⟨(j 1).val, hq⟩ : Fin 64) := by
    funext a
    apply Fin.ext
    match a with
    | ⟨0, _⟩ => show win0_3.index t (0 : Fin 2) * 2000 + 1 * (j 0).val = t.val * 2000 + (j 0).val; rw [e6]; omega
    | ⟨1, _⟩ => show win0_3.index t (1 : Fin 2) * 64 + 1 * (j 1).val = (j 1).val; rw [e7]; omega
  show k0_pay2 (iblk0 V c 0 t) (iblk0 V c 1 t) ((win0 3).xinj (grid0.coords t) j)
      = (Cert.Spec.dot64 (V c (Pipeline.arrRef spec0 0)) Wl) (((cfg0.win 3).blk t).view.emb j)
  rw [ein, eout, pay2_apply]
  exact h_sum (V c (Pipeline.arrRef spec0 0)) Wl Wf Wsk Wfs _ (iblk0 V c 0 t) (iblk0 V c 1 t)
      (by rw [wblk_eq, hw]) _ _ (fun k => xblk_row V c t _ k) _

/-- An index of the result array is in point t's block iff each coordinate is in the block's range on its axis. -/
theorem mem_blk3 (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v6_0).slice (win0_3.rect t)).set ↔ _
  rw [View.set_slice_whole, Rect.mem_set_unit]
  exact Iff.rfl

/-- Every index of the result array is in the block of the point that holds its row: row r is in block r / 2000. -/
theorem cover3 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_3 _, ?_⟩
  rw [mem_blk3]
  obtain ⟨e0, e1, e2, e3, e4, e5, e6, e7, e8, e9, e10, e11, e12, e13⟩ := idx_facts ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e6]
    show (i 0).val / 2000 * 2000 ≤ (i 0).val ∧ (i 0).val < (i 0).val / 2000 * 2000 + 2000
    omega
  | ⟨1, _⟩ =>
    show win0_3.index _ (1 : Fin 2) * 64 ≤ (i 1).val ∧ (i 1).val < win0_3.index _ (1 : Fin 2) * 64 + 64
    rw [e7]
    omega

/-! ## Result window 4: β, the first half of x·W_film + b -/

include hw hb in
/-- What point t writes back to result window 4 is its block of the specification's term. -/
theorem flushed_beta (t : Fin cfg0.N) :
    (dat0 V c).flushed 4 t = ((cfg0.win 4).blk t).view.read (Elt Ideal) (Cert.Spec.beta (V c (Pipeline.arrRef spec0 0)) Wf b) := by
  show (cfg0.win 4).cut (grid0.coords t) ((dat0 V c).after 4 t) = _
  rw [after0_4]
  unfold out0_4
  rw [View.canon_unit_zero hz]
  simp only [View.ld_unit_zero (S := S2000x64) hz, View.ld_unit_zero (S := S64x384) hz, View.ld_unit_zero (S := S1x128) hz]
  funext j
  obtain ⟨e0, e1, e2, e3, e4, e5, e6, e7, e8, e9, e10, e11, e12, e13⟩ := idx_facts t
  have hp : (j 0).val < 2000 := (j 0).isLt
  have hq : (j 1).val < 64 := (j 1).isLt
  have ht := t_lt t
  have ein : (win0 4).xinj (grid0.coords t) j = ix2 (⟨(j 0).val, hp⟩ : Fin 2000) (⟨(j 1).val, hq⟩ : Fin 64) :=
    funext fun a => by
      match a with
      | ⟨0, _⟩ => rfl
      | ⟨1, _⟩ => rfl
  have eout : ((cfg0.win 4).blk t).view.emb j
      = ix2 (⟨t.val * 2000 + (j 0).val, by omega⟩ : Fin 100000) (⟨(j 1).val, hq⟩ : Fin 64) := by
    funext a
    apply Fin.ext
    match a with
    | ⟨0, _⟩ => show win0_4.index t (0 : Fin 2) * 2000 + 1 * (j 0).val = t.val * 2000 + (j 0).val; rw [e8]; omega
    | ⟨1, _⟩ => show win0_4.index t (1 : Fin 2) * 64 + 1 * (j 1).val = (j 1).val; rw [e9]; omega
  show k0_pay4 (iblk0 V c 0 t) (iblk0 V c 1 t) (iblk0 V c 2 t) ((win0 4).xinj (grid0.coords t) j)
      = (Cert.Spec.beta (V c (Pipeline.arrRef spec0 0)) Wf b) (((cfg0.win 4).blk t).view.emb j)
  rw [ein, eout, pay4_apply]
  exact beta_sum (V c (Pipeline.arrRef spec0 0)) Wl Wf Wsk Wfs _ b (iblk0 V c 0 t) (iblk0 V c 1 t) (iblk0 V c 2 t)
      (by rw [wblk_eq, hw]) _ _ (fun k => xblk_row V c t _ k)
      (fun q => by rw [bblk_eq]; exact (congrFun hb _).trans (biasCast_apply b _ q)) _

/-- An index of the result array is in point t's block iff each coordinate is in the block's range on its axis. -/
theorem mem_blk4 (t : Fin cfg0.N) (i : S100000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v6_1).slice (win0_4.rect t)).set ↔ _
  rw [View.set_slice_whole, Rect.mem_set_unit]
  exact Iff.rfl

/-- Every index of the result array is in the block of the point that holds its row: row r is in block r / 2000. -/
theorem cover4 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_4 _, ?_⟩
  rw [mem_blk4]
  obtain ⟨e0, e1, e2, e3, e4, e5, e6, e7, e8, e9, e10, e11, e12, e13⟩ := idx_facts ⟨(i 0).val / 2000, by rw [hN]; omega⟩
  intro a
  match a with
  | ⟨0, _⟩ =>
    show win0_4.index _ (0 : Fin 2) * 2000 ≤ (i 0).val ∧ (i 0).val < win0_4.index _ (0 : Fin 2) * 2000 + 2000
    rw [e8]
    show (i 0).val / 2000 * 2000 ≤ (i 0).val ∧ (i 0).val < (i 0).val / 2000 * 2000 + 2000
    omega
  | ⟨1, _⟩ =>
    show win0_4.index _ (1 : Fin 2) * 64 ≤ (i 1).val ∧ (i 1).val < win0_4.index _ (1 : Fin 2) * 64 + 64
    rw [e9]
    omega

/-! ## Result window 5: γ, the second half of x·W_film + b -/

include hw hb in
/-- What point t writes back to result window 5 is its block of the specification's term. -/
theorem flushed_gamma (t : Fin cfg0.N) :
    (dat0 V c).flushed 5 t = ((cfg0.win 5).blk t).view.read (Elt Ideal) (Cert.Spec.gamma (V c (Pipeline.arrRef spec0 0)) Wf b) := by
  show (cfg0.win 5).cut (grid0.coords t) ((dat0 V c).after 5 t) = _
  rw [after0_5]
  unfold out0_5
  rw [View.canon_unit_zero hz]
  simp only [View.ld_unit_zero (S := S2000x64) hz, View.ld_unit_zero (S := S64x384) hz, View.ld_unit_zero (S := S1x128) hz]
  funext j
  obtain ⟨e0, e1, e2, e3, e4, e5, e6, e7, e8, e9, e10, e11, e12, e13⟩ := idx_facts t
  have hp : (j 0).val < 2000 := (j 0).isLt
  have hq : (j 1).val < 64 := (j 1).isLt
  have ht := t_lt t
  have ein : (win0 5).xinj (grid0.coords t) j = ix2 (⟨(j 0).val, hp⟩ : Fin 2000) (⟨(j 1).val, hq⟩ : Fin 64) :=
    funext fun a => by
      match a with
      | ⟨0, _⟩ => rfl
      | ⟨1, _⟩ => rfl
  have eout : ((cfg0.win 5).blk t).view.emb j
      = ix2 (⟨t.val * 2000 + (j 0).val, by omega⟩ : Fin 100000) (⟨(j 1).val, hq⟩ : Fin 64) := by
    funext a
    apply Fin.ext
    match a with
    | ⟨0, _⟩ => show win0_5.index t (0 : Fin 2) * 2000 + 1 * (j 0).val = t.val * 2000 + (j 0).val; rw [e10]; omega
    | ⟨1, _⟩ => show win0_5.index t (1 : Fin 2) * 64 + 1 * (j 1).val = (j 1).val; rw [e11]; omega
  show k0_pay5 (iblk0 V c 0 t) (iblk0 V c 1 t) (iblk0 V c 2 t) ((win0 5).xinj (grid0.coords t) j)
      = (Cert.Spec.gamma (V c (Pipeline.arrRef spec0 0)) Wf b) (((cfg0.win 5).blk t).view.emb j)
  rw [ein, eout, pay5_apply]
  exact gamma_sum (V c (Pipeline.arrRef spec0 0)) Wl Wf Wsk Wfs _ b (iblk0 V c 0 t) (iblk0 V c 1 t) (iblk0 V c 2 t)
      (by rw [wblk_eq, hw]) _ _ (fun k => xblk_row V c t _ k)
      (fun q => by rw [bblk_eq]; exact (congrFun hb _).trans (biasCast_apply b _ q)) _

/-- An index of the result array is in point t's block iff each coordinate is in the block's range on its axis. -/
theorem mem_blk5 (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v6_2).slice (win0_5.rect t)).set ↔ _
  rw [View.set_slice_whole, Rect.mem_set_unit]
  exact Iff.rfl

/-- Every index of the result array is in the block of the point that holds its row: row r is in block r / 2000. -/
theorem cover5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_5 _, ?_⟩
  rw [mem_blk5]
  obtain ⟨e0, e1, e2, e3, e4, e5, e6, e7, e8, e9, e10, e11, e12, e13⟩ := idx_facts ⟨(i 0).val / 2000, by rw [hN]; omega⟩
  intro a
  match a with
  | ⟨0, _⟩ =>
    show win0_5.index _ (0 : Fin 2) * 2000 ≤ (i 0).val ∧ (i 0).val < win0_5.index _ (0 : Fin 2) * 2000 + 2000
    rw [e10]
    show (i 0).val / 2000 * 2000 ≤ (i 0).val ∧ (i 0).val < (i 0).val / 2000 * 2000 + 2000
    omega
  | ⟨1, _⟩ =>
    show win0_5.index _ (1 : Fin 2) * 64 ≤ (i 1).val ∧ (i 1).val < win0_5.index _ (1 : Fin 2) * 64 + 64
    rw [e11]
    omega

/-! ## Result window 6: the self term -/

include hw in
/-- What point t writes back to result window 6 is its block of the specification's term. -/
theorem flushed_skip (t : Fin cfg0.N) :
    (dat0 V c).flushed 6 t = ((cfg0.win 6).blk t).view.read (Elt Ideal) (Cert.Spec.skip (V c (Pipeline.arrRef spec0 0)) Wsk Wfs) := by
  show (cfg0.win 6).cut (grid0.coords t) ((dat0 V c).after 6 t) = _
  rw [after0_6]
  unfold out0_6
  rw [View.canon_unit_zero hz]
  simp only [View.ld_unit_zero (S := S2000x64) hz, View.ld_unit_zero (S := S64x384) hz]
  funext j
  obtain ⟨e0, e1, e2, e3, e4, e5, e6, e7, e8, e9, e10, e11, e12, e13⟩ := idx_facts t
  have hp : (j 0).val < 2000 := (j 0).isLt
  have hq : (j 1).val < 64 := (j 1).isLt
  have ht := t_lt t
  have ein : (win0 6).xinj (grid0.coords t) j = ix2 (⟨(j 0).val, hp⟩ : Fin 2000) (⟨(j 1).val, hq⟩ : Fin 64) :=
    funext fun a => by
      match a with
      | ⟨0, _⟩ => rfl
      | ⟨1, _⟩ => rfl
  have eout : ((cfg0.win 6).blk t).view.emb j
      = ix2 (⟨t.val * 2000 + (j 0).val, by omega⟩ : Fin 100000) (⟨(j 1).val, hq⟩ : Fin 64) := by
    funext a
    apply Fin.ext
    match a with
    | ⟨0, _⟩ => show win0_6.index t (0 : Fin 2) * 2000 + 1 * (j 0).val = t.val * 2000 + (j 0).val; rw [e12]; omega
    | ⟨1, _⟩ => show win0_6.index t (1 : Fin 2) * 64 + 1 * (j 1).val = (j 1).val; rw [e13]; omega
  show k0_pay6 (iblk0 V c 0 t) (iblk0 V c 1 t) ((win0 6).xinj (grid0.coords t) j)
      = (Cert.Spec.skip (V c (Pipeline.arrRef spec0 0)) Wsk Wfs) (((cfg0.win 6).blk t).view.emb j)
  rw [ein, eout, pay6_apply]
  exact skip_sum (V c (Pipeline.arrRef spec0 0)) Wl Wf Wsk Wfs _ (iblk0 V c 0 t) (iblk0 V c 1 t)
      (by rw [wblk_eq, hw]) _ _ (fun k => xblk_row V c t _ k) _

/-- An index of the result array is in point t's block iff each coordinate is in the block's range on its axis. -/
theorem mem_blk6 (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v6_3).slice (win0_6.rect t)).set ↔ _
  rw [View.set_slice_whole, Rect.mem_set_unit]
  exact Iff.rfl

/-- Every index of the result array is in the block of the point that holds its row: row r is in block r / 2000. -/
theorem cover6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_6 _, ?_⟩
  rw [mem_blk6]
  obtain ⟨e0, e1, e2, e3, e4, e5, e6, e7, e8, e9, e10, e11, e12, e13⟩ := idx_facts ⟨(i 0).val / 2000, by rw [hN]; omega⟩
  intro a
  match a with
  | ⟨0, _⟩ =>
    show win0_6.index _ (0 : Fin 2) * 2000 ≤ (i 0).val ∧ (i 0).val < win0_6.index _ (0 : Fin 2) * 2000 + 2000
    rw [e12]
    show (i 0).val / 2000 * 2000 ≤ (i 0).val ∧ (i 0).val < (i 0).val / 2000 * 2000 + 2000
    omega
  | ⟨1, _⟩ =>
    show win0_6.index _ (1 : Fin 2) * 64 ≤ (i 1).val ∧ (i 1).val < win0_6.index _ (1 : Fin 2) * 64 + 64
    rw [e13]
    omega

end Results

end Cert.KernelIdeal.Val.Dense0

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)
  (Wl : Cert.Spec.Fl Ideal Cert.ReferenceIdeal.S64x64) (Wf : Cert.Spec.Fl Ideal Cert.ReferenceIdeal.S64x128)
  (Wsk : Cert.Spec.Fl Ideal Cert.ReferenceIdeal.S64x64) (Wfs : Cert.Spec.Fl Ideal Cert.ReferenceIdeal.S64x128)
  (hw : V c (Pipeline.arrRef spec0 1) = concatenate S64x384 1 [⟨S64x64, Wl⟩, ⟨S64x128, Wf⟩, ⟨S64x64, Wsk⟩, ⟨S64x128, Wfs⟩]
    Facts₀.concatenates_S64x64_S64x128_S64x64_S64x128_S64x384_d1)
  (b : Cert.Spec.Fl Ideal Cert.ReferenceIdeal.S128)
  (hb : V c (Pipeline.arrRef spec0 2) = fun i => shapeCast S1x128 b Facts₀.shapeCasts_S128_S1x128 i)

include hw in
/-- After the region the first result array is x·W_lin of the node array. -/
theorem dense0_h : (dat0 V c).arrAt 3 cfg0.N = Cert.Spec.dot64 (V c (Pipeline.arrRef spec0 0)) Wl :=
  (dat0 V c).arrAt_eq_of_cover 3 _ (fun t _ => Dense0.flushed_h V c Wl Wf Wsk Wfs hw t) Dense0.cover3

include hw hb in
/-- After the region the second result array is β. -/
theorem dense0_beta : (dat0 V c).arrAt 4 cfg0.N = Cert.Spec.beta (V c (Pipeline.arrRef spec0 0)) Wf b :=
  (dat0 V c).arrAt_eq_of_cover 4 _ (fun t _ => Dense0.flushed_beta V c Wl Wf Wsk Wfs hw b hb t) Dense0.cover4

include hw hb in
/-- After the region the third result array is γ. -/
theorem dense0_gamma : (dat0 V c).arrAt 5 cfg0.N = Cert.Spec.gamma (V c (Pipeline.arrRef spec0 0)) Wf b :=
  (dat0 V c).arrAt_eq_of_cover 5 _ (fun t _ => Dense0.flushed_gamma V c Wl Wf Wsk Wfs hw b hb t) Dense0.cover5

include hw in
/-- After the region the fourth result array is the self term. -/
theorem dense0_skip : (dat0 V c).arrAt 6 cfg0.N = Cert.Spec.skip (V c (Pipeline.arrRef spec0 0)) Wsk Wfs :=
  (dat0 V c).arrAt_eq_of_cover 6 _ (fun t _ => Dense0.flushed_skip V c Wl Wf Wsk Wfs hw t) Dense0.cover6

end Cert.KernelIdeal.Val

end
-- ==== Proof.Val.DensePay2.lean ====
/-
  The second layer's dense FiLM projection's stored values read index by index.  One block of 2000 node rows x0 is multiplied into
  the 384 stacked weight columns W; the product's columns 0..63 are the message projection, columns 64..191 plus the
  bias row are the FiLM parameters (two halves of 64), and columns 192..255, 256..319, 320..383 are the skip
  projection and its own FiLM parameters: the self term is max(γₛ·hₛ + βₛ, 0).  Every entry is a sum over the 64 input
  features, with nothing added to it (the accumulator is the zero splat).
-/
import proofs.«143908_j58153857188396_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val.Dense

open Idealize.ShloMosaic Idealize.ShloMosaic.ValueIdx
open Cert.KernelIdeal Cert.KernelIdeal.Gen
open scoped BigOperators

/-- Entry (p, q) of the block's product with the stacked weights: the sum over the 64 features of
    x0[p, k] · W[k, q]. -/
theorem pay1_apply2 (x0 : Vec Ideal S2000x64 .f32) (W : Vec Ideal S64x384 .f32) (p : Fin 2000) (q : Fin 384) :
    k2_pay1 x0 W (ix2 p q) = ∑ k : Fin 64, x0 (ix2 p k) * W (ix2 k q) := by
  unfold k2_pay1
  simp only [matmul]
  rw [Ideal.matmul_constant_zero_apply]
  rw [← Equiv.sum_comp (contrEquiv1 dot_S2000x64_S64x384_S2000x384_1_0_0_1_n_n 64 rfl rfl).symm]
  refine Finset.sum_congr rfl fun k _ => ?_
  have hl : dot_S2000x64_S64x384_S2000x384_1_0_0_1_n_n.lhsIdx (ix2 p q) ((contrEquiv1 dot_S2000x64_S64x384_S2000x384_1_0_0_1_n_n 64 rfl rfl).symm k) = ix2 p k := by
    funext a; apply Fin.ext
    match a with
    | ⟨0, _⟩ => rfl
    | ⟨1, _⟩ =>
      exact (DotDims.lhsIdx_val_of_single _ (cl := (1 : Fin 2)) rfl _ _).trans
        (contrEquiv1_symm_val dot_S2000x64_S64x384_S2000x384_1_0_0_1_n_n 64 rfl rfl k)
  have hr : dot_S2000x64_S64x384_S2000x384_1_0_0_1_n_n.rhsIdx (ix2 p q) ((contrEquiv1 dot_S2000x64_S64x384_S2000x384_1_0_0_1_n_n 64 rfl rfl).symm k) = ix2 k q := by
    funext a; apply Fin.ext
    match a with
    | ⟨0, _⟩ =>
      exact (DotDims.rhsIdx_val_of_single _ (cr := (0 : Fin 2)) rfl _ _).trans
        (contrEquiv1_symm_val dot_S2000x64_S64x384_S2000x384_1_0_0_1_n_n 64 rfl rfl k)
    | ⟨1, _⟩ => rfl
  rw [hl, hr, truncf_apply, truncf_apply, shapeCast_self, shapeCast_self]

/-- The message projection's entry (p, q): column q of the product. -/
theorem pay2_apply2 (x0 : Vec Ideal S2000x64 .f32) (W : Vec Ideal S64x384 .f32) (p : Fin 2000) (q : Fin 64) :
    k2_pay2 x0 W (ix2 p q) = ∑ k : Fin 64, x0 (ix2 p k) * W (ix2 k (⟨q.val, by omega⟩ : Fin 384)) := by
  unfold k2_pay2
  rw [extractStridedSlice_apply ![0, 0] _ _ (ix2 p q) (ix2 p (⟨q.val, by omega⟩ : Fin 384)) (fun a => by
    match a with
    | ⟨0, _⟩ => show p.val = 0 + p.val; omega
    | ⟨1, _⟩ => show q.val = 0 + q.val; omega)]
  exact pay1_apply2 x0 W p _

/-- The FiLM block's entry (p, q), q < 128: column 64 + q of the product plus the bias row's entry q. -/
theorem pay3_apply2 (x0 : Vec Ideal S2000x64 .f32) (W : Vec Ideal S64x384 .f32) (b0 : Vec Ideal S1x128 .f32)
    (p : Fin 2000) (q : Fin 128) :
    k2_pay3 x0 W b0 (ix2 p q)
      = (∑ k : Fin 64, x0 (ix2 p k) * W (ix2 k (⟨64 + q.val, by omega⟩ : Fin 384))) + b0 (ix2 (0 : Fin 1) q) := by
  unfold k2_pay3
  rw [addf_apply]
  rw [extractStridedSlice_apply ![0, 64] _ _ (ix2 p q) (ix2 p (⟨64 + q.val, by omega⟩ : Fin 384)) (fun a => by
    match a with
    | ⟨0, _⟩ => show p.val = 0 + p.val; omega
    | ⟨1, _⟩ => show 64 + q.val = 64 + q.val; rfl)]
  rw [broadcastTo_apply _ _ (ix2 p q) (ix2 (0 : Fin 1) q) (fun a => by
    match a with
    | ⟨0, _⟩ => rfl
    | ⟨1, _⟩ => rfl)]
  rw [shapeCast_self, pay1_apply2]

/-- β's entry (p, q): the FiLM block's column q. -/
theorem pay4_apply2 (x0 : Vec Ideal S2000x64 .f32) (W : Vec Ideal S64x384 .f32) (b0 : Vec Ideal S1x128 .f32)
    (p : Fin 2000) (q : Fin 64) :
    k2_pay4 x0 W b0 (ix2 p q)
      = (∑ k : Fin 64, x0 (ix2 p k) * W (ix2 k (⟨64 + q.val, by omega⟩ : Fin 384)))
        + b0 (ix2 (0 : Fin 1) (⟨q.val, by omega⟩ : Fin 128)) := by
  unfold k2_pay4
  rw [extractStridedSlice_apply ![0, 0] _ _ (ix2 p q) (ix2 p (⟨q.val, by omega⟩ : Fin 128)) (fun a => by
    match a with
    | ⟨0, _⟩ => show p.val = 0 + p.val; omega
    | ⟨1, _⟩ => show q.val = 0 + q.val; omega)]
  exact pay3_apply2 x0 W b0 p _

/-- γ's entry (p, q): the FiLM block's column 64 + q. -/
theorem pay5_apply2 (x0 : Vec Ideal S2000x64 .f32) (W : Vec Ideal S64x384 .f32) (b0 : Vec Ideal S1x128 .f32)
    (p : Fin 2000) (q : Fin 64) :
    k2_pay5 x0 W b0 (ix2 p q)
      = (∑ k : Fin 64, x0 (ix2 p k) * W (ix2 k (⟨128 + q.val, by omega⟩ : Fin 384)))
        + b0 (ix2 (0 : Fin 1) (⟨64 + q.val, by omega⟩ : Fin 128)) := by
  unfold k2_pay5
  rw [extractStridedSlice_apply ![0, 64] _ _ (ix2 p q) (ix2 p (⟨64 + q.val, by omega⟩ : Fin 128)) (fun a => by
    match a with
    | ⟨0, _⟩ => show p.val = 0 + p.val; omega
    | ⟨1, _⟩ => show 64 + q.val = 64 + q.val; rfl)]
  rw [pay3_apply2]
  congr 1
  refine Finset.sum_congr rfl fun k _ => ?_
  have e : (⟨64 + (64 + q.val), by omega⟩ : Fin 384) = ⟨128 + q.val, by omega⟩ :=
    Fin.ext (by show 64 + (64 + q.val) = 128 + q.val; omega)
  exact congrArg (fun z => x0 (ix2 p k) * W (ix2 k z)) e

/-- The self term's entry (p, q): max(γₛ·hₛ + βₛ, 0) with hₛ, βₛ, γₛ the product's columns 192 + q, 256 + q, 320 + q. -/
theorem pay6_apply2 (x0 : Vec Ideal S2000x64 .f32) (W : Vec Ideal S64x384 .f32) (p : Fin 2000) (q : Fin 64) :
    k2_pay6 x0 W (ix2 p q)
      = max ((∑ k : Fin 64, x0 (ix2 p k) * W (ix2 k (⟨320 + q.val, by omega⟩ : Fin 384)))
              * (∑ k : Fin 64, x0 (ix2 p k) * W (ix2 k (⟨192 + q.val, by omega⟩ : Fin 384)))
            + (∑ k : Fin 64, x0 (ix2 p k) * W (ix2 k (⟨256 + q.val, by omega⟩ : Fin 384))))
          (Ideal.ofBits .f32 0x00000000#32) := by
  unfold k2_pay6
  rw [maximumf_apply, addf_apply, mulf_apply, broadcast_apply]
  rw [extractStridedSlice_apply ![0, 64] _ _ (ix2 p q) (ix2 p (⟨64 + q.val, by omega⟩ : Fin 128)) (fun a => by
    match a with
    | ⟨0, _⟩ => show p.val = 0 + p.val; omega
    | ⟨1, _⟩ => show 64 + q.val = 64 + q.val; rfl)]
  rw [extractStridedSlice_apply ![0, 0] _ _ (ix2 p q) (ix2 p (⟨q.val, by omega⟩ : Fin 128)) (fun a => by
    match a with
    | ⟨0, _⟩ => show p.val = 0 + p.val; omega
    | ⟨1, _⟩ => show q.val = 0 + q.val; omega)]
  rw [extractStridedSlice_apply ![0, 192] _ _ (ix2 p q) (ix2 p (⟨192 + q.val, by omega⟩ : Fin 384)) (fun a => by
    match a with
    | ⟨0, _⟩ => show p.val = 0 + p.val; omega
    | ⟨1, _⟩ => show 192 + q.val = 192 + q.val; rfl)]
  rw [extractStridedSlice_apply ![0, 256] _ _ (ix2 p (⟨64 + q.val, by omega⟩ : Fin 128)) (ix2 p (⟨320 + q.val, by omega⟩ : Fin 384)) (fun a => by
    match a with
    | ⟨0, _⟩ => show p.val = 0 + p.val; omega
    | ⟨1, _⟩ => show 320 + q.val = 256 + (64 + q.val); omega)]
  rw [extractStridedSlice_apply ![0, 256] _ _ (ix2 p (⟨q.val, by omega⟩ : Fin 128)) (ix2 p (⟨256 + q.val, by omega⟩ : Fin 384)) (fun a => by
    match a with
    | ⟨0, _⟩ => show p.val = 0 + p.val; omega
    | ⟨1, _⟩ => show 256 + q.val = 256 + q.val; rfl)]
  rw [pay1_apply2, pay1_apply2, pay1_apply2]
  rfl

end Cert.KernelIdeal.Val.Dense

end
-- ==== Proof.Val.Dense2.lean ====
/-
  The dense FiLM projection's four result arrays after the region, as whole-array terms of its operands.  Grid
  point t holds node rows 2000·t … 2000·t + 1999: its node block is those rows of the node array, its weight and
  bias blocks are the whole operands, and the block it writes back to each result array is those rows of the
  specification's term.  The fifty blocks cover the 100000 rows (row r lies in block r / 2000), so each result array
  ends as the whole term.
-/
import proofs.«143908_j58153857188396_1_alg».proof.Proof.KI.Data2
import proofs.«143908_j58153857188396_1_alg».proof.Proof.Val.DensePay2
import proofs.«143908_j58153857188396_1_alg».proof.Proof.Val.DensePoint
import Idealize.ShloMosaic.Lib.Pipeline.Value

set_option maxRecDepth 16384

noncomputable section

namespace Cert.KernelIdeal.Val.Dense2

open Cert.KernelIdeal Cert.KernelIdeal.Gen Cert.KernelIdeal.Hand Cert.KernelIdeal.Val.Dense
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node window and the four result windows are at row block t, column
    block 0; the weight and bias windows are at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

theorem t_lt (t : Fin cfg2.N) : t.val < 50 := Nat.lt_of_lt_of_eq t.isLt N_2

/-! ## The input blocks -/

/-- Row p of the node block at point t is row 2000·t + p of the node array. -/
theorem xblk_row (c : Dev nD) (t : Fin cfg2.N) (p : Fin 2000) (k : Fin 64) :
    (iblk2 V c 0 t : Vec Ideal S2000x64 .f32) (ix2 p k)
      = (V c (Pipeline.arrRef spec2 0) : S100000x64.Idx → Elt Ideal .f32)
          (ix2 (⟨t.val * 2000 + p.val, by have := t_lt t; omega⟩ : Fin 100000) k) := by
  obtain ⟨e0, e1, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 2000 + 1 * p.val = t.val * 2000 + p.val; rw [e0]; omega
  | ⟨1, _⟩ => show win2_0.index t (1 : Fin 2) * 64 + 1 * k.val = k.val; rw [e1]; omega

/-- The weight block at every point is the whole stacked weight array. -/
theorem wblk_eq (c : Dev nD) (t : Fin cfg2.N) :
    (iblk2 V c 1 t : Vec Ideal S64x384 .f32) = (V c (Pipeline.arrRef spec2 1) : S64x384.Idx → Elt Ideal .f32) := by
  obtain ⟨-, -, e2, e3, -⟩ := idx_facts t
  funext y
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 64 + 1 * (y 0).val = (y 0).val; rw [e2]; omega
  | ⟨1, _⟩ => show win2_1.index t (1 : Fin 2) * 384 + 1 * (y 1).val = (y 1).val; rw [e3]; omega

/-- The bias block at every point is the whole bias row. -/
theorem bblk_eq (c : Dev nD) (t : Fin cfg2.N) :
    (iblk2 V c 2 t : Vec Ideal S1x128 .f32) = (V c (Pipeline.arrRef spec2 2) : S1x128.Idx → Elt Ideal .f32) := by
  obtain ⟨-, -, -, -, e4, e5, -⟩ := idx_facts t
  funext y
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * (y 0).val = (y 0).val; rw [e4]; omega
  | ⟨1, _⟩ => show win2_2.index t (1 : Fin 2) * 128 + 1 * (y 1).val = (y 1).val; rw [e5]; omega

section Results

variable (c : Dev nD)
  (Wl : Cert.Spec.Fl Ideal Cert.ReferenceIdeal.S64x64) (Wf : Cert.Spec.Fl Ideal Cert.ReferenceIdeal.S64x128)
  (Wsk : Cert.Spec.Fl Ideal Cert.ReferenceIdeal.S64x64) (Wfs : Cert.Spec.Fl Ideal Cert.ReferenceIdeal.S64x128)
  (hw : V c (Pipeline.arrRef spec2 1) = concatenate S64x384 1 [⟨S64x64, Wl⟩, ⟨S64x128, Wf⟩, ⟨S64x64, Wsk⟩, ⟨S64x128, Wfs⟩]
    Facts₀.concatenates_S64x64_S64x128_S64x64_S64x128_S64x384_d1)
  (b : Cert.Spec.Fl Ideal Cert.ReferenceIdeal.S128)
  (hb : V c (Pipeline.arrRef spec2 2) = fun i => shapeCast S1x128 b Facts₀.shapeCasts_S128_S1x128 i)

/-! ## Result window 3: the message projection x·W_lin -/

include hw in
/-- What point t writes back to result window 3 is its block of the specification's term. -/
theorem flushed_h (t : Fin cfg2.N) :
    (dat2 V c).flushed 3 t = ((cfg2.win 3).blk t).view.read (Elt Ideal) (Cert.Spec.dot64 (V c (Pipeline.arrRef spec2 0)) Wl) := by
  show (cfg2.win 3).cut (grid2.coords t) ((dat2 V c).after 3 t) = _
  rw [after2_3]
  unfold out2_3
  rw [View.canon_unit_zero hz]
  simp only [View.ld_unit_zero (S := S2000x64) hz, View.ld_unit_zero (S := S64x384) hz]
  funext j
  obtain ⟨e0, e1, e2, e3, e4, e5, e6, e7, e8, e9, e10, e11, e12, e13⟩ := idx_facts t
  have hp : (j 0).val < 2000 := (j 0).isLt
  have hq : (j 1).val < 64 := (j 1).isLt
  have ht := t_lt t
  have ein : (win2 3).xinj (grid2.coords t) j = ix2 (⟨(j 0).val, hp⟩ : Fin 2000) (⟨(j 1).val, hq⟩ : Fin 64) :=
    funext fun a => by
      match a with
      | ⟨0, _⟩ => rfl
      | ⟨1, _⟩ => rfl
  have eout : ((cfg2.win 3).blk t).view.emb j
      = ix2 (⟨t.val * 2000 + (j 0).val, by omega⟩ : Fin 100000) (⟨(j 1).val, hq⟩ : Fin 64) := by
    funext a
    apply Fin.ext
    match a with
    | ⟨0, _⟩ => show win2_3.index t (0 : Fin 2) * 2000 + 1 * (j 0).val = t.val * 2000 + (j 0).val; rw [e6]; omega
    | ⟨1, _⟩ => show win2_3.index t (1 : Fin 2) * 64 + 1 * (j 1).val = (j 1).val; rw [e7]; omega
  show k2_pay2 (iblk2 V c 0 t) (iblk2 V c 1 t) ((win2 3).xinj (grid2.coords t) j)
      = (Cert.Spec.dot64 (V c (Pipeline.arrRef spec2 0)) Wl) (((cfg2.win 3).blk t).view.emb j)
  rw [ein, eout, pay2_apply2]
  exact h_sum (V c (Pipeline.arrRef spec2 0)) Wl Wf Wsk Wfs _ (iblk2 V c 0 t) (iblk2 V c 1 t)
      (by rw [wblk_eq, hw]) _ _ (fun k => xblk_row V c t _ k) _

/-- An index of the result array is in point t's block iff each coordinate is in the block's range on its axis. -/
theorem mem_blk3 (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v45_0).slice (win2_3.rect t)).set ↔ _
  rw [View.set_slice_whole, Rect.mem_set_unit]
  exact Iff.rfl

/-- Every index of the result array is in the block of the point that holds its row: row r is in block r / 2000. -/
theorem cover3 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 50 := N_2
  refine ⟨⟨(i 0).val / 2000, by rw [hN]; omega⟩, flush2_3 _, ?_⟩
  rw [mem_blk3]
  obtain ⟨e0, e1, e2, e3, e4, e5, e6, e7, e8, e9, e10, e11, e12, e13⟩ := idx_facts ⟨(i 0).val / 2000, by rw [hN]; omega⟩
  intro a
  match a with
  | ⟨0, _⟩ =>
    show win2_3.index _ (0 : Fin 2) * 2000 ≤ (i 0).val ∧ (i 0).val < win2_3.index _ (0 : Fin 2) * 2000 + 2000
    rw [e6]
    show (i 0).val / 2000 * 2000 ≤ (i 0).val ∧ (i 0).val < (i 0).val / 2000 * 2000 + 2000
    omega
  | ⟨1, _⟩ =>
    show win2_3.index _ (1 : Fin 2) * 64 ≤ (i 1).val ∧ (i 1).val < win2_3.index _ (1 : Fin 2) * 64 + 64
    rw [e7]
    omega

/-! ## Result window 4: β, the first half of x·W_film + b -/

include hw hb in
/-- What point t writes back to result window 4 is its block of the specification's term. -/
theorem flushed_beta (t : Fin cfg2.N) :
    (dat2 V c).flushed 4 t = ((cfg2.win 4).blk t).view.read (Elt Ideal) (Cert.Spec.beta (V c (Pipeline.arrRef spec2 0)) Wf b) := by
  show (cfg2.win 4).cut (grid2.coords t) ((dat2 V c).after 4 t) = _
  rw [after2_4]
  unfold out2_4
  rw [View.canon_unit_zero hz]
  simp only [View.ld_unit_zero (S := S2000x64) hz, View.ld_unit_zero (S := S64x384) hz, View.ld_unit_zero (S := S1x128) hz]
  funext j
  obtain ⟨e0, e1, e2, e3, e4, e5, e6, e7, e8, e9, e10, e11, e12, e13⟩ := idx_facts t
  have hp : (j 0).val < 2000 := (j 0).isLt
  have hq : (j 1).val < 64 := (j 1).isLt
  have ht := t_lt t
  have ein : (win2 4).xinj (grid2.coords t) j = ix2 (⟨(j 0).val, hp⟩ : Fin 2000) (⟨(j 1).val, hq⟩ : Fin 64) :=
    funext fun a => by
      match a with
      | ⟨0, _⟩ => rfl
      | ⟨1, _⟩ => rfl
  have eout : ((cfg2.win 4).blk t).view.emb j
      = ix2 (⟨t.val * 2000 + (j 0).val, by omega⟩ : Fin 100000) (⟨(j 1).val, hq⟩ : Fin 64) := by
    funext a
    apply Fin.ext
    match a with
    | ⟨0, _⟩ => show win2_4.index t (0 : Fin 2) * 2000 + 1 * (j 0).val = t.val * 2000 + (j 0).val; rw [e8]; omega
    | ⟨1, _⟩ => show win2_4.index t (1 : Fin 2) * 64 + 1 * (j 1).val = (j 1).val; rw [e9]; omega
  show k2_pay4 (iblk2 V c 0 t) (iblk2 V c 1 t) (iblk2 V c 2 t) ((win2 4).xinj (grid2.coords t) j)
      = (Cert.Spec.beta (V c (Pipeline.arrRef spec2 0)) Wf b) (((cfg2.win 4).blk t).view.emb j)
  rw [ein, eout, pay4_apply2]
  exact beta_sum (V c (Pipeline.arrRef spec2 0)) Wl Wf Wsk Wfs _ b (iblk2 V c 0 t) (iblk2 V c 1 t) (iblk2 V c 2 t)
      (by rw [wblk_eq, hw]) _ _ (fun k => xblk_row V c t _ k)
      (fun q => by rw [bblk_eq]; exact (congrFun hb _).trans (biasCast_apply b _ q)) _

/-- An index of the result array is in point t's block iff each coordinate is in the block's range on its axis. -/
theorem mem_blk4 (t : Fin cfg2.N) (i : S100000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v45_1).slice (win2_4.rect t)).set ↔ _
  rw [View.set_slice_whole, Rect.mem_set_unit]
  exact Iff.rfl

/-- Every index of the result array is in the block of the point that holds its row: row r is in block r / 2000. -/
theorem cover4 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 50 := N_2
  refine ⟨⟨(i 0).val / 2000, by rw [hN]; omega⟩, flush2_4 _, ?_⟩
  rw [mem_blk4]
  obtain ⟨e0, e1, e2, e3, e4, e5, e6, e7, e8, e9, e10, e11, e12, e13⟩ := idx_facts ⟨(i 0).val / 2000, by rw [hN]; omega⟩
  intro a
  match a with
  | ⟨0, _⟩ =>
    show win2_4.index _ (0 : Fin 2) * 2000 ≤ (i 0).val ∧ (i 0).val < win2_4.index _ (0 : Fin 2) * 2000 + 2000
    rw [e8]
    show (i 0).val / 2000 * 2000 ≤ (i 0).val ∧ (i 0).val < (i 0).val / 2000 * 2000 + 2000
    omega
  | ⟨1, _⟩ =>
    show win2_4.index _ (1 : Fin 2) * 64 ≤ (i 1).val ∧ (i 1).val < win2_4.index _ (1 : Fin 2) * 64 + 64
    rw [e9]
    omega

/-! ## Result window 5: γ, the second half of x·W_film + b -/

include hw hb in
/-- What point t writes back to result window 5 is its block of the specification's term. -/
theorem flushed_gamma (t : Fin cfg2.N) :
    (dat2 V c).flushed 5 t = ((cfg2.win 5).blk t).view.read (Elt Ideal) (Cert.Spec.gamma (V c (Pipeline.arrRef spec2 0)) Wf b) := by
  show (cfg2.win 5).cut (grid2.coords t) ((dat2 V c).after 5 t) = _
  rw [after2_5]
  unfold out2_5
  rw [View.canon_unit_zero hz]
  simp only [View.ld_unit_zero (S := S2000x64) hz, View.ld_unit_zero (S := S64x384) hz, View.ld_unit_zero (S := S1x128) hz]
  funext j
  obtain ⟨e0, e1, e2, e3, e4, e5, e6, e7, e8, e9, e10, e11, e12, e13⟩ := idx_facts t
  have hp : (j 0).val < 2000 := (j 0).isLt
  have hq : (j 1).val < 64 := (j 1).isLt
  have ht := t_lt t
  have ein : (win2 5).xinj (grid2.coords t) j = ix2 (⟨(j 0).val, hp⟩ : Fin 2000) (⟨(j 1).val, hq⟩ : Fin 64) :=
    funext fun a => by
      match a with
      | ⟨0, _⟩ => rfl
      | ⟨1, _⟩ => rfl
  have eout : ((cfg2.win 5).blk t).view.emb j
      = ix2 (⟨t.val * 2000 + (j 0).val, by omega⟩ : Fin 100000) (⟨(j 1).val, hq⟩ : Fin 64) := by
    funext a
    apply Fin.ext
    match a with
    | ⟨0, _⟩ => show win2_5.index t (0 : Fin 2) * 2000 + 1 * (j 0).val = t.val * 2000 + (j 0).val; rw [e10]; omega
    | ⟨1, _⟩ => show win2_5.index t (1 : Fin 2) * 64 + 1 * (j 1).val = (j 1).val; rw [e11]; omega
  show k2_pay5 (iblk2 V c 0 t) (iblk2 V c 1 t) (iblk2 V c 2 t) ((win2 5).xinj (grid2.coords t) j)
      = (Cert.Spec.gamma (V c (Pipeline.arrRef spec2 0)) Wf b) (((cfg2.win 5).blk t).view.emb j)
  rw [ein, eout, pay5_apply2]
  exact gamma_sum (V c (Pipeline.arrRef spec2 0)) Wl Wf Wsk Wfs _ b (iblk2 V c 0 t) (iblk2 V c 1 t) (iblk2 V c 2 t)
      (by rw [wblk_eq, hw]) _ _ (fun k => xblk_row V c t _ k)
      (fun q => by rw [bblk_eq]; exact (congrFun hb _).trans (biasCast_apply b _ q)) _

/-- An index of the result array is in point t's block iff each coordinate is in the block's range on its axis. -/
theorem mem_blk5 (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v45_2).slice (win2_5.rect t)).set ↔ _
  rw [View.set_slice_whole, Rect.mem_set_unit]
  exact Iff.rfl

/-- Every index of the result array is in the block of the point that holds its row: row r is in block r / 2000. -/
theorem cover5 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 50 := N_2
  refine ⟨⟨(i 0).val / 2000, by rw [hN]; omega⟩, flush2_5 _, ?_⟩
  rw [mem_blk5]
  obtain ⟨e0, e1, e2, e3, e4, e5, e6, e7, e8, e9, e10, e11, e12, e13⟩ := idx_facts ⟨(i 0).val / 2000, by rw [hN]; omega⟩
  intro a
  match a with
  | ⟨0, _⟩ =>
    show win2_5.index _ (0 : Fin 2) * 2000 ≤ (i 0).val ∧ (i 0).val < win2_5.index _ (0 : Fin 2) * 2000 + 2000
    rw [e10]
    show (i 0).val / 2000 * 2000 ≤ (i 0).val ∧ (i 0).val < (i 0).val / 2000 * 2000 + 2000
    omega
  | ⟨1, _⟩ =>
    show win2_5.index _ (1 : Fin 2) * 64 ≤ (i 1).val ∧ (i 1).val < win2_5.index _ (1 : Fin 2) * 64 + 64
    rw [e11]
    omega

/-! ## Result window 6: the self term -/

include hw in
/-- What point t writes back to result window 6 is its block of the specification's term. -/
theorem flushed_skip (t : Fin cfg2.N) :
    (dat2 V c).flushed 6 t = ((cfg2.win 6).blk t).view.read (Elt Ideal) (Cert.Spec.skip (V c (Pipeline.arrRef spec2 0)) Wsk Wfs) := by
  show (cfg2.win 6).cut (grid2.coords t) ((dat2 V c).after 6 t) = _
  rw [after2_6]
  unfold out2_6
  rw [View.canon_unit_zero hz]
  simp only [View.ld_unit_zero (S := S2000x64) hz, View.ld_unit_zero (S := S64x384) hz]
  funext j
  obtain ⟨e0, e1, e2, e3, e4, e5, e6, e7, e8, e9, e10, e11, e12, e13⟩ := idx_facts t
  have hp : (j 0).val < 2000 := (j 0).isLt
  have hq : (j 1).val < 64 := (j 1).isLt
  have ht := t_lt t
  have ein : (win2 6).xinj (grid2.coords t) j = ix2 (⟨(j 0).val, hp⟩ : Fin 2000) (⟨(j 1).val, hq⟩ : Fin 64) :=
    funext fun a => by
      match a with
      | ⟨0, _⟩ => rfl
      | ⟨1, _⟩ => rfl
  have eout : ((cfg2.win 6).blk t).view.emb j
      = ix2 (⟨t.val * 2000 + (j 0).val, by omega⟩ : Fin 100000) (⟨(j 1).val, hq⟩ : Fin 64) := by
    funext a
    apply Fin.ext
    match a with
    | ⟨0, _⟩ => show win2_6.index t (0 : Fin 2) * 2000 + 1 * (j 0).val = t.val * 2000 + (j 0).val; rw [e12]; omega
    | ⟨1, _⟩ => show win2_6.index t (1 : Fin 2) * 64 + 1 * (j 1).val = (j 1).val; rw [e13]; omega
  show k2_pay6 (iblk2 V c 0 t) (iblk2 V c 1 t) ((win2 6).xinj (grid2.coords t) j)
      = (Cert.Spec.skip (V c (Pipeline.arrRef spec2 0)) Wsk Wfs) (((cfg2.win 6).blk t).view.emb j)
  rw [ein, eout, pay6_apply2]
  exact skip_sum (V c (Pipeline.arrRef spec2 0)) Wl Wf Wsk Wfs _ (iblk2 V c 0 t) (iblk2 V c 1 t)
      (by rw [wblk_eq, hw]) _ _ (fun k => xblk_row V c t _ k) _

/-- An index of the result array is in point t's block iff each coordinate is in the block's range on its axis. -/
theorem mem_blk6 (t : Fin cfg2.N) (i : S100000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v45_3).slice (win2_6.rect t)).set ↔ _
  rw [View.set_slice_whole, Rect.mem_set_unit]
  exact Iff.rfl

/-- Every index of the result array is in the block of the point that holds its row: row r is in block r / 2000. -/
theorem cover6 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 50 := N_2
  refine ⟨⟨(i 0).val / 2000, by rw [hN]; omega⟩, flush2_6 _, ?_⟩
  rw [mem_blk6]
  obtain ⟨e0, e1, e2, e3, e4, e5, e6, e7, e8, e9, e10, e11, e12, e13⟩ := idx_facts ⟨(i 0).val / 2000, by rw [hN]; omega⟩
  intro a
  match a with
  | ⟨0, _⟩ =>
    show win2_6.index _ (0 : Fin 2) * 2000 ≤ (i 0).val ∧ (i 0).val < win2_6.index _ (0 : Fin 2) * 2000 + 2000
    rw [e12]
    show (i 0).val / 2000 * 2000 ≤ (i 0).val ∧ (i 0).val < (i 0).val / 2000 * 2000 + 2000
    omega
  | ⟨1, _⟩ =>
    show win2_6.index _ (1 : Fin 2) * 64 ≤ (i 1).val ∧ (i 1).val < win2_6.index _ (1 : Fin 2) * 64 + 64
    rw [e13]
    omega

end Results

end Cert.KernelIdeal.Val.Dense2

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)
  (Wl : Cert.Spec.Fl Ideal Cert.ReferenceIdeal.S64x64) (Wf : Cert.Spec.Fl Ideal Cert.ReferenceIdeal.S64x128)
  (Wsk : Cert.Spec.Fl Ideal Cert.ReferenceIdeal.S64x64) (Wfs : Cert.Spec.Fl Ideal Cert.ReferenceIdeal.S64x128)
  (hw : V c (Pipeline.arrRef spec2 1) = concatenate S64x384 1 [⟨S64x64, Wl⟩, ⟨S64x128, Wf⟩, ⟨S64x64, Wsk⟩, ⟨S64x128, Wfs⟩]
    Facts₀.concatenates_S64x64_S64x128_S64x64_S64x128_S64x384_d1)
  (b : Cert.Spec.Fl Ideal Cert.ReferenceIdeal.S128)
  (hb : V c (Pipeline.arrRef spec2 2) = fun i => shapeCast S1x128 b Facts₀.shapeCasts_S128_S1x128 i)

include hw in
/-- After the region the first result array is x·W_lin of the node array. -/
theorem dense2_h : (dat2 V c).arrAt 3 cfg2.N = Cert.Spec.dot64 (V c (Pipeline.arrRef spec2 0)) Wl :=
  (dat2 V c).arrAt_eq_of_cover 3 _ (fun t _ => Dense2.flushed_h V c Wl Wf Wsk Wfs hw t) Dense2.cover3

include hw hb in
/-- After the region the second result array is β. -/
theorem dense2_beta : (dat2 V c).arrAt 4 cfg2.N = Cert.Spec.beta (V c (Pipeline.arrRef spec2 0)) Wf b :=
  (dat2 V c).arrAt_eq_of_cover 4 _ (fun t _ => Dense2.flushed_beta V c Wl Wf Wsk Wfs hw b hb t) Dense2.cover4

include hw hb in
/-- After the region the third result array is γ. -/
theorem dense2_gamma : (dat2 V c).arrAt 5 cfg2.N = Cert.Spec.gamma (V c (Pipeline.arrRef spec2 0)) Wf b :=
  (dat2 V c).arrAt_eq_of_cover 5 _ (fun t _ => Dense2.flushed_gamma V c Wl Wf Wsk Wfs hw b hb t) Dense2.cover5

include hw in
/-- After the region the fourth result array is the self term. -/
theorem dense2_skip : (dat2 V c).arrAt 6 cfg2.N = Cert.Spec.skip (V c (Pipeline.arrRef spec2 0)) Wsk Wfs :=
  (dat2 V c).arrAt_eq_of_cover 6 _ (fun t _ => Dense2.flushed_skip V c Wl Wf Wsk Wfs hw t) Dense2.cover6

end Cert.KernelIdeal.Val

end
-- ==== Proof.Val.Mix1.lean ====
/-
  The FiLM message region read as one whole-array term: the region's output array, after all its edge blocks are
  written back, is relu(γ·h + β) of the three gathered edge arrays, element by element.  Every block of 4000 edges
  computes the same pointwise expression of the three input blocks at the same rows, the blocks tile the 1600000
  edges, so the array is the pointwise expression of the whole arrays.
-/
import proofs.«143908_j58153857188396_1_alg».proof.Proof.KI.Data1
import proofs.«143908_j58153857188396_1_alg».proof.Proof.Val.Spec
import Idealize.ShloMosaic.Lib.Pipeline.Value
import Idealize.ShloMosaic.Lib.ValueIdx

set_option maxRecDepth 16384

noncomputable section

namespace Cert.KernelIdeal.Val.Mix1

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## One element of a block, one element of the whole-array term -/

/-- The body's accesses start at row 0, column 0 of the staging buffers. -/
theorem zeroOffsets : (![0, 0] : Fin 2 → Nat) = fun _ => 0 := funext fun a => by fin_cases a <;> rfl

/-- The block computation at row `p`, column `q`: max(g·h + b, 0), `g` the scales, `h` the messages, `b` the shifts. -/
theorem pay_ix (g h b : Vec Ideal S4000x64 .f32) (p : Fin 4000) (q : Fin 64) :
    k1_pay1 (F := Ideal) g h b (ix2 p q)
      = max (g (ix2 p q) * h (ix2 p q) + b (ix2 p q)) (Ideal.ofBits .f32 0x00000000#32) := by
  unfold k1_pay1
  simp only [shapeCast_self]
  rfl

/-- The same at any element of the block. -/
theorem pay_apply (g h b : Vec Ideal S4000x64 .f32) (j : S4000x64.Idx) :
    k1_pay1 (F := Ideal) g h b j = max (g j * h j + b j) (Ideal.ofBits .f32 0x00000000#32) := by
  rw [eq_ix2 j]; exact pay_ix g h b (j 0) (j 1)

/-- The whole-array message term at edge `r`, column `q`. -/
theorem msg_ix (g h b : Cert.Spec.Fl Ideal Cert.ReferenceIdeal.S1600000x64) (r : Fin 1600000) (q : Fin 64) :
    Cert.Spec.msg g h b (ix2 r q)
      = max (g (ix2 r q) * h (ix2 r q) + b (ix2 r q)) (Ideal.ofBits .f32 0x00000000#32) := by
  unfold Cert.Spec.msg Cert.Spec.reluE
  rw [maximumf_apply, addf_apply, mulf_apply,
    broadcastInDim_apply _ _ _ (ix2 r q) ix0 (fun a => a.elim0), constant_apply]

/-- The same at any element of the array. -/
theorem msg_apply (g h b : Cert.Spec.Fl Ideal Cert.ReferenceIdeal.S1600000x64) (i : Cert.ReferenceIdeal.S1600000x64.Idx) :
    Cert.Spec.msg g h b i = max (g i * h i + b i) (Ideal.ofBits .f32 0x00000000#32) := by
  rw [eq_ix2 i]; exact msg_ix g h b (i 0) (i 1)

/-! ## From the blocks to the array -/

/-- The printed index maps over the grid: the three input windows move with the output window, whose block at point
    `t` is row block `t`, column block 0. -/
theorem blockIdx : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2)
    ∧ win1_2.index t (0 : Fin 2) = win1_3.index t (0 : Fin 2) ∧ win1_2.index t (1 : Fin 2) = win1_3.index t (1 : Fin 2)
    ∧ win1_3.index t (0 : Fin 2) = t.val ∧ win1_3.index t (1 : Fin 2) = 0 :=
  (by decide +kernel : ∀ t : Fin grid1.N, _)

/-- An element of the messages' block sits in its array where the output block's element sits in the output array:
    a block's coordinate is block index × block size + the coordinate inside the block. -/
theorem emb0 (t : Fin cfg1.N) (j : S4000x64.Idx) :
    ((cfg1.win 0).blk t).view.emb j = ((cfg1.win 3).blk t).view.emb j := by
  obtain ⟨e0, e1, -, -, -, -, -, -⟩ := blockIdx t
  funext a; apply Fin.ext
  match a with
  | ⟨0, _⟩ => show win1_0.index t (0 : Fin 2) * 4000 + 1 * (j 0).val = win1_3.index t (0 : Fin 2) * 4000 + 1 * (j 0).val; omega
  | ⟨1, _⟩ => show win1_0.index t (1 : Fin 2) * 64 + 1 * (j 1).val = win1_3.index t (1 : Fin 2) * 64 + 1 * (j 1).val; omega

/-- The same for the shifts' block. -/
theorem emb1 (t : Fin cfg1.N) (j : S4000x64.Idx) :
    ((cfg1.win 1).blk t).view.emb j = ((cfg1.win 3).blk t).view.emb j := by
  obtain ⟨-, -, e0, e1, -, -, -, -⟩ := blockIdx t
  funext a; apply Fin.ext
  match a with
  | ⟨0, _⟩ => show win1_1.index t (0 : Fin 2) * 4000 + 1 * (j 0).val = win1_3.index t (0 : Fin 2) * 4000 + 1 * (j 0).val; omega
  | ⟨1, _⟩ => show win1_1.index t (1 : Fin 2) * 64 + 1 * (j 1).val = win1_3.index t (1 : Fin 2) * 64 + 1 * (j 1).val; omega

/-- The same for the scales' block. -/
theorem emb2 (t : Fin cfg1.N) (j : S4000x64.Idx) :
    ((cfg1.win 2).blk t).view.emb j = ((cfg1.win 3).blk t).view.emb j := by
  obtain ⟨-, -, -, -, e0, e1, -, -⟩ := blockIdx t
  funext a; apply Fin.ext
  match a with
  | ⟨0, _⟩ => show win1_2.index t (0 : Fin 2) * 4000 + 1 * (j 0).val = win1_3.index t (0 : Fin 2) * 4000 + 1 * (j 0).val; omega
  | ⟨1, _⟩ => show win1_2.index t (1 : Fin 2) * 64 + 1 * (j 1).val = win1_3.index t (1 : Fin 2) * 64 + 1 * (j 1).val; omega

/-- So the messages' block at point `t` reads the messages' array at the output block's rows … -/
theorem in0 (c : Dev nD) (t : Fin cfg1.N) (j : S4000x64.Idx) :
    iblk1 V c 0 t j = (V c (Pipeline.arrRef spec1 0) : S1600000x64.Idx → EReal) (((cfg1.win 3).blk t).view.emb j) :=
  congrArg (V c (Pipeline.arrRef spec1 0) : S1600000x64.Idx → EReal) (emb0 t j)

/-- … the shifts' block the shifts' array … -/
theorem in1 (c : Dev nD) (t : Fin cfg1.N) (j : S4000x64.Idx) :
    iblk1 V c 1 t j = (V c (Pipeline.arrRef spec1 1) : S1600000x64.Idx → EReal) (((cfg1.win 3).blk t).view.emb j) :=
  congrArg (V c (Pipeline.arrRef spec1 1) : S1600000x64.Idx → EReal) (emb1 t j)

/-- … and the scales' block the scales' array. -/
theorem in2 (c : Dev nD) (t : Fin cfg1.N) (j : S4000x64.Idx) :
    iblk1 V c 2 t j = (V c (Pipeline.arrRef spec1 2) : S1600000x64.Idx → EReal) (((cfg1.win 3).blk t).view.emb j) :=
  congrArg (V c (Pipeline.arrRef spec1 2) : S1600000x64.Idx → EReal) (emb2 t j)

/-- What point `t` writes back is block `t` of the whole-array message term of the arrays the region finds. -/
theorem flushed_eq (c : Dev nD) (t : Fin cfg1.N) :
    (dat1 (F := Ideal) V c).flushed 3 t = ((cfg1.win 3).blk t).view.read (Elt Ideal)
      (Cert.Spec.msg (V c (Pipeline.arrRef spec1 2)) (V c (Pipeline.arrRef spec1 0)) (V c (Pipeline.arrRef spec1 1))) := by
  show (cfg1.win 3).cut (grid1.coords t) ((dat1 V c).after 3 t) = _
  rw [after1_3]
  unfold out1_3
  rw [View.canon_unit_zero zeroOffsets]
  simp only [View.ld_unit_zero (S := S4000x64) zeroOffsets]
  funext j
  refine (pay_apply (iblk1 V c 2 t) (iblk1 V c 0 t) (iblk1 V c 1 t) j).trans ?_
  rw [in0 V c t j, in1 V c t j, in2 V c t j]
  exact (msg_apply _ _ _ _).symm

/-- An edge-array index is in point `t`'s block iff each coordinate is in the block's range on its axis. -/
theorem mem_blk (t : Fin cfg1.N) (i : S1600000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v28).slice (win1_3.rect t)).set ↔ _
  rw [View.set_slice_whole, Rect.mem_set_unit]
  exact Iff.rfl

/-- Every edge row is in some point's block: row `r` in the block of point `r / 4000`. -/
theorem cover (i : S1600000x64.Idx) :
    ∃ t : Fin cfg1.N, (cfg1.win 3).flush t = true ∧ i ∈ ((cfg1.win 3).blk t).view.set := by
  have hi0 : (i 0).val < 1600000 := (i 0).isLt
  have hi1 : (i 1).val < 64 := (i 1).isLt
  have hN : cfg1.N = 400 := N_1
  have ht : (i 0).val / 4000 < cfg1.N := by rw [hN]; omega
  obtain ⟨-, -, -, -, -, -, e0, e1⟩ := blockIdx ⟨(i 0).val / 4000, ht⟩
  have e0' : win1_3.index ⟨(i 0).val / 4000, ht⟩ (0 : Fin 2) = (i 0).val / 4000 := e0
  refine ⟨⟨(i 0).val / 4000, ht⟩, flush1_3 _, ?_⟩
  rw [mem_blk]
  intro a
  match a with
  | ⟨0, _⟩ => show win1_3.index ⟨(i 0).val / 4000, ht⟩ (0 : Fin 2) * 4000 ≤ (i 0).val ∧ (i 0).val < win1_3.index ⟨(i 0).val / 4000, ht⟩ (0 : Fin 2) * 4000 + 4000; omega
  | ⟨1, _⟩ => show win1_3.index ⟨(i 0).val / 4000, ht⟩ (1 : Fin 2) * 64 ≤ (i 1).val ∧ (i 1).val < win1_3.index ⟨(i 0).val / 4000, ht⟩ (1 : Fin 2) * 64 + 64; omega

end Cert.KernelIdeal.Val.Mix1

namespace Cert.KernelIdeal.Val

open Cert.KernelIdeal Cert.KernelIdeal.Gen Cert.KernelIdeal.Hand
open Idealize.ShloMosaic Idealize.ShloMosaic.TcCoe Idealize.SL.Sem

/-- THE MESSAGE REGION'S OUTPUT ARRAY after the region: relu(γ·h + β) of the three gathered edge arrays the region
    finds (window 2 the scales γ, window 0 the messages h, window 1 the shifts β). -/
theorem mix1 (V : (c : Dev nD) → (b : Ref sig .tc) → Buf (Elt Ideal) ((c : Thread nD τ).loc b)) (c : Dev nD) :
    (Cert.KernelIdeal.Hand.dat1 (F := Ideal) V c).arrAt 3 cfg1.N
      = Cert.Spec.msg (V c (Pipeline.arrRef spec1 2)) (V c (Pipeline.arrRef spec1 0)) (V c (Pipeline.arrRef spec1 1)) :=
  (dat1 V c).arrAt_eq_of_cover 3 _ (fun t _ => Mix1.flushed_eq V c t) Mix1.cover

end Cert.KernelIdeal.Val

end
-- ==== Proof.Val.Mix3.lean ====
/-
  The FiLM message region read as one whole-array term: the region's output array, after all its edge blocks are
  written back, is relu(γ·h + β) of the three gathered edge arrays, element by element.  Every block of 4000 edges
  computes the same pointwise expression of the three input blocks at the same rows, the blocks tile the 1600000
  edges, so the array is the pointwise expression of the whole arrays.
-/
import proofs.«143908_j58153857188396_1_alg».proof.Proof.KI.Data3
import proofs.«143908_j58153857188396_1_alg».proof.Proof.Val.Spec
import Idealize.ShloMosaic.Lib.Pipeline.Value
import Idealize.ShloMosaic.Lib.ValueIdx

set_option maxRecDepth 16384

noncomputable section

namespace Cert.KernelIdeal.Val.Mix3

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## One element of a block, one element of the whole-array term -/

/-- The body's accesses start at row 0, column 0 of the staging buffers. -/
theorem zeroOffsets : (![0, 0] : Fin 2 → Nat) = fun _ => 0 := funext fun a => by fin_cases a <;> rfl

/-- The block computation at row `p`, column `q`: max(g·h + b, 0), `g` the scales, `h` the messages, `b` the shifts. -/
theorem pay_ix (g h b : Vec Ideal S4000x64 .f32) (p : Fin 4000) (q : Fin 64) :
    k3_pay1 (F := Ideal) g h b (ix2 p q)
      = max (g (ix2 p q) * h (ix2 p q) + b (ix2 p q)) (Ideal.ofBits .f32 0x00000000#32) := by
  unfold k3_pay1
  simp only [shapeCast_self]
  rfl

/-- The same at any element of the block. -/
theorem pay_apply (g h b : Vec Ideal S4000x64 .f32) (j : S4000x64.Idx) :
    k3_pay1 (F := Ideal) g h b j = max (g j * h j + b j) (Ideal.ofBits .f32 0x00000000#32) := by
  rw [eq_ix2 j]; exact pay_ix g h b (j 0) (j 1)

/-- The whole-array message term at edge `r`, column `q`. -/
theorem msg_ix (g h b : Cert.Spec.Fl Ideal Cert.ReferenceIdeal.S1600000x64) (r : Fin 1600000) (q : Fin 64) :
    Cert.Spec.msg g h b (ix2 r q)
      = max (g (ix2 r q) * h (ix2 r q) + b (ix2 r q)) (Ideal.ofBits .f32 0x00000000#32) := by
  unfold Cert.Spec.msg Cert.Spec.reluE
  rw [maximumf_apply, addf_apply, mulf_apply,
    broadcastInDim_apply _ _ _ (ix2 r q) ix0 (fun a => a.elim0), constant_apply]

/-- The same at any element of the array. -/
theorem msg_apply (g h b : Cert.Spec.Fl Ideal Cert.ReferenceIdeal.S1600000x64) (i : Cert.ReferenceIdeal.S1600000x64.Idx) :
    Cert.Spec.msg g h b i = max (g i * h i + b i) (Ideal.ofBits .f32 0x00000000#32) := by
  rw [eq_ix2 i]; exact msg_ix g h b (i 0) (i 1)

/-! ## From the blocks to the array -/

/-- The printed index maps over the grid: the three input windows move with the output window, whose block at point
    `t` is row block `t`, column block 0. -/
theorem blockIdx : ∀ t : Fin cfg3.N,
    win3_0.index t (0 : Fin 2) = win3_3.index t (0 : Fin 2) ∧ win3_0.index t (1 : Fin 2) = win3_3.index t (1 : Fin 2)
    ∧ win3_1.index t (0 : Fin 2) = win3_3.index t (0 : Fin 2) ∧ win3_1.index t (1 : Fin 2) = win3_3.index t (1 : Fin 2)
    ∧ win3_2.index t (0 : Fin 2) = win3_3.index t (0 : Fin 2) ∧ win3_2.index t (1 : Fin 2) = win3_3.index t (1 : Fin 2)
    ∧ win3_3.index t (0 : Fin 2) = t.val ∧ win3_3.index t (1 : Fin 2) = 0 :=
  (by decide +kernel : ∀ t : Fin grid3.N, _)

/-- An element of the messages' block sits in its array where the output block's element sits in the output array:
    a block's coordinate is block index × block size + the coordinate inside the block. -/
theorem emb0 (t : Fin cfg3.N) (j : S4000x64.Idx) :
    ((cfg3.win 0).blk t).view.emb j = ((cfg3.win 3).blk t).view.emb j := by
  obtain ⟨e0, e1, -, -, -, -, -, -⟩ := blockIdx t
  funext a; apply Fin.ext
  match a with
  | ⟨0, _⟩ => show win3_0.index t (0 : Fin 2) * 4000 + 1 * (j 0).val = win3_3.index t (0 : Fin 2) * 4000 + 1 * (j 0).val; omega
  | ⟨1, _⟩ => show win3_0.index t (1 : Fin 2) * 64 + 1 * (j 1).val = win3_3.index t (1 : Fin 2) * 64 + 1 * (j 1).val; omega

/-- The same for the shifts' block. -/
theorem emb1 (t : Fin cfg3.N) (j : S4000x64.Idx) :
    ((cfg3.win 1).blk t).view.emb j = ((cfg3.win 3).blk t).view.emb j := by
  obtain ⟨-, -, e0, e1, -, -, -, -⟩ := blockIdx t
  funext a; apply Fin.ext
  match a with
  | ⟨0, _⟩ => show win3_1.index t (0 : Fin 2) * 4000 + 1 * (j 0).val = win3_3.index t (0 : Fin 2) * 4000 + 1 * (j 0).val; omega
  | ⟨1, _⟩ => show win3_1.index t (1 : Fin 2) * 64 + 1 * (j 1).val = win3_3.index t (1 : Fin 2) * 64 + 1 * (j 1).val; omega

/-- The same for the scales' block. -/
theorem emb2 (t : Fin cfg3.N) (j : S4000x64.Idx) :
    ((cfg3.win 2).blk t).view.emb j = ((cfg3.win 3).blk t).view.emb j := by
  obtain ⟨-, -, -, -, e0, e1, -, -⟩ := blockIdx t
  funext a; apply Fin.ext
  match a with
  | ⟨0, _⟩ => show win3_2.index t (0 : Fin 2) * 4000 + 1 * (j 0).val = win3_3.index t (0 : Fin 2) * 4000 + 1 * (j 0).val; omega
  | ⟨1, _⟩ => show win3_2.index t (1 : Fin 2) * 64 + 1 * (j 1).val = win3_3.index t (1 : Fin 2) * 64 + 1 * (j 1).val; omega

/-- So the messages' block at point `t` reads the messages' array at the output block's rows … -/
theorem in0 (c : Dev nD) (t : Fin cfg3.N) (j : S4000x64.Idx) :
    iblk3 V c 0 t j = (V c (Pipeline.arrRef spec3 0) : S1600000x64.Idx → EReal) (((cfg3.win 3).blk t).view.emb j) :=
  congrArg (V c (Pipeline.arrRef spec3 0) : S1600000x64.Idx → EReal) (emb0 t j)

/-- … the shifts' block the shifts' array … -/
theorem in1 (c : Dev nD) (t : Fin cfg3.N) (j : S4000x64.Idx) :
    iblk3 V c 1 t j = (V c (Pipeline.arrRef spec3 1) : S1600000x64.Idx → EReal) (((cfg3.win 3).blk t).view.emb j) :=
  congrArg (V c (Pipeline.arrRef spec3 1) : S1600000x64.Idx → EReal) (emb1 t j)

/-- … and the scales' block the scales' array. -/
theorem in2 (c : Dev nD) (t : Fin cfg3.N) (j : S4000x64.Idx) :
    iblk3 V c 2 t j = (V c (Pipeline.arrRef spec3 2) : S1600000x64.Idx → EReal) (((cfg3.win 3).blk t).view.emb j) :=
  congrArg (V c (Pipeline.arrRef spec3 2) : S1600000x64.Idx → EReal) (emb2 t j)

/-- What point `t` writes back is block `t` of the whole-array message term of the arrays the region finds. -/
theorem flushed_eq (c : Dev nD) (t : Fin cfg3.N) :
    (dat3 (F := Ideal) V c).flushed 3 t = ((cfg3.win 3).blk t).view.read (Elt Ideal)
      (Cert.Spec.msg (V c (Pipeline.arrRef spec3 2)) (V c (Pipeline.arrRef spec3 0)) (V c (Pipeline.arrRef spec3 1))) := by
  show (cfg3.win 3).cut (grid3.coords t) ((dat3 V c).after 3 t) = _
  rw [after3_3]
  unfold out3_3
  rw [View.canon_unit_zero zeroOffsets]
  simp only [View.ld_unit_zero (S := S4000x64) zeroOffsets]
  funext j
  refine (pay_apply (iblk3 V c 2 t) (iblk3 V c 0 t) (iblk3 V c 1 t) j).trans ?_
  rw [in0 V c t j, in1 V c t j, in2 V c t j]
  exact (msg_apply _ _ _ _).symm

/-- An edge-array index is in point `t`'s block iff each coordinate is in the block's range on its axis. -/
theorem mem_blk (t : Fin cfg3.N) (i : S1600000x64.Idx) :
    i ∈ ((cfg3.win 3).blk t).view.set ↔ ∀ a : Fin 2, win3_3.index t a * S4000x64.size a ≤ (i a).val ∧ (i a).val < win3_3.index t a * S4000x64.size a + S4000x64.size a := by
  show i ∈ ((View.whole main_v67).slice (win3_3.rect t)).set ↔ _
  rw [View.set_slice_whole, Rect.mem_set_unit]
  exact Iff.rfl

/-- Every edge row is in some point's block: row `r` in the block of point `r / 4000`. -/
theorem cover (i : S1600000x64.Idx) :
    ∃ t : Fin cfg3.N, (cfg3.win 3).flush t = true ∧ i ∈ ((cfg3.win 3).blk t).view.set := by
  have hi0 : (i 0).val < 1600000 := (i 0).isLt
  have hi1 : (i 1).val < 64 := (i 1).isLt
  have hN : cfg3.N = 400 := N_3
  have ht : (i 0).val / 4000 < cfg3.N := by rw [hN]; omega
  obtain ⟨-, -, -, -, -, -, e0, e1⟩ := blockIdx ⟨(i 0).val / 4000, ht⟩
  have e0' : win3_3.index ⟨(i 0).val / 4000, ht⟩ (0 : Fin 2) = (i 0).val / 4000 := e0
  refine ⟨⟨(i 0).val / 4000, ht⟩, flush3_3 _, ?_⟩
  rw [mem_blk]
  intro a
  match a with
  | ⟨0, _⟩ => show win3_3.index ⟨(i 0).val / 4000, ht⟩ (0 : Fin 2) * 4000 ≤ (i 0).val ∧ (i 0).val < win3_3.index ⟨(i 0).val / 4000, ht⟩ (0 : Fin 2) * 4000 + 4000; omega
  | ⟨1, _⟩ => show win3_3.index ⟨(i 0).val / 4000, ht⟩ (1 : Fin 2) * 64 ≤ (i 1).val ∧ (i 1).val < win3_3.index ⟨(i 0).val / 4000, ht⟩ (1 : Fin 2) * 64 + 64; omega

end Cert.KernelIdeal.Val.Mix3

namespace Cert.KernelIdeal.Val

open Cert.KernelIdeal Cert.KernelIdeal.Gen Cert.KernelIdeal.Hand
open Idealize.ShloMosaic Idealize.ShloMosaic.TcCoe Idealize.SL.Sem

/-- THE MESSAGE REGION'S OUTPUT ARRAY after the region: relu(γ·h + β) of the three gathered edge arrays the region
    finds (window 2 the scales γ, window 0 the messages h, window 1 the shifts β). -/
theorem mix3 (V : (c : Dev nD) → (b : Ref sig .tc) → Buf (Elt Ideal) ((c : Thread nD τ).loc b)) (c : Dev nD) :
    (Cert.KernelIdeal.Hand.dat3 (F := Ideal) V c).arrAt 3 cfg3.N
      = Cert.Spec.msg (V c (Pipeline.arrRef spec3 2)) (V c (Pipeline.arrRef spec3 0)) (V c (Pipeline.arrRef spec3 1)) :=
  (dat3 V c).arrAt_eq_of_cover 3 _ (fun t _ => Mix3.flushed_eq V c t) Mix3.cover

end Cert.KernelIdeal.Val

end
-- ==== Proof.Val.Head4.lean ====
/-
  The output head read as one whole-array term.  Each grid point takes a block of 2000 node rows x, the 64×1 weight
  column W and the one bias entry b, and stores x·W + b: entry (p, 0) is the sum over the 64 features of
  x[p, k] · W[k, 0], onto a zero accumulator, plus b.  The specification's head at row r is the same sum over the same
  64 features plus the same entry.  The 50 blocks tile the 100000 rows (row r lies in block r / 2000), so the output
  array after the region is the specification's head of the region's input arrays.
-/
import proofs.«143908_j58153857188396_1_alg».proof.Proof.KI.Data4
import proofs.«143908_j58153857188396_1_alg».proof.Proof.Val.Spec
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.Val.Head

open Idealize.ShloMosaic Idealize.ShloMosaic.ValueIdx
open scoped BigOperators

/-! ## The head's stored value at an index -/

section PayloadSide
open Cert.KernelIdeal Cert.KernelIdeal.Gen

/-- Entry (p, q) of what the body stores: the sum over the 64 features of x0[p, k] · W[k, q], with nothing
    added to it but the one bias entry. -/
theorem pay_apply (x0 : Vec Ideal S2000x64 .f32) (W : Vec Ideal S64x1 .f32) (b0 : Vec Ideal S1x1 .f32) (p : Fin 2000) (q : Fin 1) :
    k4_pay1 x0 W b0 (ix2 p q) = (∑ k : Fin 64, x0 (ix2 p k) * W (ix2 k q)) + b0 (ix2 (0 : Fin 1) (0 : Fin 1)) := by
  unfold k4_pay1
  rw [addf_apply]
  rw [broadcastTo_apply _ _ (ix2 p q) (ix2 (0 : Fin 1) (0 : Fin 1)) (fun a => by
    match a with
    | ⟨0, _⟩ => rfl
    | ⟨1, _⟩ => rfl)]
  simp only [shapeCast_self]
  congr 1
  simp only [matmul]
  rw [Ideal.matmul_constant_zero_apply]
  rw [← Equiv.sum_comp (contrEquiv1 dot_S2000x64_S64x1_S2000x1_1_0_0_1_n_n 64 rfl rfl).symm]
  refine Finset.sum_congr rfl fun k _ => ?_
  have hl : dot_S2000x64_S64x1_S2000x1_1_0_0_1_n_n.lhsIdx (ix2 p q) ((contrEquiv1 dot_S2000x64_S64x1_S2000x1_1_0_0_1_n_n 64 rfl rfl).symm k) = ix2 p k := by
    funext a; apply Fin.ext
    match a with
    | ⟨0, _⟩ => rfl
    | ⟨1, _⟩ =>
      exact (DotDims.lhsIdx_val_of_single _ (cl := (1 : Fin 2)) rfl _ _).trans
        (contrEquiv1_symm_val dot_S2000x64_S64x1_S2000x1_1_0_0_1_n_n 64 rfl rfl k)
  have hr : dot_S2000x64_S64x1_S2000x1_1_0_0_1_n_n.rhsIdx (ix2 p q) ((contrEquiv1 dot_S2000x64_S64x1_S2000x1_1_0_0_1_n_n 64 rfl rfl).symm k) = ix2 k q := by
    funext a; apply Fin.ext
    match a with
    | ⟨0, _⟩ =>
      exact (DotDims.rhsIdx_val_of_single _ (cr := (0 : Fin 2)) rfl _ _).trans
        (contrEquiv1_symm_val dot_S2000x64_S64x1_S2000x1_1_0_0_1_n_n 64 rfl rfl k)
    | ⟨1, _⟩ => rfl
  rw [hl, hr, truncf_apply, truncf_apply]

end PayloadSide

/-! ## The specification's head at an index -/

section SpecSide
open Cert.ReferenceIdeal Cert.ReferenceIdeal.Gen

/-- (h·W_out)[r, q]: the sum over the 64 features. -/
theorem dotOut_apply (x : Cert.Spec.Fl Ideal S100000x64) (W : Cert.Spec.Fl Ideal S64x1) (r : Fin 100000) (q : Fin 1) :
    Host.dotGeneral (F := Ideal) (φ₁ := .f32) (φ₂ := .f32) dot_S100000x64_S64x1_S100000x1_1_0_0_1_n_n none x W (ix2 r q) = ∑ k : Fin 64, x (ix2 r k) * W (ix2 k q) := by
  simp only [Host.dotGeneral]
  rw [Ideal.dotGeneral_apply]
  rw [← Equiv.sum_comp (contrEquiv1 dot_S100000x64_S64x1_S100000x1_1_0_0_1_n_n 64 rfl rfl).symm]
  refine Finset.sum_congr rfl fun k _ => ?_
  have hl : dot_S100000x64_S64x1_S100000x1_1_0_0_1_n_n.lhsIdx (ix2 r q) ((contrEquiv1 dot_S100000x64_S64x1_S100000x1_1_0_0_1_n_n 64 rfl rfl).symm k) = ix2 r k := by
    funext a; apply Fin.ext
    match a with
    | ⟨0, _⟩ => rfl
    | ⟨1, _⟩ =>
      exact (DotDims.lhsIdx_val_of_single _ (cl := (1 : Fin 2)) rfl _ _).trans
        (contrEquiv1_symm_val dot_S100000x64_S64x1_S100000x1_1_0_0_1_n_n 64 rfl rfl k)
  have hr : dot_S100000x64_S64x1_S100000x1_1_0_0_1_n_n.rhsIdx (ix2 r q) ((contrEquiv1 dot_S100000x64_S64x1_S100000x1_1_0_0_1_n_n 64 rfl rfl).symm k) = ix2 k q := by
    funext a; apply Fin.ext
    match a with
    | ⟨0, _⟩ =>
      exact (DotDims.rhsIdx_val_of_single _ (cr := (0 : Fin 2)) rfl _ _).trans
        (contrEquiv1_symm_val dot_S100000x64_S64x1_S100000x1_1_0_0_1_n_n 64 rfl rfl k)
    | ⟨1, _⟩ => rfl
  rw [hl, hr]

/-- The head's entry (r, q): (h·W_out)[r, q] plus the one bias entry. -/
theorem head_apply (h : Cert.Spec.Fl Ideal S100000x64) (Wo : Cert.Spec.Fl Ideal S64x1) (bo : Cert.Spec.Fl Ideal S1)
    (r : Fin 100000) (q : Fin 1) :
    Cert.Spec.head h Wo bo (ix2 r q) = (∑ k : Fin 64, h (ix2 r k) * Wo (ix2 k q)) + bo (ix1 (0 : Fin 1)) := by
  unfold Cert.Spec.head
  rw [addf_apply, dotOut_apply, broadcastInDim_oneRow_apply]
  congr 1
  exact broadcastInDim_apply ![1] _ bo (ix2 (0 : Fin 1) q) (ix1 (0 : Fin 1)) (fun a => by
    match a with
    | ⟨0, _⟩ => rfl)

end SpecSide

/-! ## From the blocks to the array -/

section Blocks
open Cert.KernelIdeal Cert.KernelIdeal.Gen Cert.KernelIdeal.Hand Idealize.ShloMosaic.TcCoe Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps, decided over the 50 grid points: the node block moves with the output block down the
    rows, the weights and the bias stay whole, and the output has one block per 2000 rows. -/
theorem idx_facts : ∀ t : Fin cfg4.N,
    win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) ≤ 49 ∧ win4_3.index t (1 : Fin 2) = 0 :=
  (by decide +kernel : ∀ t : Fin grid4.N, _)

/-- Every row block is SOME point's. -/
theorem idx_onto : ∀ (q0 : Fin 50), ∃ t : Fin cfg4.N, win4_3.index t = ![q0.val, 0] :=
  (by decide +kernel : ∀ (q0 : Fin 50), ∃ t : Fin grid4.N, win4_3.index t = ![q0.val, 0])

/-- The bias as the region finds it, a one-entry vector recast as a 1×1 array: its entry is the vector's. -/
theorem biasCast_apply {α : Type} (b : S1.Idx → α) (h : S1.ShapeCasts S1x1) :
    shapeCast S1x1 b h (ix2 (0 : Fin 1) (0 : Fin 1)) = b (ix1 (0 : Fin 1)) :=
  shapeCast_apply b h (ix2 (0 : Fin 1) (0 : Fin 1)) (ix1 (0 : Fin 1)) (by
    rw [Shape.rowMajor_val_two, Shape.rowMajor_val_one]; rfl)

/-- WHAT POINT `t` WRITES BACK is block `t` of the head of the node array, the weights and the bias as the region
    finds them. -/
theorem flushed_eq (c : Dev nD) (bo : Cert.Spec.Fl Ideal Cert.ReferenceIdeal.S1)
    (hb : V c (Pipeline.arrRef spec4 2) = fun i => shapeCast S1x1 bo shapeCasts_S1_S1x1 i) (t : Fin cfg4.N) :
    (dat4 (F := Ideal) V c).flushed 3 t
      = ((cfg4.win 3).blk t).view.read (Elt Ideal)
          (Cert.Spec.head (V c (Pipeline.arrRef spec4 0)) (V c (Pipeline.arrRef spec4 1)) bo) := by
  show (cfg4.win 3).cut (grid4.coords t) ((dat4 (F := Ideal) V c).after 3 t) = _
  rw [after4_3]
  unfold out4_3
  rw [View.canon_unit_zero zero_off]
  simp only [View.ld_unit_zero (S := S2000x64) zero_off, View.ld_unit_zero (S := S64x1) zero_off, View.ld_unit_zero (S := S1x1) zero_off]
  obtain ⟨e0, e1, e2, e3, e4, e5, e6, e7⟩ := idx_facts t
  funext j
  obtain ⟨p, q, rfl⟩ : ∃ (p : Fin 2000) (q : Fin 1), j = ix2 p q := ⟨j 0, j 1, eq_ix2 j⟩
  show k4_pay1 (iblk4 V c 0 t) (iblk4 V c 1 t) (iblk4 V c 2 t) (ix2 p q)
      = Cert.Spec.head (V c (Pipeline.arrRef spec4 0)) (V c (Pipeline.arrRef spec4 1)) bo (((cfg4.win 3).blk t).view.emb (ix2 p q))
  have hemb : ((cfg4.win 3).blk t).view.emb (ix2 p q)
      = ix2 (⟨win4_3.index t (0 : Fin 2) * 2000 + p.val, by have := p.isLt; omega⟩ : Fin 100000) (0 : Fin 1) := by
    funext a; apply Fin.ext
    match a with
    | ⟨0, _⟩ => show win4_3.index t (0 : Fin 2) * 2000 + 1 * p.val = win4_3.index t (0 : Fin 2) * 2000 + p.val; omega
    | ⟨1, _⟩ => show win4_3.index t (1 : Fin 2) * 1 + 1 * q.val = 0; have := q.isLt; omega
  rw [hemb, pay_apply, head_apply]
  congr 1
  · refine Finset.sum_congr rfl fun k _ => ?_
    congr 1
    · show V c (Pipeline.arrRef spec4 0) (((cfg4.win 0).blk t).view.emb (ix2 p k)) = V c (Pipeline.arrRef spec4 0) (ix2 _ k)
      refine congrArg _ (funext fun a => Fin.ext ?_)
      match a with
      | ⟨0, _⟩ => show win4_0.index t (0 : Fin 2) * 2000 + 1 * p.val = win4_3.index t (0 : Fin 2) * 2000 + p.val; omega
      | ⟨1, _⟩ => show win4_0.index t (1 : Fin 2) * 64 + 1 * k.val = k.val; omega
    · show V c (Pipeline.arrRef spec4 1) (((cfg4.win 1).blk t).view.emb (ix2 k q)) = V c (Pipeline.arrRef spec4 1) (ix2 k (0 : Fin 1))
      refine congrArg _ (funext fun a => Fin.ext ?_)
      match a with
      | ⟨0, _⟩ => show win4_1.index t (0 : Fin 2) * 64 + 1 * k.val = k.val; omega
      | ⟨1, _⟩ => show win4_1.index t (1 : Fin 2) * 1 + 1 * q.val = 0; have := q.isLt; omega
  · show V c (Pipeline.arrRef spec4 2) (((cfg4.win 2).blk t).view.emb (ix2 (0 : Fin 1) (0 : Fin 1))) = bo (ix1 (0 : Fin 1))
    rw [hb]
    have hemb2 : ((cfg4.win 2).blk t).view.emb (ix2 (0 : Fin 1) (0 : Fin 1)) = ix2 (0 : Fin 1) (0 : Fin 1) := by
      funext a; apply Fin.ext
      match a with
      | ⟨0, _⟩ => show win4_2.index t (0 : Fin 2) * 1 + 1 * 0 = 0; omega
      | ⟨1, _⟩ => show win4_2.index t (1 : Fin 2) * 1 + 1 * 0 = 0; omega
    rw [hemb2]
    exact biasCast_apply bo _

/-- An index of the array is in point `t`'s block iff each coordinate is in the block's range on its axis. -/
theorem mem_blk (t : Fin cfg4.N) (i : S100000x1.Idx) :
    i ∈ ((cfg4.win 3).blk t).view.set ↔ ∀ a : Fin 2, win4_3.index t a * S2000x1.size a ≤ (i a).val ∧ (i a).val < win4_3.index t a * S2000x1.size a + S2000x1.size a := by
  show i ∈ ((View.whole main_v83).slice (win4_3.rect t)).set ↔ _
  rw [View.set_slice_whole, Rect.mem_set_unit]
  exact Iff.rfl

/-- Every row of the output is in the block of the point of its row block: row r in block r / 2000. -/
theorem cover (i : S100000x1.Idx) :
    ∃ t : Fin cfg4.N, (cfg4.win 3).flush t = true ∧ i ∈ ((cfg4.win 3).blk t).view.set := by
  have hi0 : (i 0).val < 100000 := (i 0).isLt
  have hi1 : (i 1).val < 1 := (i 1).isLt
  obtain ⟨t, ht⟩ := idx_onto ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 1 ≤ (i 1).val ∧ (i 1).val < win4_3.index t (1 : Fin 2) * 1 + 1; omega

end Blocks

end Cert.KernelIdeal.Val.Head

namespace Cert.KernelIdeal.Val

open Idealize.ShloMosaic Idealize.ShloMosaic.TcCoe
open Cert.KernelIdeal Cert.KernelIdeal.Gen

/-- THE HEAD REGION'S OUTPUT ARRAY after the region: the head h·W_out + b_out of the node array and the weights as
    the region finds them and of the bias vector `bo`, given that the region finds the bias as `bo` recast to one
    row of one entry. The 50 row blocks tile the output, and each is that block of the head. -/
theorem head4 (V : (c : Dev nD) → (b : Ref sig .tc) → Buf (Elt Ideal) ((c : Thread nD τ).loc b)) (c : Dev nD)
    (bo : Cert.Spec.Fl Ideal Cert.ReferenceIdeal.S1)
    (hb : V c (Pipeline.arrRef spec4 2) = fun i => shapeCast S1x1 bo shapeCasts_S1_S1x1 i) :
    (Cert.KernelIdeal.Hand.dat4 (F := Ideal) V c).arrAt 3 cfg4.N
      = Cert.Spec.head (V c (Pipeline.arrRef spec4 0)) (V c (Pipeline.arrRef spec4 1)) bo :=
  (Cert.KernelIdeal.Hand.dat4 (F := Ideal) V c).arrAt_eq_of_cover 3 _ (fun t _ => Head.flushed_eq V c bo hb t) Head.cover

/-- info: 'Cert.KernelIdeal.Val.head4' depends on axioms: [propext, Classical.choice, Quot.sound] -/
#guard_msgs in #print axioms head4

end Cert.KernelIdeal.Val

end
-- ==== Proof.Val.Chain.lean ====
/-
  The kernel program's result as a term of its argument arrays.  Its main function is fourteen items — a stretch of
  whole-array host operations or a kernel region over a grid of row blocks — and W0 … W14 are the buffers' contents at
  the boundaries between them.  Boundary by boundary every buffer a later item reads is identified with a term of the
  argument arrays as launched: a host stretch applies the reference's own operations to the buffers it reads; a dense
  region leaves x·W_lin, the two halves of x·W_film + b and the self term (its weight matrix being the four weights side
  by side); a message region leaves relu(γ[dst]·h[src] + β[dst]); the head region leaves h·W_out + b_out.  Buffers that
  an item does not write are carried over unchanged.  At the last boundary the result buffer holds the network's term.
-/
import proofs.«143908_j58153857188396_1_alg».proof.Proof.KI.Fold
import proofs.«143908_j58153857188396_1_alg».proof.Proof.Gen.KernelIdeal.Regions
import proofs.«143908_j58153857188396_1_alg».proof.Proof.Val.Spec
import proofs.«143908_j58153857188396_1_alg».proof.Proof.Val.Host
import proofs.«143908_j58153857188396_1_alg».proof.Proof.Val.Dense0
import proofs.«143908_j58153857188396_1_alg».proof.Proof.Val.Dense2
import proofs.«143908_j58153857188396_1_alg».proof.Proof.Val.Mix1
import proofs.«143908_j58153857188396_1_alg».proof.Proof.Val.Mix3
import proofs.«143908_j58153857188396_1_alg».proof.Proof.Val.Head4
import Idealize.ShloMosaic.PureOps.Ideal

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem

/-! ## Level by level: what the buffers hold, as terms of the argument arrays -/

section Chain

variable (m : (ℓ : Loc nD τ sig) → Buf (Elt Ideal) ℓ) (ρ : Dev nD → PrngReg) (c : Dev nD)

/-- Argument `r` as launched. -/
abbrev a0 (r : Ref sig .tc) := W0 m ρ c (Proc.devRef .tc r)

theorem keep1 (r : Ref sig .tc) (h : r ∉ hostOps0_W) : W1 m ρ c (Proc.devRef .tc r) = W0 m ρ c (Proc.devRef .tc r) :=
  StableHlo.after_of_writes_sub hostOps0 _ hostOps0_writes h
theorem keep3 (r : Ref sig .tc) (h : r ∉ hostOps1_W) : W3 m ρ c (Proc.devRef .tc r) = W2 m ρ c (Proc.devRef .tc r) :=
  StableHlo.after_of_writes_sub hostOps1 _ hostOps1_writes h
theorem keep5 (r : Ref sig .tc) (h : r ∉ hostOps2_W) : W5 m ρ c (Proc.devRef .tc r) = W4 m ρ c (Proc.devRef .tc r) :=
  StableHlo.after_of_writes_sub hostOps2 _ hostOps2_writes h
theorem keep6 (r : Ref sig .tc) (h : r ∉ hostOps2_1_W) : W6 m ρ c (Proc.devRef .tc r) = W5 m ρ c (Proc.devRef .tc r) :=
  StableHlo.after_of_writes_sub hostOps2_1 _ hostOps2_1_writes h
theorem keep7 (r : Ref sig .tc) (h : r ∉ hostOps2_2_W) : W7 m ρ c (Proc.devRef .tc r) = W6 m ρ c (Proc.devRef .tc r) :=
  StableHlo.after_of_writes_sub hostOps2_2 _ hostOps2_2_writes h
theorem keep9 (r : Ref sig .tc) (h : r ∉ hostOps3_W) : W9 m ρ c (Proc.devRef .tc r) = W8 m ρ c (Proc.devRef .tc r) :=
  StableHlo.after_of_writes_sub hostOps3 _ hostOps3_writes h
theorem keep11 (r : Ref sig .tc) (h : r ∉ hostOps4_W) : W11 m ρ c (Proc.devRef .tc r) = W10 m ρ c (Proc.devRef .tc r) :=
  StableHlo.after_of_writes_sub hostOps4 _ hostOps4_writes h
theorem keep12 (r : Ref sig .tc) (h : r ∉ hostOps4_1_W) : W12 m ρ c (Proc.devRef .tc r) = W11 m ρ c (Proc.devRef .tc r) :=
  StableHlo.after_of_writes_sub hostOps4_1 _ hostOps4_1_writes h
theorem keep13 (r : Ref sig .tc) (h : r ∉ hostOps4_2_W) : W13 m ρ c (Proc.devRef .tc r) = W12 m ρ c (Proc.devRef .tc r) :=
  StableHlo.after_of_writes_sub hostOps4_2 _ hostOps4_2_writes h

/-- The source and target node of every edge, read off the edge list. -/
abbrev eSrc := Cert.Spec.srcOf (F := Ideal) (a0 m ρ c main_arg1)
abbrev eDst := Cert.Spec.dstOf (F := Ideal) (a0 m ρ c main_arg1)

/-! ### Layer 1 -/

theorem w1_src : W1 m ρ c (Proc.devRef .tc main_v1) = eSrc m ρ c := host0_src _
theorem w1_dst : W1 m ρ c (Proc.devRef .tc main_v3) = eDst m ρ c := host0_dst _

/-! ### The two index rows at the boundaries where they are read -/
theorem w2_src : W2 m ρ c (Proc.devRef .tc main_v1) = eSrc m ρ c :=
  (W2_of_ne m ρ c main_v1 (by decide)).trans (w1_src m ρ c)
theorem w2_dst : W2 m ρ c (Proc.devRef .tc main_v3) = eDst m ρ c :=
  (W2_of_ne m ρ c main_v3 (by decide)).trans (w1_dst m ρ c)
theorem w4_src : W4 m ρ c (Proc.devRef .tc main_v1) = eSrc m ρ c :=
  (W4_of_ne m ρ c main_v1 (by decide)).trans <| (keep3 m ρ c main_v1 (by decide)).trans <| (W2_of_ne m ρ c main_v1 (by decide)).trans (w1_src m ρ c)
theorem w4_dst : W4 m ρ c (Proc.devRef .tc main_v3) = eDst m ρ c :=
  (W4_of_ne m ρ c main_v3 (by decide)).trans <| (keep3 m ρ c main_v3 (by decide)).trans <| (W2_of_ne m ρ c main_v3 (by decide)).trans (w1_dst m ρ c)
theorem w8_src : W8 m ρ c (Proc.devRef .tc main_v1) = eSrc m ρ c :=
  (W8_of_ne m ρ c main_v1 (by decide)).trans <| (keep7 m ρ c main_v1 (by decide)).trans <| (keep6 m ρ c main_v1 (by decide)).trans <| (keep5 m ρ c main_v1 (by decide)).trans <| (W4_of_ne m ρ c main_v1 (by decide)).trans <| (keep3 m ρ c main_v1 (by decide)).trans <| (W2_of_ne m ρ c main_v1 (by decide)).trans (w1_src m ρ c)
theorem w8_dst : W8 m ρ c (Proc.devRef .tc main_v3) = eDst m ρ c :=
  (W8_of_ne m ρ c main_v3 (by decide)).trans <| (keep7 m ρ c main_v3 (by decide)).trans <| (keep6 m ρ c main_v3 (by decide)).trans <| (keep5 m ρ c main_v3 (by decide)).trans <| (W4_of_ne m ρ c main_v3 (by decide)).trans <| (keep3 m ρ c main_v3 (by decide)).trans <| (W2_of_ne m ρ c main_v3 (by decide)).trans (w1_dst m ρ c)
theorem w10_src : W10 m ρ c (Proc.devRef .tc main_v1) = eSrc m ρ c :=
  (W10_of_ne m ρ c main_v1 (by decide)).trans <| (keep9 m ρ c main_v1 (by decide)).trans <| (W8_of_ne m ρ c main_v1 (by decide)).trans <| (keep7 m ρ c main_v1 (by decide)).trans <| (keep6 m ρ c main_v1 (by decide)).trans <| (keep5 m ρ c main_v1 (by decide)).trans <| (W4_of_ne m ρ c main_v1 (by decide)).trans <| (keep3 m ρ c main_v1 (by decide)).trans <| (W2_of_ne m ρ c main_v1 (by decide)).trans (w1_src m ρ c)
theorem w10_dst : W10 m ρ c (Proc.devRef .tc main_v3) = eDst m ρ c :=
  (W10_of_ne m ρ c main_v3 (by decide)).trans <| (keep9 m ρ c main_v3 (by decide)).trans <| (W8_of_ne m ρ c main_v3 (by decide)).trans <| (keep7 m ρ c main_v3 (by decide)).trans <| (keep6 m ρ c main_v3 (by decide)).trans <| (keep5 m ρ c main_v3 (by decide)).trans <| (W4_of_ne m ρ c main_v3 (by decide)).trans <| (keep3 m ρ c main_v3 (by decide)).trans <| (W2_of_ne m ρ c main_v3 (by decide)).trans (w1_dst m ρ c)

/-! ### The argument arrays at the boundaries where they are read -/
theorem w6_arg7 : W6 m ρ c (Proc.devRef .tc main_arg7) = a0 m ρ c main_arg7 :=
  (keep6 m ρ c main_arg7 (by decide)).trans <| (keep5 m ρ c main_arg7 (by decide)).trans <| (W4_of_ne m ρ c main_arg7 (by decide)).trans <| (keep3 m ρ c main_arg7 (by decide)).trans <| (W2_of_ne m ρ c main_arg7 (by decide)).trans <| (keep1 m ρ c main_arg7 (by decide)).trans rfl
theorem w6_arg8 : W6 m ρ c (Proc.devRef .tc main_arg8) = a0 m ρ c main_arg8 :=
  (keep6 m ρ c main_arg8 (by decide)).trans <| (keep5 m ρ c main_arg8 (by decide)).trans <| (W4_of_ne m ρ c main_arg8 (by decide)).trans <| (keep3 m ρ c main_arg8 (by decide)).trans <| (W2_of_ne m ρ c main_arg8 (by decide)).trans <| (keep1 m ρ c main_arg8 (by decide)).trans rfl
theorem w6_arg9 : W6 m ρ c (Proc.devRef .tc main_arg9) = a0 m ρ c main_arg9 :=
  (keep6 m ρ c main_arg9 (by decide)).trans <| (keep5 m ρ c main_arg9 (by decide)).trans <| (W4_of_ne m ρ c main_arg9 (by decide)).trans <| (keep3 m ρ c main_arg9 (by decide)).trans <| (W2_of_ne m ρ c main_arg9 (by decide)).trans <| (keep1 m ρ c main_arg9 (by decide)).trans rfl
theorem w6_arg10 : W6 m ρ c (Proc.devRef .tc main_arg10) = a0 m ρ c main_arg10 :=
  (keep6 m ρ c main_arg10 (by decide)).trans <| (keep5 m ρ c main_arg10 (by decide)).trans <| (W4_of_ne m ρ c main_arg10 (by decide)).trans <| (keep3 m ρ c main_arg10 (by decide)).trans <| (W2_of_ne m ρ c main_arg10 (by decide)).trans <| (keep1 m ρ c main_arg10 (by decide)).trans rfl
theorem w6_arg11 : W6 m ρ c (Proc.devRef .tc main_arg11) = a0 m ρ c main_arg11 :=
  (keep6 m ρ c main_arg11 (by decide)).trans <| (keep5 m ρ c main_arg11 (by decide)).trans <| (W4_of_ne m ρ c main_arg11 (by decide)).trans <| (keep3 m ρ c main_arg11 (by decide)).trans <| (W2_of_ne m ρ c main_arg11 (by decide)).trans <| (keep1 m ρ c main_arg11 (by decide)).trans rfl
theorem w12_arg12 : W12 m ρ c (Proc.devRef .tc main_arg12) = a0 m ρ c main_arg12 :=
  (keep12 m ρ c main_arg12 (by decide)).trans <| (keep11 m ρ c main_arg12 (by decide)).trans <| (W10_of_ne m ρ c main_arg12 (by decide)).trans <| (keep9 m ρ c main_arg12 (by decide)).trans <| (W8_of_ne m ρ c main_arg12 (by decide)).trans <| (keep7 m ρ c main_arg12 (by decide)).trans <| (keep6 m ρ c main_arg12 (by decide)).trans <| (keep5 m ρ c main_arg12 (by decide)).trans <| (W4_of_ne m ρ c main_arg12 (by decide)).trans <| (keep3 m ρ c main_arg12 (by decide)).trans <| (W2_of_ne m ρ c main_arg12 (by decide)).trans <| (keep1 m ρ c main_arg12 (by decide)).trans rfl
theorem w12_arg13 : W12 m ρ c (Proc.devRef .tc main_arg13) = a0 m ρ c main_arg13 :=
  (keep12 m ρ c main_arg13 (by decide)).trans <| (keep11 m ρ c main_arg13 (by decide)).trans <| (W10_of_ne m ρ c main_arg13 (by decide)).trans <| (keep9 m ρ c main_arg13 (by decide)).trans <| (W8_of_ne m ρ c main_arg13 (by decide)).trans <| (keep7 m ρ c main_arg13 (by decide)).trans <| (keep6 m ρ c main_arg13 (by decide)).trans <| (keep5 m ρ c main_arg13 (by decide)).trans <| (W4_of_ne m ρ c main_arg13 (by decide)).trans <| (keep3 m ρ c main_arg13 (by decide)).trans <| (W2_of_ne m ρ c main_arg13 (by decide)).trans <| (keep1 m ρ c main_arg13 (by decide)).trans rfl

/-! ### Layer 1 -/
theorem w1_wall : W1 m ρ c (Proc.devRef .tc main_v4) = concatenate S64x384 1 [⟨S64x64, (a0 m ρ c main_arg2)⟩, ⟨S64x128, (a0 m ρ c main_arg3)⟩, ⟨S64x64, (a0 m ρ c main_arg5)⟩, ⟨S64x128, (a0 m ρ c main_arg6)⟩] concatenates_S64x64_S64x128_S64x64_S64x128_S64x384_d1 := host0_wall _
theorem w1_bias : W1 m ρ c (Proc.devRef .tc main_v5) = fun i => shapeCast S1x128 (a0 m ρ c main_arg4) shapeCasts_S128_S1x128 i := host0_bias _
theorem w1_x : W1 m ρ c (Proc.devRef .tc main_arg0) = a0 m ρ c main_arg0 := keep1 m ρ c main_arg0 (by decide)
theorem w2_h : W2 m ρ c (Proc.devRef .tc main_v6_0) = Cert.Spec.dot64 (a0 m ρ c main_arg0) (a0 m ρ c main_arg2) :=
  (W2_arr m ρ c 3).trans <| (dense0_h (V1 m ρ) c _ _ _ _ (w1_wall m ρ c)).trans
    (by rw [show V1 m ρ c (Pipeline.arrRef spec0 0) = _ from w1_x m ρ c])
theorem w2_beta : W2 m ρ c (Proc.devRef .tc main_v6_1) = Cert.Spec.beta (a0 m ρ c main_arg0) (a0 m ρ c main_arg3) (a0 m ρ c main_arg4) :=
  (W2_arr m ρ c 4).trans <| (dense0_beta (V1 m ρ) c _ _ _ _ (w1_wall m ρ c) _ (w1_bias m ρ c)).trans
    (by rw [show V1 m ρ c (Pipeline.arrRef spec0 0) = _ from w1_x m ρ c])
theorem w2_gamma : W2 m ρ c (Proc.devRef .tc main_v6_2) = Cert.Spec.gamma (a0 m ρ c main_arg0) (a0 m ρ c main_arg3) (a0 m ρ c main_arg4) :=
  (W2_arr m ρ c 5).trans <| (dense0_gamma (V1 m ρ) c _ _ _ _ (w1_wall m ρ c) _ (w1_bias m ρ c)).trans
    (by rw [show V1 m ρ c (Pipeline.arrRef spec0 0) = _ from w1_x m ρ c])
theorem w2_skip : W2 m ρ c (Proc.devRef .tc main_v6_3) = Cert.Spec.skip (a0 m ρ c main_arg0) (a0 m ρ c main_arg5) (a0 m ρ c main_arg6) :=
  (W2_arr m ρ c 6).trans <| (dense0_skip (V1 m ρ) c _ _ _ _ (w1_wall m ρ c)).trans
    (by rw [show V1 m ρ c (Pipeline.arrRef spec0 0) = _ from w1_x m ρ c])
theorem w3_h : W3 m ρ c (Proc.devRef .tc main_v13) = Cert.Spec.gat (Cert.Spec.dot64 (a0 m ρ c main_arg0) (a0 m ρ c main_arg2)) (eSrc m ρ c) :=
  (host1_h (W2 m ρ c)).trans (by rw [w2_h, w2_src])
theorem w3_beta : W3 m ρ c (Proc.devRef .tc main_v20) = Cert.Spec.gat (Cert.Spec.beta (a0 m ρ c main_arg0) (a0 m ρ c main_arg3) (a0 m ρ c main_arg4)) (eDst m ρ c) :=
  (host1_beta (W2 m ρ c)).trans (by rw [w2_beta, w2_dst])
theorem w3_gamma : W3 m ρ c (Proc.devRef .tc main_v27) = Cert.Spec.gat (Cert.Spec.gamma (a0 m ρ c main_arg0) (a0 m ρ c main_arg3) (a0 m ρ c main_arg4)) (eDst m ρ c) :=
  (host1_gamma (W2 m ρ c)).trans (by rw [w2_gamma, w2_dst])
theorem w4_msg : W4 m ρ c (Proc.devRef .tc main_v28) = Cert.Spec.msg (Cert.Spec.gat (Cert.Spec.gamma (a0 m ρ c main_arg0) (a0 m ρ c main_arg3) (a0 m ρ c main_arg4)) (eDst m ρ c)) (Cert.Spec.gat (Cert.Spec.dot64 (a0 m ρ c main_arg0) (a0 m ρ c main_arg2)) (eSrc m ρ c)) (Cert.Spec.gat (Cert.Spec.beta (a0 m ρ c main_arg0) (a0 m ρ c main_arg3) (a0 m ρ c main_arg4)) (eDst m ρ c)) :=
  (W4_arr m ρ c 3).trans <| (mix1 (V3 m ρ) c).trans
    (by rw [show V3 m ρ c (Pipeline.arrRef spec1 2) = _ from w3_gamma m ρ c, show V3 m ρ c (Pipeline.arrRef spec1 0) = _ from w3_h m ρ c, show V3 m ρ c (Pipeline.arrRef spec1 1) = _ from w3_beta m ρ c])
theorem w4_skip : W4 m ρ c (Proc.devRef .tc main_v6_3) = Cert.Spec.skip (a0 m ρ c main_arg0) (a0 m ρ c main_arg5) (a0 m ρ c main_arg6) :=
  (W4_of_ne m ρ c main_v6_3 (by decide)).trans <| (keep3 m ρ c main_v6_3 (by decide)).trans (w2_skip m ρ c)
theorem w5_conv : W5 m ρ c (Proc.devRef .tc main_v41) = Cert.Spec.conv (a0 m ρ c main_arg0) (eSrc m ρ c) (eDst m ρ c) (a0 m ρ c main_arg2) (a0 m ρ c main_arg3) (a0 m ρ c main_arg4) (a0 m ρ c main_arg5) (a0 m ρ c main_arg6) :=
  (host2_conv (W4 m ρ c)).trans (by rw [w4_skip, w4_dst, w4_msg]; rfl)
theorem w5_slope : W5 m ρ c (Proc.devRef .tc main_cst_8) = constant (F := Ideal) S_ .f32 0x3C23D70A#32 := host2_slope _
theorem w6_out : W6 m ρ c (Proc.devRef .tc main_v42) = Cert.Spec.layer (a0 m ρ c main_arg0) (eSrc m ρ c) (eDst m ρ c) (a0 m ρ c main_arg2) (a0 m ρ c main_arg3) (a0 m ρ c main_arg4) (a0 m ρ c main_arg5) (a0 m ρ c main_arg6) :=
  (host21_leaky (W5 m ρ c) (w5_slope m ρ c)).trans (by rw [w5_conv]; rfl)

/-! ### Layer 2 -/
/-- The first layer's output. -/
abbrev L1 := Cert.Spec.layer (F := Ideal) (a0 m ρ c main_arg0) (eSrc m ρ c) (eDst m ρ c) (a0 m ρ c main_arg2) (a0 m ρ c main_arg3) (a0 m ρ c main_arg4) (a0 m ρ c main_arg5) (a0 m ρ c main_arg6)
theorem w7_wall : W7 m ρ c (Proc.devRef .tc main_v43) = concatenate S64x384 1 [⟨S64x64, (a0 m ρ c main_arg7)⟩, ⟨S64x128, (a0 m ρ c main_arg8)⟩, ⟨S64x64, (a0 m ρ c main_arg10)⟩, ⟨S64x128, (a0 m ρ c main_arg11)⟩] concatenates_S64x64_S64x128_S64x64_S64x128_S64x384_d1 :=
  (host22_wall (W6 m ρ c)).trans (by rw [w6_arg7, w6_arg8, w6_arg10, w6_arg11])
theorem w7_bias : W7 m ρ c (Proc.devRef .tc main_v44) = fun i => shapeCast S1x128 (a0 m ρ c main_arg9) shapeCasts_S128_S1x128 i :=
  (host22_bias (W6 m ρ c)).trans (by rw [w6_arg9])
theorem w7_x : W7 m ρ c (Proc.devRef .tc main_v42) = L1 m ρ c := (keep7 m ρ c main_v42 (by decide)).trans (w6_out m ρ c)
theorem w8_h : W8 m ρ c (Proc.devRef .tc main_v45_0) = Cert.Spec.dot64 (L1 m ρ c) (a0 m ρ c main_arg7) :=
  (W8_arr m ρ c 3).trans <| (dense2_h (V7 m ρ) c _ _ _ _ (w7_wall m ρ c)).trans
    (by rw [show V7 m ρ c (Pipeline.arrRef spec2 0) = _ from w7_x m ρ c])
theorem w8_beta : W8 m ρ c (Proc.devRef .tc main_v45_1) = Cert.Spec.beta (L1 m ρ c) (a0 m ρ c main_arg8) (a0 m ρ c main_arg9) :=
  (W8_arr m ρ c 4).trans <| (dense2_beta (V7 m ρ) c _ _ _ _ (w7_wall m ρ c) _ (w7_bias m ρ c)).trans
    (by rw [show V7 m ρ c (Pipeline.arrRef spec2 0) = _ from w7_x m ρ c])
theorem w8_gamma : W8 m ρ c (Proc.devRef .tc main_v45_2) = Cert.Spec.gamma (L1 m ρ c) (a0 m ρ c main_arg8) (a0 m ρ c main_arg9) :=
  (W8_arr m ρ c 5).trans <| (dense2_gamma (V7 m ρ) c _ _ _ _ (w7_wall m ρ c) _ (w7_bias m ρ c)).trans
    (by rw [show V7 m ρ c (Pipeline.arrRef spec2 0) = _ from w7_x m ρ c])
theorem w8_skip : W8 m ρ c (Proc.devRef .tc main_v45_3) = Cert.Spec.skip (L1 m ρ c) (a0 m ρ c main_arg10) (a0 m ρ c main_arg11) :=
  (W8_arr m ρ c 6).trans <| (dense2_skip (V7 m ρ) c _ _ _ _ (w7_wall m ρ c)).trans
    (by rw [show V7 m ρ c (Pipeline.arrRef spec2 0) = _ from w7_x m ρ c])
theorem w9_h : W9 m ρ c (Proc.devRef .tc main_v52) = Cert.Spec.gat (Cert.Spec.dot64 (L1 m ρ c) (a0 m ρ c main_arg7)) (eSrc m ρ c) :=
  (host3_h (W8 m ρ c)).trans (by rw [w8_h, w8_src])
theorem w9_beta : W9 m ρ c (Proc.devRef .tc main_v59) = Cert.Spec.gat (Cert.Spec.beta (L1 m ρ c) (a0 m ρ c main_arg8) (a0 m ρ c main_arg9)) (eDst m ρ c) :=
  (host3_beta (W8 m ρ c)).trans (by rw [w8_beta, w8_dst])
theorem w9_gamma : W9 m ρ c (Proc.devRef .tc main_v66) = Cert.Spec.gat (Cert.Spec.gamma (L1 m ρ c) (a0 m ρ c main_arg8) (a0 m ρ c main_arg9)) (eDst m ρ c) :=
  (host3_gamma (W8 m ρ c)).trans (by rw [w8_gamma, w8_dst])
theorem w10_msg : W10 m ρ c (Proc.devRef .tc main_v67) = Cert.Spec.msg (Cert.Spec.gat (Cert.Spec.gamma (L1 m ρ c) (a0 m ρ c main_arg8) (a0 m ρ c main_arg9)) (eDst m ρ c)) (Cert.Spec.gat (Cert.Spec.dot64 (L1 m ρ c) (a0 m ρ c main_arg7)) (eSrc m ρ c)) (Cert.Spec.gat (Cert.Spec.beta (L1 m ρ c) (a0 m ρ c main_arg8) (a0 m ρ c main_arg9)) (eDst m ρ c)) :=
  (W10_arr m ρ c 3).trans <| (mix3 (V9 m ρ) c).trans
    (by rw [show V9 m ρ c (Pipeline.arrRef spec3 2) = _ from w9_gamma m ρ c, show V9 m ρ c (Pipeline.arrRef spec3 0) = _ from w9_h m ρ c, show V9 m ρ c (Pipeline.arrRef spec3 1) = _ from w9_beta m ρ c])
theorem w10_skip : W10 m ρ c (Proc.devRef .tc main_v45_3) = Cert.Spec.skip (L1 m ρ c) (a0 m ρ c main_arg10) (a0 m ρ c main_arg11) :=
  (W10_of_ne m ρ c main_v45_3 (by decide)).trans <| (keep9 m ρ c main_v45_3 (by decide)).trans (w8_skip m ρ c)
theorem w11_conv : W11 m ρ c (Proc.devRef .tc main_v80) = Cert.Spec.conv (L1 m ρ c) (eSrc m ρ c) (eDst m ρ c) (a0 m ρ c main_arg7) (a0 m ρ c main_arg8) (a0 m ρ c main_arg9) (a0 m ρ c main_arg10) (a0 m ρ c main_arg11) :=
  (host4_conv (W10 m ρ c)).trans (by rw [w10_skip, w10_dst, w10_msg]; rfl)
theorem w11_slope : W11 m ρ c (Proc.devRef .tc main_cst_19) = constant (F := Ideal) S_ .f32 0x3C23D70A#32 := host4_slope _
theorem w12_out : W12 m ρ c (Proc.devRef .tc main_v81) = Cert.Spec.layer (L1 m ρ c) (eSrc m ρ c) (eDst m ρ c) (a0 m ρ c main_arg7) (a0 m ρ c main_arg8) (a0 m ρ c main_arg9) (a0 m ρ c main_arg10) (a0 m ρ c main_arg11) :=
  (host41_leaky (W11 m ρ c) (w11_slope m ρ c)).trans (by rw [w11_conv]; rfl)

/-! ### The head -/
/-- The second layer's output. -/
abbrev L2 := Cert.Spec.layer (F := Ideal) (L1 m ρ c) (eSrc m ρ c) (eDst m ρ c) (a0 m ρ c main_arg7) (a0 m ρ c main_arg8) (a0 m ρ c main_arg9) (a0 m ρ c main_arg10) (a0 m ρ c main_arg11)
theorem w13_x : W13 m ρ c (Proc.devRef .tc main_v81) = L2 m ρ c := (keep13 m ρ c main_v81 (by decide)).trans (w12_out m ρ c)
theorem w13_wout : W13 m ρ c (Proc.devRef .tc main_arg12) = a0 m ρ c main_arg12 := (keep13 m ρ c main_arg12 (by decide)).trans (w12_arg12 m ρ c)
theorem w13_bias : W13 m ρ c (Proc.devRef .tc main_v82) = fun i => shapeCast S1x1 (a0 m ρ c main_arg13) shapeCasts_S1_S1x1 i :=
  (host42_bias (W12 m ρ c)).trans (by rw [w12_arg13])
theorem w14_out : W14 m ρ c (Proc.devRef .tc main_v83) = Cert.Spec.head (L2 m ρ c) (a0 m ρ c main_arg12) (a0 m ρ c main_arg13) :=
  (W14_arr m ρ c 3).trans <| (head4 (V13 m ρ) c _ (w13_bias m ρ c)).trans
    (by rw [show V13 m ρ c (Pipeline.arrRef spec4 0) = _ from w13_x m ρ c, show V13 m ρ c (Pipeline.arrRef spec4 1) = _ from w13_wout m ρ c])

/-- The kernel program's result array, on every core, is the network's term of the argument arrays as launched. -/
theorem kernel_value : W14 m ρ c (Proc.devRef .tc main_v83) = Cert.Spec.result (a0 m ρ c main_arg0) (a0 m ρ c main_arg1) (a0 m ρ c main_arg2) (a0 m ρ c main_arg3) (a0 m ρ c main_arg4) (a0 m ρ c main_arg5) (a0 m ρ c main_arg6) (a0 m ρ c main_arg7) (a0 m ρ c main_arg8) (a0 m ρ c main_arg9) (a0 m ρ c main_arg10) (a0 m ρ c main_arg11) (a0 m ρ c main_arg12) (a0 m ρ c main_arg13) :=
  w14_out m ρ c

end Chain

end Cert.KernelIdeal.Val

end
-- ==== Proof.lean ====
/-
  Two stacked FiLM graph-convolution layers and a linear head over a graph of 100000 nodes and 1600000 edges.
  Per layer the kernel program forms the four node-wise products x·W_lin, x·W_film + b, x·W_skip, x·W_film_skip in ONE
  matrix product against the four weights laid side by side (a column block of the product of x with a concatenation is
  the product of x with that block), gathers rows at the edges' end points, forms the message relu(γ[dst]·h[src] + β[dst])
  edge block by edge block, sums the messages into their target nodes, divides by max(in-degree, 1), adds the self term
  and applies the leaky rectifier; the reference does the same with four separate products and whole-array operations.
  Over the extended reals every operation of the two programs is the same operation on the same operands in the same
  order — the only rearrangements are the tiling into row blocks and the side-by-side weights, which move no summand —,
  so the two results are one term of the argument arrays (`Cert.Spec.result`) and no finiteness is used.
  The frames: each program runs to its end, faults nowhere and leaves its fourteen argument arrays as launched.
-/
import proofs.«143908_j58153857188396_1_alg».proof.Defs
import proofs.«143908_j58153857188396_1_alg».proof.Proof.Gen.Pre_finite_inputs
import proofs.«143908_j58153857188396_1_alg».proof.Proof.K.Run
import proofs.«143908_j58153857188396_1_alg».proof.Proof.KI.Run
import proofs.«143908_j58153857188396_1_alg».proof.Proof.Ref.Run
import proofs.«143908_j58153857188396_1_alg».proof.Proof.Ref.Result
import proofs.«143908_j58153857188396_1_alg».proof.Proof.Val.Chain

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

/-- The idealization rewrote nothing. -/
theorem preserves : Cert.preserves_Kernel_KernelIdeal := trivial

/-- Both idealized programs end with the network's term of the argument arrays: the kernel program by its run over the
    fourteen items of its main function and the value of every boundary, the reference by its run of whole-array
    operations; the arguments agree, so the two terms are one. -/
theorem algebraic : Cert.algebraic_KernelIdeal_ReferenceIdeal := by
  intro m ρ m' ρ' _ hagree
  refine ⟨fun c => Cert.Spec.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v83 (by decide))).trans (Cert.KernelIdeal.Val.kernel_value m ρ c),
      (h c _ (Cert.KernelIdeal.Hand.mem_uc Cert.KernelIdeal.main_arg0 (by decide))).trans (Cert.KernelIdeal.Hand.W14_main_arg0 m ρ c),
      (h c _ (Cert.KernelIdeal.Hand.mem_uc Cert.KernelIdeal.main_arg1 (by decide))).trans (Cert.KernelIdeal.Hand.W14_main_arg1 m ρ c),
      (h c _ (Cert.KernelIdeal.Hand.mem_uc Cert.KernelIdeal.main_arg2 (by decide))).trans (Cert.KernelIdeal.Hand.W14_main_arg2 m ρ c),
      (h c _ (Cert.KernelIdeal.Hand.mem_uc Cert.KernelIdeal.main_arg3 (by decide))).trans (Cert.KernelIdeal.Hand.W14_main_arg3 m ρ c),
      (h c _ (Cert.KernelIdeal.Hand.mem_uc Cert.KernelIdeal.main_arg4 (by decide))).trans (Cert.KernelIdeal.Hand.W14_main_arg4 m ρ c),
      (h c _ (Cert.KernelIdeal.Hand.mem_uc Cert.KernelIdeal.main_arg5 (by decide))).trans (Cert.KernelIdeal.Hand.W14_main_arg5 m ρ c),
      (h c _ (Cert.KernelIdeal.Hand.mem_uc Cert.KernelIdeal.main_arg6 (by decide))).trans (Cert.KernelIdeal.Hand.W14_main_arg6 m ρ c),
      (h c _ (Cert.KernelIdeal.Hand.mem_uc Cert.KernelIdeal.main_arg7 (by decide))).trans (Cert.KernelIdeal.Hand.W14_main_arg7 m ρ c),
      (h c _ (Cert.KernelIdeal.Hand.mem_uc Cert.KernelIdeal.main_arg8 (by decide))).trans (Cert.KernelIdeal.Hand.W14_main_arg8 m ρ c),
      (h c _ (Cert.KernelIdeal.Hand.mem_uc Cert.KernelIdeal.main_arg9 (by decide))).trans (Cert.KernelIdeal.Hand.W14_main_arg9 m ρ c),
      (h c _ (Cert.KernelIdeal.Hand.mem_uc Cert.KernelIdeal.main_arg10 (by decide))).trans (Cert.KernelIdeal.Hand.W14_main_arg10 m ρ c),
      (h c _ (Cert.KernelIdeal.Hand.mem_uc Cert.KernelIdeal.main_arg11 (by decide))).trans (Cert.KernelIdeal.Hand.W14_main_arg11 m ρ c),
      (h c _ (Cert.KernelIdeal.Hand.mem_uc Cert.KernelIdeal.main_arg12 (by decide))).trans (Cert.KernelIdeal.Hand.W14_main_arg12 m ρ c),
      (h c _ (Cert.KernelIdeal.Hand.mem_uc Cert.KernelIdeal.main_arg13 (by decide))).trans (Cert.KernelIdeal.Hand.W14_main_arg13 m ρ c)⟩
  · refine (θ_run Cert.ReferenceIdeal.defs _ _).mono (fun r h c => ?_) (Cert.ReferenceIdeal.Hand.run_raw (F := Ideal) m' ρ')
    refine ⟨((h c Cert.ReferenceIdeal.main_v111).trans (Cert.ReferenceIdeal.Hand.result_eq _)).trans ?_,
      (h c Cert.ReferenceIdeal.main_arg0).trans (Cert.ReferenceIdeal.Hand.after_main_arg0 _),
      (h c Cert.ReferenceIdeal.main_arg1).trans (Cert.ReferenceIdeal.Hand.after_main_arg1 _),
      (h c Cert.ReferenceIdeal.main_arg2).trans (Cert.ReferenceIdeal.Hand.after_main_arg2 _),
      (h c Cert.ReferenceIdeal.main_arg3).trans (Cert.ReferenceIdeal.Hand.after_main_arg3 _),
      (h c Cert.ReferenceIdeal.main_arg4).trans (Cert.ReferenceIdeal.Hand.after_main_arg4 _),
      (h c Cert.ReferenceIdeal.main_arg5).trans (Cert.ReferenceIdeal.Hand.after_main_arg5 _),
      (h c Cert.ReferenceIdeal.main_arg6).trans (Cert.ReferenceIdeal.Hand.after_main_arg6 _),
      (h c Cert.ReferenceIdeal.main_arg7).trans (Cert.ReferenceIdeal.Hand.after_main_arg7 _),
      (h c Cert.ReferenceIdeal.main_arg8).trans (Cert.ReferenceIdeal.Hand.after_main_arg8 _),
      (h c Cert.ReferenceIdeal.main_arg9).trans (Cert.ReferenceIdeal.Hand.after_main_arg9 _),
      (h c Cert.ReferenceIdeal.main_arg10).trans (Cert.ReferenceIdeal.Hand.after_main_arg10 _),
      (h c Cert.ReferenceIdeal.main_arg11).trans (Cert.ReferenceIdeal.Hand.after_main_arg11 _),
      (h c Cert.ReferenceIdeal.main_arg12).trans (Cert.ReferenceIdeal.Hand.after_main_arg12 _),
      (h c Cert.ReferenceIdeal.main_arg13).trans (Cert.ReferenceIdeal.Hand.after_main_arg13 _)⟩
    have e := hagree c
    beta_reduce
    rw [← e.1, ← e.2.1, ← e.2.2.1, ← e.2.2.2.1, ← e.2.2.2.2.1, ← e.2.2.2.2.2.1, ← e.2.2.2.2.2.2.1, ← e.2.2.2.2.2.2.2.1, ← e.2.2.2.2.2.2.2.2.1,
      ← e.2.2.2.2.2.2.2.2.2.1, ← e.2.2.2.2.2.2.2.2.2.2.1, ← e.2.2.2.2.2.2.2.2.2.2.2.1, ← e.2.2.2.2.2.2.2.2.2.2.2.2.1, ← e.2.2.2.2.2.2.2.2.2.2.2.2.2]
    all_goals rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
